-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x35 : Shape := ⟨2, ![100000, 35]⟩
abbrev S2x3200000 : Shape := ⟨2, ![2, 3200000]⟩
abbrev S26x8 : Shape := ⟨2, ![26, 8]⟩
abbrev S8 : Shape := ⟨1, ![8]⟩
abbrev S17x64 : Shape := ⟨2, ![17, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x35 : S_.BroadcastsInDim S100000x35 (![] : Fin 0 → Fin S100000x35.rank)
  reducesTo_S100000x35_S_d0_1 : S100000x35.ReducesTo [0, 1] S_
  h_S_ : 0 < S_.numel
  bcast_S_S26x8 : S_.BroadcastsInDim S26x8 (![] : Fin 0 → Fin S26x8.rank)
  reducesTo_S26x8_S_d0_1 : S26x8.ReducesTo [0, 1] S_
  bcast_S_S8 : S_.BroadcastsInDim S8 (![] : Fin 0 → Fin S8.rank)
  reducesTo_S8_S_d0 : S8.ReducesTo [0] S_
  bcast_S_S17x64 : S_.BroadcastsInDim S17x64 (![] : Fin 0 → Fin S17x64.rank)
  reducesTo_S17x64_S_d0_1 : S17x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64x1 .f32) (main_arg16 : FVec F S1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S64x64 .f32) (main_arg13 : FVec F S64 .f32) (main_arg14 : FVec F S64x64 .f32) (main_arg15 : FVec F S64x1 .f32) (main_arg16 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_v63 main_v67

def fn_part2 {F : FTy → Type} [FloatOps F] (main_arg8 : FVec F S17x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x1 .f32) (main_arg16 : FVec F S1 .f32) (main_v33 : IVec S_ 1) : IVec S_ 1 :=
  let main_v34 : FVec F S17x64 .f32 := Host.absf main_arg8
  let main_cst_12 : FVec F S_ .f32 := constant S_ .f32 0x7F800000#32
  let main_v35 : FVec F S17x64 .f32 := broadcastInDim S17x64 ![] bcast_S_S17x64 main_cst_12
  let main_v36 : IVec S17x64 1 := cmpf .olt main_v34 main_v35
  let main_c_13 : IVec S_ 1 := constantI S_ 1 1#1
  let main_v37 : IVec S_ 1 := (fun x v => Host.reduce IntOp.andi x v reducesTo_S17x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S8 .f32) (main_arg6 : FVec F S17x64 .f32) (main_arg7 : FVec F S64 .f32) (main_arg8 : FVec F S17x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x1 .f32) (main_arg16 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S17x64 .f32 := Host.absf main_arg6
  let main_cst_8 : FVec F S_ .f32 := constant S_ .f32 0x7F800000#32
  let main_v25 : FVec F S17x64 .f32 := broadcastInDim S17x64 ![] bcast_S_S17x64 main_cst_8
  let main_v26 : IVec S17x64 1 := cmpf .olt main_v24 main_v25
  let main_c_9 : IVec S_ 1 := constantI S_ 1 1#1
  let main_v27 : IVec S_ 1 := (fun x v => Host.reduce IntOp.andi x v reducesTo_S17x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x35 .f32) (main_arg1 : IVec S2x3200000 32) (main_arg2 : FVec F S26x8 .f32) (main_arg3 : FVec F S8 .f32) (main_arg4 : FVec F S8 .f32) (main_arg5 : FVec F S8 .f32) (main_arg6 : FVec F S17x64 .f32) (main_arg7 : FVec F S64 .f32) (main_arg8 : FVec F S17x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x1 .f32) (main_arg16 : FVec F S1 .f32) : IVec S_ 1 :=
  let main_v0 : FVec F S100000x35 .f32 := Host.absf main_arg0
  let main_cst : FVec F S_ .f32 := constant S_ .f32 0x7F800000#32
  let main_v1 : FVec F S100000x35 .f32 := broadcastInDim S100000x35 ![] bcast_S_S100000x35 main_cst
  let main_v2 : IVec S100000x35 1 := cmpf .olt main_v0 main_v1
  let main_c : IVec S_ 1 := constantI S_ 1 1#1
  let main_v3 : IVec S_ 1 := (fun x v => Host.reduce IntOp.andi x v reducesTo_S100000x35_S_d0_1 h_S_) main_v2 main_c
  let main_v4 : FVec F S26x8 .f32 := Host.absf main_arg2
  let main_cst_0 : FVec F S_ .f32 := constant S_ .f32 0x7F800000#32
  let main_v5 : FVec F S26x8 .f32 := broadcastInDim S26x8 ![] bcast_S_S26x8 main_cst_0
  let main_v6 : IVec S26x8 1 := cmpf .olt main_v4 main_v5
  let main_c_1 : IVec S_ 1 := constantI S_ 1 1#1
  let main_v7 : IVec S_ 1 := (fun x v => Host.reduce IntOp.andi x v reducesTo_S26x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x35 : Shape := ⟨2, ![100000, 35]⟩
abbrev S2x3200000 : Shape := ⟨2, ![2, 3200000]⟩
abbrev S26x8 : Shape := ⟨2, ![26, 8]⟩
abbrev S8 : Shape := ⟨1, ![8]⟩
abbrev S17x64 : Shape := ⟨2, ![17, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x8 : Shape := ⟨2, ![1, 8]⟩
abbrev S100000x17 : Shape := ⟨2, ![100000, 17]⟩
abbrev S4000x35 : Shape := ⟨2, ![4000, 35]⟩
abbrev S4000x17 : Shape := ⟨2, ![4000, 17]⟩
abbrev S4000x6 : Shape := ⟨2, ![4000, 6]⟩
abbrev S4000x26 : Shape := ⟨2, ![4000, 26]⟩
abbrev S4000x3 : Shape := ⟨2, ![4000, 3]⟩
abbrev S4000x8 : Shape := ⟨2, ![4000, 8]⟩
abbrev S4000 : Shape := ⟨1, ![4000]⟩
abbrev S4000x1 : Shape := ⟨2, ![4000, 1]⟩
abbrev S3200000x17 : Shape := ⟨2, ![3200000, 17]⟩
abbrev S1x64 : Shape := ⟨2, ![1, 64]⟩
abbrev S100000x64 : Shape := ⟨2, ![100000, 64]⟩
abbrev S4000x64 : Shape := ⟨2, ![4000, 64]⟩
abbrev S3200000x64 : Shape := ⟨2, ![3200000, 64]⟩
abbrev S1x1 : Shape := ⟨2, ![1, 1]⟩

abbrev nBuf : Space → Nat
  | .hbm => 91
  | .vmem => 49
  | .smem => 0
  | _ => 0

abbrev bufTy : (tb : Table) → Fin (tcTables nBuf tb) → BufTy
  | .hbm, ⟨0, _⟩ => ⟨S100000x35, .f32⟩
  | .hbm, ⟨1, _⟩ => ⟨S2x3200000, .i32⟩
  | .hbm, ⟨2, _⟩ => ⟨S26x8, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S17x64, .f32⟩
  | .hbm, ⟨7, _⟩ => ⟨S64, .f32⟩
  | .hbm, ⟨8, _⟩ => ⟨S17x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x1, .f32⟩
  | .hbm, ⟨16, _⟩ => ⟨S1, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S_, .f32⟩
  | .hbm, ⟨22, _⟩ => ⟨S3200000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S1x8, .f32⟩
  | .hbm, ⟨35, _⟩ => ⟨S1x8, .f32⟩
  | .hbm, ⟨36, _⟩ => ⟨S1x8, .f32⟩
  | .hbm, ⟨37, _⟩ => ⟨S100000x17, .f32⟩
  | .hbm, ⟨38, _⟩ => ⟨S100000x17, .bf16⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x17, .bf16⟩
  | .hbm, ⟨48, _⟩ => ⟨S3200000x17, .f32⟩
  | .hbm, ⟨49, _⟩ => ⟨S_, .f32⟩
  | .hbm, ⟨50, _⟩ => ⟨S100000x17, .f32⟩
  | .hbm, ⟨51, _⟩ => ⟨S3200000x1, .i32⟩
  | .hbm, ⟨52, _⟩ => ⟨S100000x17, .f32⟩
  | .hbm, ⟨53, _⟩ => ⟨S1x64, .f32⟩
  | .hbm, ⟨54, _⟩ => ⟨S100000x64, .f32⟩
  | .hbm, ⟨55, _⟩ => ⟨S100000x64, .bf16⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x64, .bf16⟩
  | .hbm, ⟨65, _⟩ => ⟨S3200000x64, .f32⟩
  | .hbm, ⟨66, _⟩ => ⟨S_, .f32⟩
  | .hbm, ⟨67, _⟩ => ⟨S100000x64, .f32⟩
  | .hbm, ⟨68, _⟩ => ⟨S3200000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .bf16⟩
  | .hbm, ⟨73, _⟩ => ⟨S_, .i32⟩
  | .hbm, ⟨74, _⟩ => ⟨S3200000, .i32⟩
  | .hbm, ⟨75, _⟩ => ⟨S3200000, .i1⟩
  | .hbm, ⟨76, _⟩ => ⟨S_, .i32⟩
  | .hbm, ⟨77, _⟩ => ⟨S3200000, .i32⟩
  | .hbm, ⟨78, _⟩ => ⟨S3200000, .i32⟩
  | .hbm, ⟨79, _⟩ => ⟨S3200000, .i32⟩
  | .hbm, ⟨80, _⟩ => ⟨S3200000x1, .i32⟩
  | .hbm, ⟨81, _⟩ => ⟨S3200000x64, .bf16⟩
  | .hbm, ⟨82, _⟩ => ⟨S3200000x64, .f32⟩
  | .hbm, ⟨83, _⟩ => ⟨S_, .f32⟩
  | .hbm, ⟨84, _⟩ => ⟨S100000x64, .f32⟩
  | .hbm, ⟨85, _⟩ => ⟨S3200000x1, .i32⟩
  | .hbm, ⟨86, _⟩ => ⟨S100000x64, .f32⟩
  | .hbm, ⟨87, _⟩ => ⟨S1x64, .f32⟩
  | .hbm, ⟨88, _⟩ => ⟨S1x1, .f32⟩
  | .hbm, ⟨89, _⟩ => ⟨S100000x1, .f32⟩
  | .hbm, ⟨90, _⟩ => ⟨S100000, .f32⟩
  | .local _ .vmem, ⟨0, _⟩ => ⟨S4000x35, .f32⟩
  | .local _ .vmem, ⟨1, _⟩ => ⟨S4000x35, .f32⟩
  | .local _ .vmem, ⟨2, _⟩ => ⟨S26x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S4000x17, .f32⟩
  | .local _ .vmem, ⟨7, _⟩ => ⟨S4000x17, .f32⟩
  | .local _ .vmem, ⟨8, _⟩ => ⟨S4000x17, .bf16⟩
  | .local _ .vmem, ⟨9, _⟩ => ⟨S4000x17, .bf16⟩
  | .local _ .vmem, ⟨10, _⟩ => ⟨S4000x17, .f32⟩
  | .local _ .vmem, ⟨11, _⟩ => ⟨S4000x17, .f32⟩
  | .local _ .vmem, ⟨12, _⟩ => ⟨S4000x1, .f32⟩
  | .local _ .vmem, ⟨13, _⟩ => ⟨S4000x1, .f32⟩
  | .local _ .vmem, ⟨14, _⟩ => ⟨S4000x17, .f32⟩
  | .local _ .vmem, ⟨15, _⟩ => ⟨S4000x17, .f32⟩
  | .local _ .vmem, ⟨16, _⟩ => ⟨S17x64, .f32⟩
  | .local _ .vmem, ⟨17, _⟩ => ⟨S1x64, .f32⟩
  | .local _ .vmem, ⟨18, _⟩ => ⟨S17x64, .f32⟩
  | .local _ .vmem, ⟨19, _⟩ => ⟨S4000x64, .f32⟩
  | .local _ .vmem, ⟨20, _⟩ => ⟨S4000x64, .f32⟩
  | .local _ .vmem, ⟨21, _⟩ => ⟨S4000x64, .bf16⟩
  | .local _ .vmem, ⟨22, _⟩ => ⟨S4000x64, .bf16⟩
  | .local _ .vmem, ⟨23, _⟩ => ⟨S4000x64, .f32⟩
  | .local _ .vmem, ⟨24, _⟩ => ⟨S4000x64, .f32⟩
  | .local _ .vmem, ⟨25, _⟩ => ⟨S4000x1, .f32⟩
  | .local _ .vmem, ⟨26, _⟩ => ⟨S4000x1, .f32⟩
  | .local _ .vmem, ⟨27, _⟩ => ⟨S4000x64, .f32⟩
  | .local _ .vmem, ⟨28, _⟩ => ⟨S4000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S4000x64, .f32⟩
  | .local _ .vmem, ⟨33, _⟩ => ⟨S4000x64, .f32⟩
  | .local _ .vmem, ⟨34, _⟩ => ⟨S4000x64, .bf16⟩
  | .local _ .vmem, ⟨35, _⟩ => ⟨S4000x64, .bf16⟩
  | .local _ .vmem, ⟨36, _⟩ => ⟨S4000x64, .f32⟩
  | .local _ .vmem, ⟨37, _⟩ => ⟨S4000x64, .f32⟩
  | .local _ .vmem, ⟨38, _⟩ => ⟨S4000x1, .f32⟩
  | .local _ .vmem, ⟨39, _⟩ => ⟨S4000x1, .f32⟩
  | .local _ .vmem, ⟨40, _⟩ => ⟨S4000x64, .f32⟩
  | .local _ .vmem, ⟨41, _⟩ => ⟨S4000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S64x1, .f32⟩
  | .local _ .vmem, ⟨46, _⟩ => ⟨S1x1, .f32⟩
  | .local _ .vmem, ⟨47, _⟩ => ⟨S4000x1, .f32⟩
  | .local _ .vmem, ⟨48, _⟩ => ⟨S4000x1, .f32⟩
  | _, _ => ⟨S100000x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42_0 : Ref sig .tc := ⟨.hbm, 71, rfl⟩
abbrev main_v42_1 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_c_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg8_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem8_1 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x17 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x17 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x17 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x17 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S17x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S17x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  shapeCasts_S8_S1x8 : S8.ShapeCasts S1x8
  inb_S4000x35_S4000x35_0_0 : ∀ a, (![0, 0] : Fin 2 → Nat) a + S4000x35.size a ≤ S4000x35.size a
  h_S4000x35 : 0 < S4000x35.numel
  slices_S4000x35_o0_0_S4000x6 : S4000x35.Slices ![0, 0] S4000x6
  slices_S4000x35_o0_6_S4000x26 : S4000x35.Slices ![0, 6] S4000x26
  slices_S4000x35_o0_32_S4000x3 : S4000x35.Slices ![0, 32] S4000x3
  inb_S26x8_S26x8_0_0 : ∀ a, (![0, 0] : Fin 2 → Nat) a + S26x8.size a ≤ S26x8.size a
  h_S26x8 : 0 < S26x8.numel
  bitsLt_bf16_f32 : FTy.bits .bf16 < FTy.bits .f32
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  reduces_S4000x8_S4000 : S4000x8.Reduces [1] S4000
  shapeCasts_S4000_S4000x1 : S4000.ShapeCasts S4000x1
  broadcasts_S4000x1_S4000x8 : S4000x1.Broadcasts S4000x8
  concatenates_S4000x6_S4000x8_S4000x3_S4000x17_d1 : Shape.Concatenates [S4000x6, S4000x8, S4000x3] S4000x17 1
  inb_S4000x17_S4000x17_0_0 : ∀ a, (![0, 0] : Fin 2 → Nat) a + S4000x17.size a ≤ S4000x17.size a
  h_S4000x17 : 0 < S4000x17.numel
  packedbf16_S4000x17_S4000x17_0_0 : (Rect.unit (s := S4000x17) ![0, 0] S4000x17.size inb_S4000x17_S4000x17_0_0).PackedRows (EltTy.packing .bf16)
  bcast_S_S100000x17 : S_.BroadcastsInDim S100000x17 (![] : Fin 0 → Fin S100000x17.rank)
  shapeCasts_S64_S1x64 : S64.ShapeCasts S1x64
  shapeCasts_S4000x17_S4000x17 : S4000x17.ShapeCasts S4000x17
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x17 : S4000x1.Broadcasts S4000x17
  inb_S17x64_S17x64_0_0 : ∀ a, (![0, 0] : Fin 2 → Nat) a + S17x64.size a ≤ S17x64.size a
  h_S17x64 : 0 < S17x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S100000x1_S100000 : S100000x1.ShapeCasts S100000
  scatter_S100000_S3200000x1_S3200000_n_0_0_1_wf : ScatterDims.WF S100000 S3200000x1 S3200000 [] [0] [0] 1
  dot_S4000x26_S26x8_S4000x8_1_0_0_1_n_n_wf : DotDims.WF S4000x26 S26x8 S4000x8 [1] [0] [0] [1] [] []
  gather_S100000x17_S3200000x1_S3200000x17_1_0_n_n_0_1_117_wf : GatherDims.WF S100000x17 S3200000x1 S3200000x17 [1] [0] [] [0] [] 1 ![1, 17]
  scatter_S100000x17_S3200000x1_S3200000x17_1_0_0_1_wf : ScatterDims.WF S100000x17 S3200000x1 S3200000x17 [1] [0] [0] 1
  dot_S4000x17_S17x64_S4000x64_1_0_0_1_n_n_wf : DotDims.WF S4000x17 S17x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x35.size a ≤ S100000x35.size a
  hwx0_0 : ∀ i : grid0.Coords, EltTy.bits .f32 = 32 ∨ (Rect.block (s := S100000x35) S4000x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S26x8.size a ≤ S26x8.size a
  hwx0_1 : ∀ i : grid0.Coords, EltTy.bits .f32 = 32 ∨ (Rect.block (s := S26x8) S26x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x17.size a ≤ S100000x17.size a
  hwx0_5 : ∀ i : grid0.Coords, EltTy.bits .f32 = 32 ∨ (Rect.block (s := S100000x17) S4000x17.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x17.size a ≤ S100000x17.size a
  hwx0_6 : ∀ i : grid0.Coords, EltTy.bits .bf16 = 32 ∨ (Rect.block (s := S100000x17) S4000x17.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x17.size a ≤ S100000x17.size a
  hwx1_0 : ∀ i : grid1.Coords, EltTy.bits .f32 = 32 ∨ (Rect.block (s := S100000x17) S4000x17.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x17.size a ≤ S100000x17.size a
  hwx1_2 : ∀ i : grid1.Coords, EltTy.bits .f32 = 32 ∨ (Rect.block (s := S100000x17) S4000x17.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S17x64.size a ≤ S17x64.size a
  hwx1_3 : ∀ i : grid1.Coords, EltTy.bits .f32 = 32 ∨ (Rect.block (s := S17x64) S17x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S17x64.size a ≤ S17x64.size a
  hwx1_5 : ∀ i : grid1.Coords, EltTy.bits .f32 = 32 ∨ (Rect.block (s := S17x64) S17x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S100000x64.size a
  hwx1_7 : ∀ i : grid1.Coords, EltTy.bits .bf16 = 32 ∨ (Rect.block (s := S100000x64) S4000x64.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S100000x64.size a
  hwx2_7 : ∀ i : grid2.Coords, EltTy.bits .bf16 = 32 ∨ (Rect.block (s := S100000x64) S4000x64.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x1.size a ≤ S100000x1.size a
  hwx3_8 : ∀ i : grid3.Coords, EltTy.bits .f32 = 32 ∨ (Rect.block (s := S100000x1) S4000x1.size (cc3_transform_8 i) (hinb3_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x26_S26x8_S4000x8_1_0_0_1_n_n : DotDims S4000x26 S26x8 S4000x8 where
  lhsContracting := [1]
  rhsContracting := [0]
  lhsNonContracting := [0]
  rhsNonContracting := [1]
  lhsBatch := []
  rhsBatch := []
  wf := dot_S4000x26_S26x8_S4000x8_1_0_0_1_n_n_wf
def gather_S100000x17_S3200000x1_S3200000x17_1_0_n_n_0_1_117 : GatherDims S100000x17 S3200000x1 S3200000x17 where
  offsetDims := [1]
  collapsedSliceDims := [0]
  operandBatchingDims := []
  startIndicesBatchingDims := []
  startIndexMap := [0]
  indexVectorDim := 1
  sliceSizes := ![1, 17]
  wf := gather_S100000x17_S3200000x1_S3200000x17_1_0_n_n_0_1_117_wf
def scatter_S100000x17_S3200000x1_S3200000x17_1_0_0_1 : ScatterDims S100000x17 S3200000x1 S3200000x17 where
  updateWindowDims := [1]
  insertedWindowDims := [0]
  scatterDimsToOperandDims := [0]
  indexVectorDim := 1
  wf := scatter_S100000x17_S3200000x1_S3200000x17_1_0_0_1_wf
def dot_S4000x17_S17x64_S4000x64_1_0_0_1_n_n : DotDims S4000x17 S17x64 S4000x64 where
  lhsContracting := [1]
  rhsContracting := [0]
  lhsNonContracting := [0]
  rhsNonContracting := [1]
  lhsBatch := []
  rhsBatch := []
  wf := dot_S4000x17_S17x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S26x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S4000x17.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S4000x17.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S4000x17.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16_0) S4000x17.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S17x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S17x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29_0) S4000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29_1) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v40) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29_0) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S4000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S4000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v53) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42_0) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S64x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v56) S4000x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x35 : Shape := ⟨2, ![100000, 35]⟩
abbrev S2x3200000 : Shape := ⟨2, ![2, 3200000]⟩
abbrev S26x8 : Shape := ⟨2, ![26, 8]⟩
abbrev S8 : Shape := ⟨1, ![8]⟩
abbrev S17x64 : Shape := ⟨2, ![17, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x6 : Shape := ⟨2, ![100000, 6]⟩
abbrev S100000x26 : Shape := ⟨2, ![100000, 26]⟩
abbrev S100000x3 : Shape := ⟨2, ![100000, 3]⟩
abbrev S100000x8 : Shape := ⟨2, ![100000, 8]⟩
abbrev S1x8 : Shape := ⟨2, ![1, 8]⟩
abbrev S_ : Shape := ⟨0, ![]⟩
abbrev S100000 : Shape := ⟨1, ![100000]⟩
abbrev S100000x1 : Shape := ⟨2, ![100000, 1]⟩
abbrev S100000x17 : Shape := ⟨2, ![100000, 17]⟩
abbrev S3200000x1 : Shape := ⟨2, ![3200000, 1]⟩
abbrev S3200000x17 : Shape := ⟨2, ![3200000, 17]⟩
abbrev S100000x64 : Shape := ⟨2, ![100000, 64]⟩
abbrev S1x64 : Shape := ⟨2, ![1, 64]⟩
abbrev S3200000x64 : Shape := ⟨2, ![3200000, 64]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S100000x35, .f32⟩
  | 1 => ⟨S2x3200000, .i32⟩
  | 2 => ⟨S26x8, .f32⟩
  | 3 => ⟨S8, .f32⟩
  | 4 => ⟨S8, .f32⟩
  | 5 => ⟨S8, .f32⟩
  | 6 => ⟨S17x64, .f32⟩
  | 7 => ⟨S64, .f32⟩
  | 8 => ⟨S17x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x1, .f32⟩
  | 16 => ⟨S1, .f32⟩
  | 17 => ⟨S1x3200000, .i32⟩
  | 18 => ⟨S3200000, .i32⟩
  | 19 => ⟨S1x3200000, .i32⟩
  | 20 => ⟨S3200000, .i32⟩
  | 21 => ⟨S100000x6, .f32⟩
  | 22 => ⟨S100000x26, .f32⟩
  | 23 => ⟨S100000x3, .f32⟩
  | 24 => ⟨S100000x8, .f32⟩
  | 25 => ⟨S1x8, .f32⟩
  | 26 => ⟨S100000x8, .f32⟩
  | 27 => ⟨S100000x8, .f32⟩
  | 28 => ⟨S_, .f32⟩
  | 29 => ⟨S100000, .f32⟩
  | 30 => ⟨S100000x1, .f32⟩
  | 31 => ⟨S_, .f32⟩
  | 32 => ⟨S100000x1, .f32⟩
  | 33 => ⟨S100000x1, .f32⟩
  | 34 => ⟨S_, .i32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x8, .f32⟩
  | 42 => ⟨S100000x8, .f32⟩
  | 43 => ⟨S100000x8, .f32⟩
  | 44 => ⟨S_, .f32⟩
  | 45 => ⟨S_, .f32⟩
  | 46 => ⟨S_, .f32⟩
  | 47 => ⟨S_, .f32⟩
  | 48 => ⟨S100000, .f32⟩
  | 49 => ⟨S100000x1, .f32⟩
  | 50 => ⟨S100000x1, .f32⟩
  | 51 => ⟨S100000x1, .f32⟩
  | 52 => ⟨S_, .f32⟩
  | 53 => ⟨S_, .i1⟩
  | 54 => ⟨S_, .f32⟩
  | 55 => ⟨S_, .f32⟩
  | 56 => ⟨S100000x1, .f32⟩
  | 57 => ⟨S100000x1, .f32⟩
  | 58 => ⟨S100000x8, .f32⟩
  | 59 => ⟨S100000x8, .f32⟩
  | 60 => ⟨S_, .f32⟩
  | 61 => ⟨S100000x1, .f32⟩
  | 62 => ⟨S100000x1, .f32⟩
  | 63 => ⟨S100000x1, .f32⟩
  | 64 => ⟨S100000x8, .f32⟩
  | 65 => ⟨S100000x8, .f32⟩
  | 66 => ⟨S1x8, .f32⟩
  | 67 => ⟨S100000x8, .f32⟩
  | 68 => ⟨S100000x8, .f32⟩
  | 69 => ⟨S1x8, .f32⟩
  | 70 => ⟨S100000x8, .f32⟩
  | 71 => ⟨S100000x8, .f32⟩
  | 72 => ⟨S100000x17, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x17, .f32⟩
  | 82 => ⟨S_, .f32⟩
  | 83 => ⟨S100000x17, .f32⟩
  | 84 => ⟨S3200000x1, .i32⟩
  | 85 => ⟨S100000x17, .f32⟩
  | 86 => ⟨S_, .f32⟩
  | 87 => ⟨S3200000, .f32⟩
  | 88 => ⟨S_, .f32⟩
  | 89 => ⟨S100000, .f32⟩
  | 90 => ⟨S3200000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x17, .f32⟩
  | 97 => ⟨S100000x17, .f32⟩
  | 98 => ⟨S100000x64, .f32⟩
  | 99 => ⟨S1x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x64, .f32⟩
  | 116 => ⟨S_, .f32⟩
  | 117 => ⟨S100000x64, .f32⟩
  | 118 => ⟨S3200000x1, .i32⟩
  | 119 => ⟨S100000x64, .f32⟩
  | 120 => ⟨S_, .f32⟩
  | 121 => ⟨S3200000, .f32⟩
  | 122 => ⟨S_, .f32⟩
  | 123 => ⟨S100000, .f32⟩
  | 124 => ⟨S3200000x1, .i32⟩
  | 125 => ⟨S100000, .f32⟩
  | 126 => ⟨S_, .f32⟩
  | 127 => ⟨S100000, .f32⟩
  | _ => ⟨S100000x35, .f32⟩

abbrev hbmTy0_1 (i : Nat) : BufTy := match i % 128 with
  | 0 => ⟨S100000, .f32⟩
  | 1 => ⟨S100000x1, .f32⟩
  | 2 => ⟨S100000x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S100000x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000x64, .f32⟩
  | 23 => ⟨S_, .f32⟩
  | 24 => ⟨S100000x64, .f32⟩
  | 25 => ⟨S3200000x1, .i32⟩
  | 26 => ⟨S100000x64, .f32⟩
  | 27 => ⟨S_, .f32⟩
  | 28 => ⟨S3200000, .f32⟩
  | 29 => ⟨S_, .f32⟩
  | 30 => ⟨S100000, .f32⟩
  | 31 => ⟨S3200000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x1, .f32⟩
  | 50 => ⟨S1x1, .f32⟩
  | 51 => ⟨S100000x1, .f32⟩
  | 52 => ⟨S100000x1, .f32⟩
  | 53 => ⟨S100000, .f32⟩
  | _ => ⟨S100000x35, .f32⟩

abbrev hbmTy (i : Nat) : BufTy := match i / 128 with
  | 0 => hbmTy0_0 i
  | 1 => hbmTy0_1 i
  | _ => ⟨S100000x35, .f32⟩

abbrev bufTy : (tb : Table) → Fin (tcTables nBuf tb) → BufTy
  | .hbm, ⟨i, _⟩ => hbmTy i
  | _, _ => ⟨S100000x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_cst_3 : Ref sig .tc := ⟨.hbm, 52, rfl⟩
abbrev main_call0_v13 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c_2 : Ref sig .tc := ⟨.hbm, 73, rfl⟩
abbrev main_v30 : Ref sig .tc := ⟨.hbm, 74, rfl⟩
abbrev main_v31 : Ref sig .tc := ⟨.hbm, 75, rfl⟩
abbrev main_c_3 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_4 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_cst_6 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_cst_7 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_call1_cst : Ref sig .tc := ⟨.hbm, 104, rfl⟩
abbrev main_call1_v0 : Ref sig .tc := ⟨.hbm, 105, rfl⟩
abbrev main_v55 : Ref sig .tc := ⟨.hbm, 106, rfl⟩
abbrev main_c_8 : Ref sig .tc := ⟨.hbm, 107, rfl⟩
abbrev main_v56 : Ref sig .tc := ⟨.hbm, 108, rfl⟩
abbrev main_v57 : Ref sig .tc := ⟨.hbm, 109, rfl⟩
abbrev main_c_9 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_10 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_11 : Ref sig .tc := ⟨.hbm, 120, rfl⟩
abbrev main_v66 : Ref sig .tc := ⟨.hbm, 121, rfl⟩
abbrev main_cst_12 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_13 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_call2_cst : Ref sig .tc := ⟨.hbm, 139, rfl⟩
abbrev main_call2_v0 : Ref sig .tc := ⟨.hbm, 140, rfl⟩
abbrev main_v82 : Ref sig .tc := ⟨.hbm, 141, rfl⟩
abbrev main_c_14 : Ref sig .tc := ⟨.hbm, 142, rfl⟩
abbrev main_v83 : Ref sig .tc := ⟨.hbm, 143, rfl⟩
abbrev main_v84 : Ref sig .tc := ⟨.hbm, 144, rfl⟩
abbrev main_c_15 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_16 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_17 : Ref sig .tc := ⟨.hbm, 155, rfl⟩
abbrev main_v93 : Ref sig .tc := ⟨.hbm, 156, rfl⟩
abbrev main_cst_18 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_19 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_call3_cst : Ref sig .tc := ⟨.hbm, 174, rfl⟩
abbrev main_call3_v0 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S100000x35_S100000x6_0_0 : S100000x35.Slices ![0, 0] S100000x6
  slices_S100000x35_S100000x26_0_6 : S100000x35.Slices ![0, 6] S100000x26
  slices_S100000x35_S100000x3_0_32 : S100000x35.Slices ![0, 32] S100000x3
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x8_0_1 : S100000x1.BroadcastsInDim S100000x8 (![0, 1] : Fin 2 → Fin S100000x8.rank)
  concatenates_S100000x6_S100000x8_S100000x3_S100000x17_d1 : Shape.Concatenates [S100000x6, S100000x8, S100000x3] S100000x17 1
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x17 : S_.BroadcastsInDim S100000x17 (![] : Fin 0 → Fin S100000x17.rank)
  bcast_S_S100000 : S_.BroadcastsInDim S100000 (![] : Fin 0 → Fin S100000.rank)
  bcast_S100000x1_S100000x17_0_1 : S100000x1.BroadcastsInDim S100000x17 (![0, 1] : Fin 2 → Fin S100000x17.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x26_S26x8_S100000x8_1_0_0_1_n_n_wf : DotDims.WF S100000x26 S26x8 S100000x8 [1] [0] [0] [1] [] []
  gather_S100000x17_S3200000x1_S3200000x17_1_0_n_n_0_1_117_wf : GatherDims.WF S100000x17 S3200000x1 S3200000x17 [1] [0] [] [0] [] 1 ![1, 17]
  scatter_S100000x17_S3200000x1_S3200000x17_1_0_0_1_wf : ScatterDims.WF S100000x17 S3200000x1 S3200000x17 [1] [0] [0] 1
  scatter_S100000_S3200000x1_S3200000_n_0_0_1_wf : ScatterDims.WF S100000 S3200000x1 S3200000 [] [0] [0] 1
  dot_S100000x17_S17x64_S100000x64_1_0_0_1_n_n_wf : DotDims.WF S100000x17 S17x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x26_S26x8_S100000x8_1_0_0_1_n_n : DotDims S100000x26 S26x8 S100000x8 where
  lhsContracting := [1]
  rhsContracting := [0]
  lhsNonContracting := [0]
  rhsNonContracting := [1]
  lhsBatch := []
  rhsBatch := []
  wf := dot_S100000x26_S26x8_S100000x8_1_0_0_1_n_n_wf
def gather_S100000x17_S3200000x1_S3200000x17_1_0_n_n_0_1_117 : GatherDims S100000x17 S3200000x1 S3200000x17 where
  offsetDims := [1]
  collapsedSliceDims := [0]
  operandBatchingDims := []
  startIndicesBatchingDims := []
  startIndexMap := [0]
  indexVectorDim := 1
  sliceSizes := ![1, 17]
  wf := gather_S100000x17_S3200000x1_S3200000x17_1_0_n_n_0_1_117_wf
def scatter_S100000x17_S3200000x1_S3200000x17_1_0_0_1 : ScatterDims S100000x17 S3200000x1 S3200000x17 where
  updateWindowDims := [1]
  insertedWindowDims := [0]
  scatterDimsToOperandDims := [0]
  indexVectorDim := 1
  wf := scatter_S100000x17_S3200000x1_S3200000x17_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x17_S17x64_S100000x64_1_0_0_1_n_n : DotDims S100000x17 S17x64 S100000x64 where
  lhsContracting := [1]
  rhsContracting := [0]
  lhsNonContracting := [0]
  rhsNonContracting := [1]
  lhsBatch := []
  rhsBatch := []
  wf := dot_S100000x17_S17x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KerRun.lean ====
/- The kernel program's run with its result: from any launch memory with zero counters every weakly fair execution
   of the program on the TensorCores terminates without fault, the result buffer ends at the last boundary's
   contents (the fold of the host stretches and the four regions from the launch memory, read at the result's
   reference), and every argument buffer ends as launched. -/
import proofs.«140343_j90855738180235_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result. The final state holds every unscoped TensorCore buffer at the last boundary's
    contents; the result buffer is one of them, and each argument's contents there walk back to the launch. -/
theorem run_result : θ_run defs (onTc (τ := τ) (main (F := F))) ⟨m, fun _ => 0, ρ⟩ (fun r => ∀ c : Dev nD,
      r.2.mem ((c.tc : Thread nD τ).loc main_v57) = Gen.W9 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (Gen.mem_uc main_v57 (by decide)),
       (h c _ (Gen.mem_uc main_arg0 (by decide))).trans (Gen.W9_main_arg0 m ρ c),
       (h c _ (Gen.mem_uc main_arg1 (by decide))).trans (Gen.W9_main_arg1 m ρ c),
       (h c _ (Gen.mem_uc main_arg2 (by decide))).trans (Gen.W9_main_arg2 m ρ c),
       (h c _ (Gen.mem_uc main_arg3 (by decide))).trans (Gen.W9_main_arg3 m ρ c),
       (h c _ (Gen.mem_uc main_arg4 (by decide))).trans (Gen.W9_main_arg4 m ρ c),
       (h c _ (Gen.mem_uc main_arg5 (by decide))).trans (Gen.W9_main_arg5 m ρ c),
       (h c _ (Gen.mem_uc main_arg6 (by decide))).trans (Gen.W9_main_arg6 m ρ c),
       (h c _ (Gen.mem_uc main_arg7 (by decide))).trans (Gen.W9_main_arg7 m ρ c),
       (h c _ (Gen.mem_uc main_arg8 (by decide))).trans (Gen.W9_main_arg8 m ρ c),
       (h c _ (Gen.mem_uc main_arg9 (by decide))).trans (Gen.W9_main_arg9 m ρ c),
       (h c _ (Gen.mem_uc main_arg10 (by decide))).trans (Gen.W9_main_arg10 m ρ c),
       (h c _ (Gen.mem_uc main_arg11 (by decide))).trans (Gen.W9_main_arg11 m ρ c),
       (h c _ (Gen.mem_uc main_arg12 (by decide))).trans (Gen.W9_main_arg12 m ρ c),
       (h c _ (Gen.mem_uc main_arg13 (by decide))).trans (Gen.W9_main_arg13 m ρ c),
       (h c _ (Gen.mem_uc main_arg14 (by decide))).trans (Gen.W9_main_arg14 m ρ c),
       (h c _ (Gen.mem_uc main_arg15 (by decide))).trans (Gen.W9_main_arg15 m ρ c),
       (h c _ (Gen.mem_uc main_arg16 (by decide))).trans (Gen.W9_main_arg16 m ρ c)⟩)

end Cert.KernelIdeal.Run

end
-- ==== Proof.KerReads.lean ====
/- What the kernel program's arrays hold: the result and every region's arrays at entry, read back through the fold of
   host stretches and regions to the launch contents of the argument buffers, the printed host operations, and the
   earlier regions' output arrays. The host chains (edge rows, index columns, the mean's weight, the neighbour sums)
   are named once, as functions of plain arrays. -/
import proofs.«140343_j90855738180235_2_alg».proof.Proof.Gen.KernelIdeal.Frame
import Idealize.ShloMosaic.Lib.StableHlo.Run

set_option maxRecDepth 16384

noncomputable section

namespace Cert.KernelIdeal.Reads

open Idealize.ShloMosaic Idealize.ShloMosaic.TcCoe Idealize.ShloMosaic.Tactic
open Idealize.SL Idealize.SL.Sem
open Idealize.ShloMosaic.Pipeline (Dat Cfg Window cellOf)
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The host chains as functions of plain arrays -/

/-- Row 0 of the edge list (the source node of each edge), as a vector of 3200000 indices. -/
def srcRow (e : Vec F S2x3200000 .i32) : Vec F S3200000 .i32 :=
  shapeCast S3200000 (extractStridedSlice S1x3200000 ![0, 0] e slices_S2x3200000_S1x3200000_0_0) shapeCasts_S1x3200000_S3200000

/-- Row 1 of the edge list (the destination node of each edge), as a vector of 3200000 indices. -/
def dstRow (e : Vec F S2x3200000 .i32) : Vec F S3200000 .i32 :=
  shapeCast S3200000 (extractStridedSlice S1x3200000 ![1, 0] e slices_S2x3200000_S1x3200000_1_0) shapeCasts_S1x3200000_S3200000

/-- The gather's index column: each source index, a negative one wrapped by the node count. -/
def srcIdx (s : Vec F S3200000 .i32) : Vec F S3200000x1 .i32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The scatter's index column: each destination index. -/
def dstIdx (d : Vec F S3200000 .i32) : Vec F S3200000x1 .i32 :=
  broadcastInDim S3200000x1 ![0] bcast_S3200000_S3200000x1_0 d

/-- One over each node's in-degree (at least one), as a column: the mean's weight. -/
def invCnt (d : Vec F S3200000 .i32) : Vec F S100000x1 .f32 :=
  broadcastInDim S100000x1 ![0] bcast_S100000_S100000x1_0
    (Host.divf (broadcastInDim S100000 ![] bcast_S_S100000 (constant (F := F) S_ .f32 0x3F800000#32))
      (maximumf
        (Host.scatterAdd scatter_S100000_S3200000x1_S3200000_n_0_0_1
          (broadcastInDim S100000 ![] bcast_S_S100000 (constant (F := F) S_ .f32 0x00000000#32))
          (dstIdx (F := F) d)
          (broadcastInDim S3200000 ![] bcast_S_S3200000 (constant (F := F) S_ .f32 0x3F800000#32)))
        (broadcastInDim S100000 ![] bcast_S_S100000 (constant (F := F) S_ .f32 0x3F800000#32))))

/-- The neighbour sum of 17-wide rows: the rows of `hb` gathered at the sources, widened, and added up at the
    destinations from zero. -/
def agg17 (hb : Vec F S100000x17 .bf16) (s d : Vec F S3200000 .i32) : Vec F S100000x17 .f32 :=
  Host.scatterAdd scatter_S100000x17_S3200000x1_S3200000x17_1_0_0_1
    (broadcastInDim S100000x17 ![] bcast_S_S100000x17 (constant (F := F) S_ .f32 0x00000000#32))
    (dstIdx (F := F) d)
    (extf .f32 (Host.gather gather_S100000x17_S3200000x1_S3200000x17_1_0_n_n_0_1_117 hb (srcIdx (F := F) s)) bitsLt_bf16_f32)

/-- The neighbour sum of 64-wide rows. -/
def agg64 (hb : Vec F S100000x64 .bf16) (s d : Vec F S3200000 .i32) : Vec F S100000x64 .f32 :=
  Host.scatterAdd scatter_S100000x64_S3200000x1_S3200000x64_1_0_0_1
    (broadcastInDim S100000x64 ![] bcast_S_S100000x64 (constant (F := F) S_ .f32 0x00000000#32))
    (dstIdx (F := F) d)
    (extf .f32 (Host.gather gather_S100000x64_S3200000x1_S3200000x64_1_0_n_n_0_1_164 hb (srcIdx (F := F) s)) bitsLt_bf16_f32)

/-! ## Each host stretch read at the buffers a region takes, from any contents -/

section Stretches
variable (W : Valuation τ sig (Elt F))

theorem stretch0_v1 : StableHlo.after hostOps0 W (Proc.devRef .tc main_v1) = srcRow (F := F) (W (Proc.devRef .tc main_arg1)) := by
  after_results; rfl
theorem stretch0_v3 : StableHlo.after hostOps0 W (Proc.devRef .tc main_v3) = dstRow (F := F) (W (Proc.devRef .tc main_arg1)) := by
  after_results; rfl
theorem stretch0_v12 : StableHlo.after hostOps0 W (Proc.devRef .tc main_v12)
    = invCnt (F := F) (dstRow (F := F) (W (Proc.devRef .tc main_arg1))) := by
  after_results; rfl
theorem stretch0_v13 : StableHlo.after hostOps0 W (Proc.devRef .tc main_v13)
    = (shapeCast S1x8 (W (Proc.devRef .tc main_arg3)) shapeCasts_S8_S1x8 : Vec F S1x8 .f32) := by
  after_results; rfl
theorem stretch0_v14 : StableHlo.after hostOps0 W (Proc.devRef .tc main_v14)
    = (shapeCast S1x8 (W (Proc.devRef .tc main_arg4)) shapeCasts_S8_S1x8 : Vec F S1x8 .f32) := by
  after_results; rfl
theorem stretch0_v15 : StableHlo.after hostOps0 W (Proc.devRef .tc main_v15)
    = (shapeCast S1x8 (W (Proc.devRef .tc main_arg5)) shapeCasts_S8_S1x8 : Vec F S1x8 .f32) := by
  after_results; rfl

set_option maxHeartbeats 1000000 in
theorem stretch1_v27 : StableHlo.after hostOps1 W (Proc.devRef .tc main_v27)
    = agg17 (F := F) (W (Proc.devRef .tc main_v16_1)) (W (Proc.devRef .tc main_v1)) (W (Proc.devRef .tc main_v3)) := by
  after_results_simp; rfl
theorem stretch1_v28 : StableHlo.after hostOps1 W (Proc.devRef .tc main_v28)
    = (shapeCast S1x64 (W (Proc.devRef .tc main_arg7)) shapeCasts_S64_S1x64 : Vec F S1x64 .f32) := by
  after_results; rfl

set_option maxHeartbeats 1000000 in
theorem stretch2_v40 : StableHlo.after hostOps2 W (Proc.devRef .tc main_v40)
    = agg64 (F := F) (W (Proc.devRef .tc main_v29_1)) (W (Proc.devRef .tc main_v1)) (W (Proc.devRef .tc main_v3)) := by
  after_results_simp; rfl
theorem stretch2_v41 : StableHlo.after hostOps2 W (Proc.devRef .tc main_v41)
    = (shapeCast S1x64 (W (Proc.devRef .tc main_arg10)) shapeCasts_S64_S1x64 : Vec F S1x64 .f32) := by
  after_results; rfl

set_option maxHeartbeats 1000000 in
theorem stretch3_v53 : StableHlo.after hostOps3 W (Proc.devRef .tc main_v53)
    = agg64 (F := F) (W (Proc.devRef .tc main_v42_1)) (W (Proc.devRef .tc main_v1)) (W (Proc.devRef .tc main_v3)) := by
  after_results_simp; rfl
theorem stretch3_v54 : StableHlo.after hostOps3 W (Proc.devRef .tc main_v54)
    = (shapeCast S1x64 (W (Proc.devRef .tc main_arg13)) shapeCasts_S64_S1x64 : Vec F S1x64 .f32) := by
  after_results; rfl
theorem stretch3_v55 : StableHlo.after hostOps3 W (Proc.devRef .tc main_v55)
    = (shapeCast S1x1 (W (Proc.devRef .tc main_arg16)) shapeCasts_S1_S1x1 : Vec F S1x1 .f32) := by
  after_results; rfl

theorem stretch4_v57 : StableHlo.after hostOps4 W (Proc.devRef .tc main_v57)
    = (shapeCast S100000 (W (Proc.devRef .tc main_v56)) shapeCasts_S100000x1_S100000 : Vec F S100000 .f32) := by
  after_results; rfl

end Stretches

/-! ## Buffers no later segment writes, carried along the fold -/

local macro "untouched" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem W0_arg0 (c : Dev nD) : Gen.W0 m ρ c (Proc.devRef .tc main_arg0) = m ((c.tc : Thread nD τ).loc main_arg0) :=
  rfl
theorem W1_arg0 (c : Dev nD) : Gen.W1 m ρ c (Proc.devRef .tc main_arg0) = m ((c.tc : Thread nD τ).loc main_arg0) :=
  (show Gen.W1 m ρ c (Proc.devRef .tc main_arg0) = Gen.W0 m ρ c (Proc.devRef .tc main_arg0) from (by untouched hostOps0)).trans (W0_arg0 m ρ c)

theorem W0_arg2 (c : Dev nD) : Gen.W0 m ρ c (Proc.devRef .tc main_arg2) = m ((c.tc : Thread nD τ).loc main_arg2) :=
  rfl
theorem W1_arg2 (c : Dev nD) : Gen.W1 m ρ c (Proc.devRef .tc main_arg2) = m ((c.tc : Thread nD τ).loc main_arg2) :=
  (show Gen.W1 m ρ c (Proc.devRef .tc main_arg2) = Gen.W0 m ρ c (Proc.devRef .tc main_arg2) from (by untouched hostOps0)).trans (W0_arg2 m ρ c)

theorem W0_arg6 (c : Dev nD) : Gen.W0 m ρ c (Proc.devRef .tc main_arg6) = m ((c.tc : Thread nD τ).loc main_arg6) :=
  rfl
theorem W1_arg6 (c : Dev nD) : Gen.W1 m ρ c (Proc.devRef .tc main_arg6) = m ((c.tc : Thread nD τ).loc main_arg6) :=
  (show Gen.W1 m ρ c (Proc.devRef .tc main_arg6) = Gen.W0 m ρ c (Proc.devRef .tc main_arg6) from (by untouched hostOps0)).trans (W0_arg6 m ρ c)
theorem W2_arg6 (c : Dev nD) : Gen.W2 m ρ c (Proc.devRef .tc main_arg6) = m ((c.tc : Thread nD τ).loc main_arg6) :=
  (show Gen.W2 m ρ c (Proc.devRef .tc main_arg6) = Gen.W1 m ρ c (Proc.devRef .tc main_arg6) from (Gen.W2_of_ne m ρ c main_arg6 (by decide))).trans (W1_arg6 m ρ c)
theorem W3_arg6 (c : Dev nD) : Gen.W3 m ρ c (Proc.devRef .tc main_arg6) = m ((c.tc : Thread nD τ).loc main_arg6) :=
  (show Gen.W3 m ρ c (Proc.devRef .tc main_arg6) = Gen.W2 m ρ c (Proc.devRef .tc main_arg6) from (by untouched hostOps1)).trans (W2_arg6 m ρ c)

theorem W0_arg8 (c : Dev nD) : Gen.W0 m ρ c (Proc.devRef .tc main_arg8) = m ((c.tc : Thread nD τ).loc main_arg8) :=
  rfl
theorem W1_arg8 (c : Dev nD) : Gen.W1 m ρ c (Proc.devRef .tc main_arg8) = m ((c.tc : Thread nD τ).loc main_arg8) :=
  (show Gen.W1 m ρ c (Proc.devRef .tc main_arg8) = Gen.W0 m ρ c (Proc.devRef .tc main_arg8) from (by untouched hostOps0)).trans (W0_arg8 m ρ c)
theorem W2_arg8 (c : Dev nD) : Gen.W2 m ρ c (Proc.devRef .tc main_arg8) = m ((c.tc : Thread nD τ).loc main_arg8) :=
  (show Gen.W2 m ρ c (Proc.devRef .tc main_arg8) = Gen.W1 m ρ c (Proc.devRef .tc main_arg8) from (Gen.W2_of_ne m ρ c main_arg8 (by decide))).trans (W1_arg8 m ρ c)
theorem W3_arg8 (c : Dev nD) : Gen.W3 m ρ c (Proc.devRef .tc main_arg8) = m ((c.tc : Thread nD τ).loc main_arg8) :=
  (show Gen.W3 m ρ c (Proc.devRef .tc main_arg8) = Gen.W2 m ρ c (Proc.devRef .tc main_arg8) from (by untouched hostOps1)).trans (W2_arg8 m ρ c)

theorem W0_arg7 (c : Dev nD) : Gen.W0 m ρ c (Proc.devRef .tc main_arg7) = m ((c.tc : Thread nD τ).loc main_arg7) :=
  rfl
theorem W1_arg7 (c : Dev nD) : Gen.W1 m ρ c (Proc.devRef .tc main_arg7) = m ((c.tc : Thread nD τ).loc main_arg7) :=
  (show Gen.W1 m ρ c (Proc.devRef .tc main_arg7) = Gen.W0 m ρ c (Proc.devRef .tc main_arg7) from (by untouched hostOps0)).trans (W0_arg7 m ρ c)
theorem W2_arg7 (c : Dev nD) : Gen.W2 m ρ c (Proc.devRef .tc main_arg7) = m ((c.tc : Thread nD τ).loc main_arg7) :=
  (show Gen.W2 m ρ c (Proc.devRef .tc main_arg7) = Gen.W1 m ρ c (Proc.devRef .tc main_arg7) from (Gen.W2_of_ne m ρ c main_arg7 (by decide))).trans (W1_arg7 m ρ c)

theorem W0_arg9 (c : Dev nD) : Gen.W0 m ρ c (Proc.devRef .tc main_arg9) = m ((c.tc : Thread nD τ).loc main_arg9) :=
  rfl
theorem W1_arg9 (c : Dev nD) : Gen.W1 m ρ c (Proc.devRef .tc main_arg9) = m ((c.tc : Thread nD τ).loc main_arg9) :=
  (show Gen.W1 m ρ c (Proc.devRef .tc main_arg9) = Gen.W0 m ρ c (Proc.devRef .tc main_arg9) from (by untouched hostOps0)).trans (W0_arg9 m ρ c)
theorem W2_arg9 (c : Dev nD) : Gen.W2 m ρ c (Proc.devRef .tc main_arg9) = m ((c.tc : Thread nD τ).loc main_arg9) :=
  (show Gen.W2 m ρ c (Proc.devRef .tc main_arg9) = Gen.W1 m ρ c (Proc.devRef .tc main_arg9) from (Gen.W2_of_ne m ρ c main_arg9 (by decide))).trans (W1_arg9 m ρ c)
theorem W3_arg9 (c : Dev nD) : Gen.W3 m ρ c (Proc.devRef .tc main_arg9) = m ((c.tc : Thread nD τ).loc main_arg9) :=
  (show Gen.W3 m ρ c (Proc.devRef .tc main_arg9) = Gen.W2 m ρ c (Proc.devRef .tc main_arg9) from (by untouched hostOps1)).trans (W2_arg9 m ρ c)
theorem W4_arg9 (c : Dev nD) : Gen.W4 m ρ c (Proc.devRef .tc main_arg9) = m ((c.tc : Thread nD τ).loc main_arg9) :=
  (show Gen.W4 m ρ c (Proc.devRef .tc main_arg9) = Gen.W3 m ρ c (Proc.devRef .tc main_arg9) from (Gen.W4_of_ne m ρ c main_arg9 (by decide))).trans (W3_arg9 m ρ c)
theorem W5_arg9 (c : Dev nD) : Gen.W5 m ρ c (Proc.devRef .tc main_arg9) = m ((c.tc : Thread nD τ).loc main_arg9) :=
  (show Gen.W5 m ρ c (Proc.devRef .tc main_arg9) = Gen.W4 m ρ c (Proc.devRef .tc main_arg9) from (by untouched hostOps2)).trans (W4_arg9 m ρ c)

theorem W0_arg11 (c : Dev nD) : Gen.W0 m ρ c (Proc.devRef .tc main_arg11) = m ((c.tc : Thread nD τ).loc main_arg11) :=
  rfl
theorem W1_arg11 (c : Dev nD) : Gen.W1 m ρ c (Proc.devRef .tc main_arg11) = m ((c.tc : Thread nD τ).loc main_arg11) :=
  (show Gen.W1 m ρ c (Proc.devRef .tc main_arg11) = Gen.W0 m ρ c (Proc.devRef .tc main_arg11) from (by untouched hostOps0)).trans (W0_arg11 m ρ c)
theorem W2_arg11 (c : Dev nD) : Gen.W2 m ρ c (Proc.devRef .tc main_arg11) = m ((c.tc : Thread nD τ).loc main_arg11) :=
  (show Gen.W2 m ρ c (Proc.devRef .tc main_arg11) = Gen.W1 m ρ c (Proc.devRef .tc main_arg11) from (Gen.W2_of_ne m ρ c main_arg11 (by decide))).trans (W1_arg11 m ρ c)
theorem W3_arg11 (c : Dev nD) : Gen.W3 m ρ c (Proc.devRef .tc main_arg11) = m ((c.tc : Thread nD τ).loc main_arg11) :=
  (show Gen.W3 m ρ c (Proc.devRef .tc main_arg11) = Gen.W2 m ρ c (Proc.devRef .tc main_arg11) from (by untouched hostOps1)).trans (W2_arg11 m ρ c)
theorem W4_arg11 (c : Dev nD) : Gen.W4 m ρ c (Proc.devRef .tc main_arg11) = m ((c.tc : Thread nD τ).loc main_arg11) :=
  (show Gen.W4 m ρ c (Proc.devRef .tc main_arg11) = Gen.W3 m ρ c (Proc.devRef .tc main_arg11) from (Gen.W4_of_ne m ρ c main_arg11 (by decide))).trans (W3_arg11 m ρ c)
theorem W5_arg11 (c : Dev nD) : Gen.W5 m ρ c (Proc.devRef .tc main_arg11) = m ((c.tc : Thread nD τ).loc main_arg11) :=
  (show Gen.W5 m ρ c (Proc.devRef .tc main_arg11) = Gen.W4 m ρ c (Proc.devRef .tc main_arg11) from (by untouched hostOps2)).trans (W4_arg11 m ρ c)

theorem W0_arg10 (c : Dev nD) : Gen.W0 m ρ c (Proc.devRef .tc main_arg10) = m ((c.tc : Thread nD τ).loc main_arg10) :=
  rfl
theorem W1_arg10 (c : Dev nD) : Gen.W1 m ρ c (Proc.devRef .tc main_arg10) = m ((c.tc : Thread nD τ).loc main_arg10) :=
  (show Gen.W1 m ρ c (Proc.devRef .tc main_arg10) = Gen.W0 m ρ c (Proc.devRef .tc main_arg10) from (by untouched hostOps0)).trans (W0_arg10 m ρ c)
theorem W2_arg10 (c : Dev nD) : Gen.W2 m ρ c (Proc.devRef .tc main_arg10) = m ((c.tc : Thread nD τ).loc main_arg10) :=
  (show Gen.W2 m ρ c (Proc.devRef .tc main_arg10) = Gen.W1 m ρ c (Proc.devRef .tc main_arg10) from (Gen.W2_of_ne m ρ c main_arg10 (by decide))).trans (W1_arg10 m ρ c)
theorem W3_arg10 (c : Dev nD) : Gen.W3 m ρ c (Proc.devRef .tc main_arg10) = m ((c.tc : Thread nD τ).loc main_arg10) :=
  (show Gen.W3 m ρ c (Proc.devRef .tc main_arg10) = Gen.W2 m ρ c (Proc.devRef .tc main_arg10) from (by untouched hostOps1)).trans (W2_arg10 m ρ c)
theorem W4_arg10 (c : Dev nD) : Gen.W4 m ρ c (Proc.devRef .tc main_arg10) = m ((c.tc : Thread nD τ).loc main_arg10) :=
  (show Gen.W4 m ρ c (Proc.devRef .tc main_arg10) = Gen.W3 m ρ c (Proc.devRef .tc main_arg10) from (Gen.W4_of_ne m ρ c main_arg10 (by decide))).trans (W3_arg10 m ρ c)

theorem W0_arg12 (c : Dev nD) : Gen.W0 m ρ c (Proc.devRef .tc main_arg12) = m ((c.tc : Thread nD τ).loc main_arg12) :=
  rfl
theorem W1_arg12 (c : Dev nD) : Gen.W1 m ρ c (Proc.devRef .tc main_arg12) = m ((c.tc : Thread nD τ).loc main_arg12) :=
  (show Gen.W1 m ρ c (Proc.devRef .tc main_arg12) = Gen.W0 m ρ c (Proc.devRef .tc main_arg12) from (by untouched hostOps0)).trans (W0_arg12 m ρ c)
theorem W2_arg12 (c : Dev nD) : Gen.W2 m ρ c (Proc.devRef .tc main_arg12) = m ((c.tc : Thread nD τ).loc main_arg12) :=
  (show Gen.W2 m ρ c (Proc.devRef .tc main_arg12) = Gen.W1 m ρ c (Proc.devRef .tc main_arg12) from (Gen.W2_of_ne m ρ c main_arg12 (by decide))).trans (W1_arg12 m ρ c)
theorem W3_arg12 (c : Dev nD) : Gen.W3 m ρ c (Proc.devRef .tc main_arg12) = m ((c.tc : Thread nD τ).loc main_arg12) :=
  (show Gen.W3 m ρ c (Proc.devRef .tc main_arg12) = Gen.W2 m ρ c (Proc.devRef .tc main_arg12) from (by untouched hostOps1)).trans (W2_arg12 m ρ c)
theorem W4_arg12 (c : Dev nD) : Gen.W4 m ρ c (Proc.devRef .tc main_arg12) = m ((c.tc : Thread nD τ).loc main_arg12) :=
  (show Gen.W4 m ρ c (Proc.devRef .tc main_arg12) = Gen.W3 m ρ c (Proc.devRef .tc main_arg12) from (Gen.W4_of_ne m ρ c main_arg12 (by decide))).trans (W3_arg12 m ρ c)
theorem W5_arg12 (c : Dev nD) : Gen.W5 m ρ c (Proc.devRef .tc main_arg12) = m ((c.tc : Thread nD τ).loc main_arg12) :=
  (show Gen.W5 m ρ c (Proc.devRef .tc main_arg12) = Gen.W4 m ρ c (Proc.devRef .tc main_arg12) from (by untouched hostOps2)).trans (W4_arg12 m ρ c)
theorem W6_arg12 (c : Dev nD) : Gen.W6 m ρ c (Proc.devRef .tc main_arg12) = m ((c.tc : Thread nD τ).loc main_arg12) :=
  (show Gen.W6 m ρ c (Proc.devRef .tc main_arg12) = Gen.W5 m ρ c (Proc.devRef .tc main_arg12) from (Gen.W6_of_ne m ρ c main_arg12 (by decide))).trans (W5_arg12 m ρ c)
theorem W7_arg12 (c : Dev nD) : Gen.W7 m ρ c (Proc.devRef .tc main_arg12) = m ((c.tc : Thread nD τ).loc main_arg12) :=
  (show Gen.W7 m ρ c (Proc.devRef .tc main_arg12) = Gen.W6 m ρ c (Proc.devRef .tc main_arg12) from (by untouched hostOps3)).trans (W6_arg12 m ρ c)

theorem W0_arg14 (c : Dev nD) : Gen.W0 m ρ c (Proc.devRef .tc main_arg14) = m ((c.tc : Thread nD τ).loc main_arg14) :=
  rfl
theorem W1_arg14 (c : Dev nD) : Gen.W1 m ρ c (Proc.devRef .tc main_arg14) = m ((c.tc : Thread nD τ).loc main_arg14) :=
  (show Gen.W1 m ρ c (Proc.devRef .tc main_arg14) = Gen.W0 m ρ c (Proc.devRef .tc main_arg14) from (by untouched hostOps0)).trans (W0_arg14 m ρ c)
theorem W2_arg14 (c : Dev nD) : Gen.W2 m ρ c (Proc.devRef .tc main_arg14) = m ((c.tc : Thread nD τ).loc main_arg14) :=
  (show Gen.W2 m ρ c (Proc.devRef .tc main_arg14) = Gen.W1 m ρ c (Proc.devRef .tc main_arg14) from (Gen.W2_of_ne m ρ c main_arg14 (by decide))).trans (W1_arg14 m ρ c)
theorem W3_arg14 (c : Dev nD) : Gen.W3 m ρ c (Proc.devRef .tc main_arg14) = m ((c.tc : Thread nD τ).loc main_arg14) :=
  (show Gen.W3 m ρ c (Proc.devRef .tc main_arg14) = Gen.W2 m ρ c (Proc.devRef .tc main_arg14) from (by untouched hostOps1)).trans (W2_arg14 m ρ c)
theorem W4_arg14 (c : Dev nD) : Gen.W4 m ρ c (Proc.devRef .tc main_arg14) = m ((c.tc : Thread nD τ).loc main_arg14) :=
  (show Gen.W4 m ρ c (Proc.devRef .tc main_arg14) = Gen.W3 m ρ c (Proc.devRef .tc main_arg14) from (Gen.W4_of_ne m ρ c main_arg14 (by decide))).trans (W3_arg14 m ρ c)
theorem W5_arg14 (c : Dev nD) : Gen.W5 m ρ c (Proc.devRef .tc main_arg14) = m ((c.tc : Thread nD τ).loc main_arg14) :=
  (show Gen.W5 m ρ c (Proc.devRef .tc main_arg14) = Gen.W4 m ρ c (Proc.devRef .tc main_arg14) from (by untouched hostOps2)).trans (W4_arg14 m ρ c)
theorem W6_arg14 (c : Dev nD) : Gen.W6 m ρ c (Proc.devRef .tc main_arg14) = m ((c.tc : Thread nD τ).loc main_arg14) :=
  (show Gen.W6 m ρ c (Proc.devRef .tc main_arg14) = Gen.W5 m ρ c (Proc.devRef .tc main_arg14) from (Gen.W6_of_ne m ρ c main_arg14 (by decide))).trans (W5_arg14 m ρ c)
theorem W7_arg14 (c : Dev nD) : Gen.W7 m ρ c (Proc.devRef .tc main_arg14) = m ((c.tc : Thread nD τ).loc main_arg14) :=
  (show Gen.W7 m ρ c (Proc.devRef .tc main_arg14) = Gen.W6 m ρ c (Proc.devRef .tc main_arg14) from (by untouched hostOps3)).trans (W6_arg14 m ρ c)

theorem W0_arg15 (c : Dev nD) : Gen.W0 m ρ c (Proc.devRef .tc main_arg15) = m ((c.tc : Thread nD τ).loc main_arg15) :=
  rfl
theorem W1_arg15 (c : Dev nD) : Gen.W1 m ρ c (Proc.devRef .tc main_arg15) = m ((c.tc : Thread nD τ).loc main_arg15) :=
  (show Gen.W1 m ρ c (Proc.devRef .tc main_arg15) = Gen.W0 m ρ c (Proc.devRef .tc main_arg15) from (by untouched hostOps0)).trans (W0_arg15 m ρ c)
theorem W2_arg15 (c : Dev nD) : Gen.W2 m ρ c (Proc.devRef .tc main_arg15) = m ((c.tc : Thread nD τ).loc main_arg15) :=
  (show Gen.W2 m ρ c (Proc.devRef .tc main_arg15) = Gen.W1 m ρ c (Proc.devRef .tc main_arg15) from (Gen.W2_of_ne m ρ c main_arg15 (by decide))).trans (W1_arg15 m ρ c)
theorem W3_arg15 (c : Dev nD) : Gen.W3 m ρ c (Proc.devRef .tc main_arg15) = m ((c.tc : Thread nD τ).loc main_arg15) :=
  (show Gen.W3 m ρ c (Proc.devRef .tc main_arg15) = Gen.W2 m ρ c (Proc.devRef .tc main_arg15) from (by untouched hostOps1)).trans (W2_arg15 m ρ c)
theorem W4_arg15 (c : Dev nD) : Gen.W4 m ρ c (Proc.devRef .tc main_arg15) = m ((c.tc : Thread nD τ).loc main_arg15) :=
  (show Gen.W4 m ρ c (Proc.devRef .tc main_arg15) = Gen.W3 m ρ c (Proc.devRef .tc main_arg15) from (Gen.W4_of_ne m ρ c main_arg15 (by decide))).trans (W3_arg15 m ρ c)
theorem W5_arg15 (c : Dev nD) : Gen.W5 m ρ c (Proc.devRef .tc main_arg15) = m ((c.tc : Thread nD τ).loc main_arg15) :=
  (show Gen.W5 m ρ c (Proc.devRef .tc main_arg15) = Gen.W4 m ρ c (Proc.devRef .tc main_arg15) from (by untouched hostOps2)).trans (W4_arg15 m ρ c)
theorem W6_arg15 (c : Dev nD) : Gen.W6 m ρ c (Proc.devRef .tc main_arg15) = m ((c.tc : Thread nD τ).loc main_arg15) :=
  (show Gen.W6 m ρ c (Proc.devRef .tc main_arg15) = Gen.W5 m ρ c (Proc.devRef .tc main_arg15) from (Gen.W6_of_ne m ρ c main_arg15 (by decide))).trans (W5_arg15 m ρ c)
theorem W7_arg15 (c : Dev nD) : Gen.W7 m ρ c (Proc.devRef .tc main_arg15) = m ((c.tc : Thread nD τ).loc main_arg15) :=
  (show Gen.W7 m ρ c (Proc.devRef .tc main_arg15) = Gen.W6 m ρ c (Proc.devRef .tc main_arg15) from (by untouched hostOps3)).trans (W6_arg15 m ρ c)

theorem W0_arg13 (c : Dev nD) : Gen.W0 m ρ c (Proc.devRef .tc main_arg13) = m ((c.tc : Thread nD τ).loc main_arg13) :=
  rfl
theorem W1_arg13 (c : Dev nD) : Gen.W1 m ρ c (Proc.devRef .tc main_arg13) = m ((c.tc : Thread nD τ).loc main_arg13) :=
  (show Gen.W1 m ρ c (Proc.devRef .tc main_arg13) = Gen.W0 m ρ c (Proc.devRef .tc main_arg13) from (by untouched hostOps0)).trans (W0_arg13 m ρ c)
theorem W2_arg13 (c : Dev nD) : Gen.W2 m ρ c (Proc.devRef .tc main_arg13) = m ((c.tc : Thread nD τ).loc main_arg13) :=
  (show Gen.W2 m ρ c (Proc.devRef .tc main_arg13) = Gen.W1 m ρ c (Proc.devRef .tc main_arg13) from (Gen.W2_of_ne m ρ c main_arg13 (by decide))).trans (W1_arg13 m ρ c)
theorem W3_arg13 (c : Dev nD) : Gen.W3 m ρ c (Proc.devRef .tc main_arg13) = m ((c.tc : Thread nD τ).loc main_arg13) :=
  (show Gen.W3 m ρ c (Proc.devRef .tc main_arg13) = Gen.W2 m ρ c (Proc.devRef .tc main_arg13) from (by untouched hostOps1)).trans (W2_arg13 m ρ c)
theorem W4_arg13 (c : Dev nD) : Gen.W4 m ρ c (Proc.devRef .tc main_arg13) = m ((c.tc : Thread nD τ).loc main_arg13) :=
  (show Gen.W4 m ρ c (Proc.devRef .tc main_arg13) = Gen.W3 m ρ c (Proc.devRef .tc main_arg13) from (Gen.W4_of_ne m ρ c main_arg13 (by decide))).trans (W3_arg13 m ρ c)
theorem W5_arg13 (c : Dev nD) : Gen.W5 m ρ c (Proc.devRef .tc main_arg13) = m ((c.tc : Thread nD τ).loc main_arg13) :=
  (show Gen.W5 m ρ c (Proc.devRef .tc main_arg13) = Gen.W4 m ρ c (Proc.devRef .tc main_arg13) from (by untouched hostOps2)).trans (W4_arg13 m ρ c)
theorem W6_arg13 (c : Dev nD) : Gen.W6 m ρ c (Proc.devRef .tc main_arg13) = m ((c.tc : Thread nD τ).loc main_arg13) :=
  (show Gen.W6 m ρ c (Proc.devRef .tc main_arg13) = Gen.W5 m ρ c (Proc.devRef .tc main_arg13) from (Gen.W6_of_ne m ρ c main_arg13 (by decide))).trans (W5_arg13 m ρ c)

theorem W0_arg16 (c : Dev nD) : Gen.W0 m ρ c (Proc.devRef .tc main_arg16) = m ((c.tc : Thread nD τ).loc main_arg16) :=
  rfl
theorem W1_arg16 (c : Dev nD) : Gen.W1 m ρ c (Proc.devRef .tc main_arg16) = m ((c.tc : Thread nD τ).loc main_arg16) :=
  (show Gen.W1 m ρ c (Proc.devRef .tc main_arg16) = Gen.W0 m ρ c (Proc.devRef .tc main_arg16) from (by untouched hostOps0)).trans (W0_arg16 m ρ c)
theorem W2_arg16 (c : Dev nD) : Gen.W2 m ρ c (Proc.devRef .tc main_arg16) = m ((c.tc : Thread nD τ).loc main_arg16) :=
  (show Gen.W2 m ρ c (Proc.devRef .tc main_arg16) = Gen.W1 m ρ c (Proc.devRef .tc main_arg16) from (Gen.W2_of_ne m ρ c main_arg16 (by decide))).trans (W1_arg16 m ρ c)
theorem W3_arg16 (c : Dev nD) : Gen.W3 m ρ c (Proc.devRef .tc main_arg16) = m ((c.tc : Thread nD τ).loc main_arg16) :=
  (show Gen.W3 m ρ c (Proc.devRef .tc main_arg16) = Gen.W2 m ρ c (Proc.devRef .tc main_arg16) from (by untouched hostOps1)).trans (W2_arg16 m ρ c)
theorem W4_arg16 (c : Dev nD) : Gen.W4 m ρ c (Proc.devRef .tc main_arg16) = m ((c.tc : Thread nD τ).loc main_arg16) :=
  (show Gen.W4 m ρ c (Proc.devRef .tc main_arg16) = Gen.W3 m ρ c (Proc.devRef .tc main_arg16) from (Gen.W4_of_ne m ρ c main_arg16 (by decide))).trans (W3_arg16 m ρ c)
theorem W5_arg16 (c : Dev nD) : Gen.W5 m ρ c (Proc.devRef .tc main_arg16) = m ((c.tc : Thread nD τ).loc main_arg16) :=
  (show Gen.W5 m ρ c (Proc.devRef .tc main_arg16) = Gen.W4 m ρ c (Proc.devRef .tc main_arg16) from (by untouched hostOps2)).trans (W4_arg16 m ρ c)
theorem W6_arg16 (c : Dev nD) : Gen.W6 m ρ c (Proc.devRef .tc main_arg16) = m ((c.tc : Thread nD τ).loc main_arg16) :=
  (show Gen.W6 m ρ c (Proc.devRef .tc main_arg16) = Gen.W5 m ρ c (Proc.devRef .tc main_arg16) from (Gen.W6_of_ne m ρ c main_arg16 (by decide))).trans (W5_arg16 m ρ c)

theorem W1_v1 (c : Dev nD) : Gen.W1 m ρ c (Proc.devRef .tc main_v1) = srcRow (F := F) (m ((c.tc : Thread nD τ).loc main_arg1)) :=
  stretch0_v1 (Gen.W0 m ρ c)
theorem W2_v1 (c : Dev nD) : Gen.W2 m ρ c (Proc.devRef .tc main_v1) = srcRow (F := F) (m ((c.tc : Thread nD τ).loc main_arg1)) :=
  (show Gen.W2 m ρ c (Proc.devRef .tc main_v1) = Gen.W1 m ρ c (Proc.devRef .tc main_v1) from (Gen.W2_of_ne m ρ c main_v1 (by decide))).trans (W1_v1 m ρ c)
theorem W3_v1 (c : Dev nD) : Gen.W3 m ρ c (Proc.devRef .tc main_v1) = srcRow (F := F) (m ((c.tc : Thread nD τ).loc main_arg1)) :=
  (show Gen.W3 m ρ c (Proc.devRef .tc main_v1) = Gen.W2 m ρ c (Proc.devRef .tc main_v1) from (by untouched hostOps1)).trans (W2_v1 m ρ c)
theorem W4_v1 (c : Dev nD) : Gen.W4 m ρ c (Proc.devRef .tc main_v1) = srcRow (F := F) (m ((c.tc : Thread nD τ).loc main_arg1)) :=
  (show Gen.W4 m ρ c (Proc.devRef .tc main_v1) = Gen.W3 m ρ c (Proc.devRef .tc main_v1) from (Gen.W4_of_ne m ρ c main_v1 (by decide))).trans (W3_v1 m ρ c)
theorem W5_v1 (c : Dev nD) : Gen.W5 m ρ c (Proc.devRef .tc main_v1) = srcRow (F := F) (m ((c.tc : Thread nD τ).loc main_arg1)) :=
  (show Gen.W5 m ρ c (Proc.devRef .tc main_v1) = Gen.W4 m ρ c (Proc.devRef .tc main_v1) from (by untouched hostOps2)).trans (W4_v1 m ρ c)
theorem W6_v1 (c : Dev nD) : Gen.W6 m ρ c (Proc.devRef .tc main_v1) = srcRow (F := F) (m ((c.tc : Thread nD τ).loc main_arg1)) :=
  (show Gen.W6 m ρ c (Proc.devRef .tc main_v1) = Gen.W5 m ρ c (Proc.devRef .tc main_v1) from (Gen.W6_of_ne m ρ c main_v1 (by decide))).trans (W5_v1 m ρ c)

theorem W1_v3 (c : Dev nD) : Gen.W1 m ρ c (Proc.devRef .tc main_v3) = dstRow (F := F) (m ((c.tc : Thread nD τ).loc main_arg1)) :=
  stretch0_v3 (Gen.W0 m ρ c)
theorem W2_v3 (c : Dev nD) : Gen.W2 m ρ c (Proc.devRef .tc main_v3) = dstRow (F := F) (m ((c.tc : Thread nD τ).loc main_arg1)) :=
  (show Gen.W2 m ρ c (Proc.devRef .tc main_v3) = Gen.W1 m ρ c (Proc.devRef .tc main_v3) from (Gen.W2_of_ne m ρ c main_v3 (by decide))).trans (W1_v3 m ρ c)
theorem W3_v3 (c : Dev nD) : Gen.W3 m ρ c (Proc.devRef .tc main_v3) = dstRow (F := F) (m ((c.tc : Thread nD τ).loc main_arg1)) :=
  (show Gen.W3 m ρ c (Proc.devRef .tc main_v3) = Gen.W2 m ρ c (Proc.devRef .tc main_v3) from (by untouched hostOps1)).trans (W2_v3 m ρ c)
theorem W4_v3 (c : Dev nD) : Gen.W4 m ρ c (Proc.devRef .tc main_v3) = dstRow (F := F) (m ((c.tc : Thread nD τ).loc main_arg1)) :=
  (show Gen.W4 m ρ c (Proc.devRef .tc main_v3) = Gen.W3 m ρ c (Proc.devRef .tc main_v3) from (Gen.W4_of_ne m ρ c main_v3 (by decide))).trans (W3_v3 m ρ c)
theorem W5_v3 (c : Dev nD) : Gen.W5 m ρ c (Proc.devRef .tc main_v3) = dstRow (F := F) (m ((c.tc : Thread nD τ).loc main_arg1)) :=
  (show Gen.W5 m ρ c (Proc.devRef .tc main_v3) = Gen.W4 m ρ c (Proc.devRef .tc main_v3) from (by untouched hostOps2)).trans (W4_v3 m ρ c)
theorem W6_v3 (c : Dev nD) : Gen.W6 m ρ c (Proc.devRef .tc main_v3) = dstRow (F := F) (m ((c.tc : Thread nD τ).loc main_arg1)) :=
  (show Gen.W6 m ρ c (Proc.devRef .tc main_v3) = Gen.W5 m ρ c (Proc.devRef .tc main_v3) from (Gen.W6_of_ne m ρ c main_v3 (by decide))).trans (W5_v3 m ρ c)

theorem W1_v12 (c : Dev nD) : Gen.W1 m ρ c (Proc.devRef .tc main_v12) = invCnt (F := F) (dstRow (F := F) (m ((c.tc : Thread nD τ).loc main_arg1))) :=
  stretch0_v12 (Gen.W0 m ρ c)
theorem W2_v12 (c : Dev nD) : Gen.W2 m ρ c (Proc.devRef .tc main_v12) = invCnt (F := F) (dstRow (F := F) (m ((c.tc : Thread nD τ).loc main_arg1))) :=
  (show Gen.W2 m ρ c (Proc.devRef .tc main_v12) = Gen.W1 m ρ c (Proc.devRef .tc main_v12) from (Gen.W2_of_ne m ρ c main_v12 (by decide))).trans (W1_v12 m ρ c)
theorem W3_v12 (c : Dev nD) : Gen.W3 m ρ c (Proc.devRef .tc main_v12) = invCnt (F := F) (dstRow (F := F) (m ((c.tc : Thread nD τ).loc main_arg1))) :=
  (show Gen.W3 m ρ c (Proc.devRef .tc main_v12) = Gen.W2 m ρ c (Proc.devRef .tc main_v12) from (by untouched hostOps1)).trans (W2_v12 m ρ c)
theorem W4_v12 (c : Dev nD) : Gen.W4 m ρ c (Proc.devRef .tc main_v12) = invCnt (F := F) (dstRow (F := F) (m ((c.tc : Thread nD τ).loc main_arg1))) :=
  (show Gen.W4 m ρ c (Proc.devRef .tc main_v12) = Gen.W3 m ρ c (Proc.devRef .tc main_v12) from ((Gen.W4_arr m ρ c 1).trans (((Gen.dat1 (Gen.V3 m ρ) c).arrAt_in 1 rfl _).trans (Gen.A_eq1 (Gen.V3 m ρ) c 1)))).trans (W3_v12 m ρ c)
theorem W5_v12 (c : Dev nD) : Gen.W5 m ρ c (Proc.devRef .tc main_v12) = invCnt (F := F) (dstRow (F := F) (m ((c.tc : Thread nD τ).loc main_arg1))) :=
  (show Gen.W5 m ρ c (Proc.devRef .tc main_v12) = Gen.W4 m ρ c (Proc.devRef .tc main_v12) from (by untouched hostOps2)).trans (W4_v12 m ρ c)
theorem W6_v12 (c : Dev nD) : Gen.W6 m ρ c (Proc.devRef .tc main_v12) = invCnt (F := F) (dstRow (F := F) (m ((c.tc : Thread nD τ).loc main_arg1))) :=
  (show Gen.W6 m ρ c (Proc.devRef .tc main_v12) = Gen.W5 m ρ c (Proc.devRef .tc main_v12) from ((Gen.W6_arr m ρ c 1).trans (((Gen.dat2 (Gen.V5 m ρ) c).arrAt_in 1 rfl _).trans (Gen.A_eq2 (Gen.V5 m ρ) c 1)))).trans (W5_v12 m ρ c)
theorem W7_v12 (c : Dev nD) : Gen.W7 m ρ c (Proc.devRef .tc main_v12) = invCnt (F := F) (dstRow (F := F) (m ((c.tc : Thread nD τ).loc main_arg1))) :=
  (show Gen.W7 m ρ c (Proc.devRef .tc main_v12) = Gen.W6 m ρ c (Proc.devRef .tc main_v12) from (by untouched hostOps3)).trans (W6_v12 m ρ c)

/-! ## The result and each region's arrays at entry, read back through the fold -/

/-- The result: the last region's output column, flattened. -/
theorem R_out (c : Dev nD) : Gen.W9 m ρ c (Proc.devRef .tc main_v57)
    = (shapeCast S100000 ((Gen.dat3 (Gen.V7 m ρ) c).arrAt 8 cfg3.N) shapeCasts_S100000x1_S100000 : Vec F S100000 .f32) :=
  (stretch4_v57 (Gen.W8 m ρ c)).trans (by rw [show Gen.W8 m ρ c (Proc.devRef .tc main_v56) = _ from Gen.W8_arr m ρ c 8])

/-! ### Region 3's arrays at entry -/
theorem V7_v53 (c : Dev nD) : Gen.V7 m ρ c main_v53 = agg64 (F := F) ((Gen.dat2 (Gen.V5 m ρ) c).arrAt 7 cfg2.N) (srcRow (F := F) (m ((c.tc : Thread nD τ).loc main_arg1))) (dstRow (F := F) (m ((c.tc : Thread nD τ).loc main_arg1))) :=
  (stretch3_v53 (Gen.W6 m ρ c)).trans (by rw [show Gen.W6 m ρ c (Proc.devRef .tc main_v42_1) = _ from Gen.W6_arr m ρ c 7, W6_v1 m ρ c, W6_v3 m ρ c])
theorem V7_v12 (c : Dev nD) : Gen.V7 m ρ c main_v12 = invCnt (F := F) (dstRow (F := F) (m ((c.tc : Thread nD τ).loc main_arg1))) := W7_v12 m ρ c
theorem V7_v42_0 (c : Dev nD) : Gen.V7 m ρ c main_v42_0 = (Gen.dat2 (Gen.V5 m ρ) c).arrAt 6 cfg2.N :=
  (show Gen.W7 m ρ c (Proc.devRef .tc main_v42_0) = Gen.W6 m ρ c (Proc.devRef .tc main_v42_0) from (by untouched hostOps3)).trans (Gen.W6_arr m ρ c 6)
theorem V7_arg12 (c : Dev nD) : Gen.V7 m ρ c main_arg12 = m ((c.tc : Thread nD τ).loc main_arg12) := W7_arg12 m ρ c
theorem V7_v54 (c : Dev nD) : Gen.V7 m ρ c main_v54 = (shapeCast S1x64 (m ((c.tc : Thread nD τ).loc main_arg13)) shapeCasts_S64_S1x64 : Vec F S1x64 .f32) :=
  (stretch3_v54 (Gen.W6 m ρ c)).trans (by rw [W6_arg13 m ρ c])
theorem V7_arg14 (c : Dev nD) : Gen.V7 m ρ c main_arg14 = m ((c.tc : Thread nD τ).loc main_arg14) := W7_arg14 m ρ c
theorem V7_arg15 (c : Dev nD) : Gen.V7 m ρ c main_arg15 = m ((c.tc : Thread nD τ).loc main_arg15) := W7_arg15 m ρ c
theorem V7_v55 (c : Dev nD) : Gen.V7 m ρ c main_v55 = (shapeCast S1x1 (m ((c.tc : Thread nD τ).loc main_arg16)) shapeCasts_S1_S1x1 : Vec F S1x1 .f32) :=
  (stretch3_v55 (Gen.W6 m ρ c)).trans (by rw [W6_arg16 m ρ c])

/-! ### Region 2's arrays at entry -/
theorem V5_v40 (c : Dev nD) : Gen.V5 m ρ c main_v40 = agg64 (F := F) ((Gen.dat1 (Gen.V3 m ρ) c).arrAt 7 cfg1.N) (srcRow (F := F) (m ((c.tc : Thread nD τ).loc main_arg1))) (dstRow (F := F) (m ((c.tc : Thread nD τ).loc main_arg1))) :=
  (stretch2_v40 (Gen.W4 m ρ c)).trans (by rw [show Gen.W4 m ρ c (Proc.devRef .tc main_v29_1) = _ from Gen.W4_arr m ρ c 7, W4_v1 m ρ c, W4_v3 m ρ c])
theorem V5_v12 (c : Dev nD) : Gen.V5 m ρ c main_v12 = invCnt (F := F) (dstRow (F := F) (m ((c.tc : Thread nD τ).loc main_arg1))) := W5_v12 m ρ c
theorem V5_v29_0 (c : Dev nD) : Gen.V5 m ρ c main_v29_0 = (Gen.dat1 (Gen.V3 m ρ) c).arrAt 6 cfg1.N :=
  (show Gen.W5 m ρ c (Proc.devRef .tc main_v29_0) = Gen.W4 m ρ c (Proc.devRef .tc main_v29_0) from (by untouched hostOps2)).trans (Gen.W4_arr m ρ c 6)
theorem V5_arg9 (c : Dev nD) : Gen.V5 m ρ c main_arg9 = m ((c.tc : Thread nD τ).loc main_arg9) := W5_arg9 m ρ c
theorem V5_v41 (c : Dev nD) : Gen.V5 m ρ c main_v41 = (shapeCast S1x64 (m ((c.tc : Thread nD τ).loc main_arg10)) shapeCasts_S64_S1x64 : Vec F S1x64 .f32) :=
  (stretch2_v41 (Gen.W4 m ρ c)).trans (by rw [W4_arg10 m ρ c])
theorem V5_arg11 (c : Dev nD) : Gen.V5 m ρ c main_arg11 = m ((c.tc : Thread nD τ).loc main_arg11) := W5_arg11 m ρ c

/-! ### Region 1's arrays at entry -/
theorem V3_v27 (c : Dev nD) : Gen.V3 m ρ c main_v27 = agg17 (F := F) ((Gen.dat0 (Gen.V1 m ρ) c).arrAt 6 cfg0.N) (srcRow (F := F) (m ((c.tc : Thread nD τ).loc main_arg1))) (dstRow (F := F) (m ((c.tc : Thread nD τ).loc main_arg1))) :=
  (stretch1_v27 (Gen.W2 m ρ c)).trans (by rw [show Gen.W2 m ρ c (Proc.devRef .tc main_v16_1) = _ from Gen.W2_arr m ρ c 6, W2_v1 m ρ c, W2_v3 m ρ c])
theorem V3_v12 (c : Dev nD) : Gen.V3 m ρ c main_v12 = invCnt (F := F) (dstRow (F := F) (m ((c.tc : Thread nD τ).loc main_arg1))) := W3_v12 m ρ c
theorem V3_v16_0 (c : Dev nD) : Gen.V3 m ρ c main_v16_0 = (Gen.dat0 (Gen.V1 m ρ) c).arrAt 5 cfg0.N :=
  (show Gen.W3 m ρ c (Proc.devRef .tc main_v16_0) = Gen.W2 m ρ c (Proc.devRef .tc main_v16_0) from (by untouched hostOps1)).trans (Gen.W2_arr m ρ c 5)
theorem V3_arg6 (c : Dev nD) : Gen.V3 m ρ c main_arg6 = m ((c.tc : Thread nD τ).loc main_arg6) := W3_arg6 m ρ c
theorem V3_v28 (c : Dev nD) : Gen.V3 m ρ c main_v28 = (shapeCast S1x64 (m ((c.tc : Thread nD τ).loc main_arg7)) shapeCasts_S64_S1x64 : Vec F S1x64 .f32) :=
  (stretch1_v28 (Gen.W2 m ρ c)).trans (by rw [W2_arg7 m ρ c])
theorem V3_arg8 (c : Dev nD) : Gen.V3 m ρ c main_arg8 = m ((c.tc : Thread nD τ).loc main_arg8) := W3_arg8 m ρ c

/-! ### Region 0's arrays at entry -/
theorem V1_arg0 (c : Dev nD) : Gen.V1 m ρ c main_arg0 = m ((c.tc : Thread nD τ).loc main_arg0) := W1_arg0 m ρ c
theorem V1_arg2 (c : Dev nD) : Gen.V1 m ρ c main_arg2 = m ((c.tc : Thread nD τ).loc main_arg2) := W1_arg2 m ρ c
theorem V1_v13 (c : Dev nD) : Gen.V1 m ρ c main_v13 = (shapeCast S1x8 (m ((c.tc : Thread nD τ).loc main_arg3)) shapeCasts_S8_S1x8 : Vec F S1x8 .f32) :=
  stretch0_v13 (Gen.W0 m ρ c)
theorem V1_v14 (c : Dev nD) : Gen.V1 m ρ c main_v14 = (shapeCast S1x8 (m ((c.tc : Thread nD τ).loc main_arg4)) shapeCasts_S8_S1x8 : Vec F S1x8 .f32) :=
  stretch0_v14 (Gen.W0 m ρ c)
theorem V1_v15 (c : Dev nD) : Gen.V1 m ρ c main_v15 = (shapeCast S1x8 (m ((c.tc : Thread nD τ).loc main_arg5)) shapeCasts_S8_S1x8 : Vec F S1x8 .f32) :=
  stretch0_v15 (Gen.W0 m ρ c)

end Cert.KernelIdeal.Reads

end
-- ==== Proof.Spec.lean ====
/-
  The network that both programs compute, written once, index by index, on the extended reals.

  A node's feature row has 35 columns: six type columns, a 26-column one-hot family block, three more.
  The family block is embedded (26 → 8, a matrix product plus a bias) and layer-normalised along its 8
  coordinates (mean, centred squares' mean, reciprocal square root of the variance plus a small constant,
  an affine map); the 17-column node state is the six type columns, the normalised embedding, the last three
  columns.  Three mean-aggregating graph layers follow: at node `i` the neighbour sum `msum i` (supplied by an
  aggregation `agg` of the node states, which this file does not open) is divided by the clamped in-degree
  `c i`, multiplied by a left matrix, a bias added, the node's own state times a right matrix added, and —
  for the second and third layer — the node's own state added again, before the positive part is taken.
  The result is the third layer's state times a 64 → 1 matrix plus a bias.

  Literals are kept as their words: both programs spell the same ones.
-/
import Idealize.ShloMosaic.PureOps.Ideal
import Idealize.ShloMosaic.Lib.ValueIdx

noncomputable section

namespace Cert.Gnn

open Idealize.ShloMosaic Idealize.ShloMosaic.ValueIdx

/-- A matrix of extended reals over its index type. -/
abbrev Arr2 (n d : Nat) : Type := (⟨2, ![n, d]⟩ : Shape).Idx → EReal
/-- A vector of extended reals over its index type. -/
abbrev Arr1 (n : Nat) : Type := (⟨1, ![n]⟩ : Shape).Idx → EReal

/-- The row of a matrix index. -/
def row {n d : Nat} (j : (⟨2, ![n, d]⟩ : Shape).Idx) : Fin n := ⟨(j 0).val, idx2_lt0 j⟩
/-- The column of a matrix index. -/
def col {n d : Nat} (j : (⟨2, ![n, d]⟩ : Shape).Idx) : Fin d := ⟨(j 1).val, idx2_lt1 j⟩
/-- The one coordinate of a vector index. -/
def pos {n : Nat} (j : (⟨1, ![n]⟩ : Shape).Idx) : Fin n := ⟨(j 0).val, (j 0).isLt⟩

theorem ix2_row_col {n d : Nat} (j : (⟨2, ![n, d]⟩ : Shape).Idx) : ix2 (row j) (col j) = j := by
  funext a; match a with | ⟨0, _⟩ => rfl | ⟨1, _⟩ => rfl
theorem row_ix2 {n d : Nat} (a : Fin n) (b : Fin d) : row (ix2 a b) = a := rfl
theorem col_ix2 {n d : Nat} (a : Fin n) (b : Fin d) : col (ix2 a b) = b := rfl
theorem ix1_pos {n : Nat} (j : (⟨1, ![n]⟩ : Shape).Idx) : ix1 (pos j) = j := by
  funext a; match a with | ⟨0, _⟩ => rfl
theorem pos_ix1 {n : Nat} (a : Fin n) : pos (ix1 a) = a := rfl

/-- The word of `0.0`. -/
abbrev zero : EReal := Ideal.ofBits .f32 0x00000000#32
/-- The word of `8.0`: the number of embedding coordinates. -/
abbrev eight : EReal := Ideal.ofBits .f32 0x41000000#32
/-- The word of the small constant added to the variance. -/
abbrev eps : EReal := Ideal.ofBits .f32 0x3727C5AC#32

/-- The family embedding of node `i` at coordinate `k`: the one-hot columns `6 … 31` of the feature row times
    the embedding matrix, plus the bias. -/
def emb (x : Arr2 100000 35) (We : Arr2 26 8) (be : Arr1 8) (i : Fin 100000) (k : Fin 8) : EReal :=
  (∑ q : Fin 26, x (ix2 i ⟨6 + q.val, by omega⟩) * We (ix2 q k)) + be (ix1 k)

/-- The mean of eight numbers: their sum divided by `8.0`. -/
def mean8 (e : Fin 8 → EReal) : EReal := Ideal.div (∑ k : Fin 8, e k) eight

/-- Layer normalisation of eight numbers at coordinate `k`: centred, scaled by the reciprocal square root of
    the centred squares' mean plus the small constant, then the affine map. -/
def lnorm (e : Fin 8 → EReal) (g b : Arr1 8) (k : Fin 8) : EReal :=
  (e k - mean8 e) * Ideal.rsqrt (mean8 (fun k' => (e k' - mean8 e) * (e k' - mean8 e)) + eps) * g (ix1 k) + b (ix1 k)

/-- The 17-column node state: columns `0 … 5` are the feature's, `6 … 13` the normalised embedding, `14 … 16` the
    feature's columns `32 … 34`. -/
def h0 (x : Arr2 100000 35) (We : Arr2 26 8) (be g b : Arr1 8) : Arr2 100000 17 := fun j =>
  if h : (col j).val < 6 then x (ix2 (row j) ⟨(col j).val, by omega⟩)
  else if h' : (col j).val < 14 then lnorm (emb x We be (row j)) g b ⟨(col j).val - 6, by omega⟩
  else x (ix2 (row j) ⟨(col j).val + 18, by have := (col j).isLt; omega⟩)

/-- The first graph layer (17 → 64, no residual). -/
def sage1 (msum h : Arr2 100000 17) (c : Arr1 100000) (Wl Wr : Arr2 17 64) (bl : Arr1 64) : Arr2 100000 64 := fun j =>
  max (((∑ k : Fin 17, Ideal.div (msum (ix2 (row j) k)) (c (ix1 (row j))) * Wl (ix2 k (col j))) + bl (ix1 (col j)))
        + ∑ k : Fin 17, h (ix2 (row j) k) * Wr (ix2 k (col j))) zero

/-- A later graph layer (64 → 64, the node's own state added before the positive part). -/
def sageR (msum h : Arr2 100000 64) (c : Arr1 100000) (Wl Wr : Arr2 64 64) (bl : Arr1 64) : Arr2 100000 64 := fun j =>
  max ((((∑ k : Fin 64, Ideal.div (msum (ix2 (row j) k)) (c (ix1 (row j))) * Wl (ix2 k (col j))) + bl (ix1 (col j)))
        + ∑ k : Fin 64, h (ix2 (row j) k) * Wr (ix2 k (col j))) + h (ix2 (row j) (col j))) zero

/-- The read-out: the state times the 64 → 1 matrix plus the bias. -/
def fc (h : Arr2 100000 64) (Wfc : Arr2 64 1) (bfc : Arr1 1) : Arr1 100000 := fun i =>
  (∑ k : Fin 64, h (ix2 (pos i) k) * Wfc (ix2 k (0 : Fin 1))) + bfc (ix1 (0 : Fin 1))

/-- The whole network over an aggregation at width 17, one at width 64 and the clamped in-degrees. -/
def out (agg17 : Arr2 100000 17 → Arr2 100000 17) (agg64 : Arr2 100000 64 → Arr2 100000 64) (c : Arr1 100000)
    (x : Arr2 100000 35) (We : Arr2 26 8) (be g b : Arr1 8)
    (Wl1 : Arr2 17 64) (bl1 : Arr1 64) (Wr1 : Arr2 17 64)
    (Wl2 : Arr2 64 64) (bl2 : Arr1 64) (Wr2 : Arr2 64 64)
    (Wl3 : Arr2 64 64) (bl3 : Arr1 64) (Wr3 : Arr2 64 64)
    (Wfc : Arr2 64 1) (bfc : Arr1 1) : Arr1 100000 :=
  fc (sageR (agg64 (sageR (agg64 (sage1 (agg17 (h0 x We be g b)) (h0 x We be g b) c Wl1 Wr1 bl1))
        (sage1 (agg17 (h0 x We be g b)) (h0 x We be g b) c Wl1 Wr1 bl1) c Wl2 Wr2 bl2))
      (sageR (agg64 (sage1 (agg17 (h0 x We be g b)) (h0 x We be g b) c Wl1 Wr1 bl1))
        (sage1 (agg17 (h0 x We be g b)) (h0 x We be g b) c Wl1 Wr1 bl1) c Wl2 Wr2 bl2) c Wl3 Wr3 bl3) Wfc bfc

/-- Off zero, dividing is multiplying by the reciprocal: the kernel multiplies the neighbour sum by `1 / c`,
    the reference divides it by `c`. -/
theorem mul_one_div (a c : EReal) (hc : c ≠ 0) : a * Ideal.div 1 c = Ideal.div a c := by
  unfold Ideal.div
  rw [if_neg hc, if_neg hc, one_mul]

end Cert.Gnn

end
-- ==== Proof.KerBlocks.lean ====
import proofs.«140343_j90855738180235_2_alg».proof.Proof.Gen.KernelIdeal.Frame
import Idealize.ShloMosaic.Lib.Pipeline.Value
import Idealize.ShloMosaic.Lib.ValueIdx

/-! Each region's output arrays as ONE function of the region's input arrays, at an arbitrary entry valuation.

The four grids are one axis of 25 points; a row-blocked window holds rows `4000 t … 4000 t + 3999` of its array at point
`t`, a weight or bias window holds its whole array at every point. So entry `i` of an output array is the body's result
on the row blocks `(i 0) / 4000` of the row-blocked inputs and on the whole weight arrays, read at row `(i 0) % 4000`. -/

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## Rows and their blocks: 100000 rows in 25 blocks of 4000 -/

/-- The block holding row `i 0`. -/
def pt {D : Nat} (i : (⟨2, ![100000, D]⟩ : Shape).Idx) : Fin 25 :=
  ⟨(i 0).val / 4000, by have := idx2_lt0 i; omega⟩

/-- The place of index `i` inside its block: row `(i 0) % 4000`, same column. -/
def loc {D : Nat} (i : (⟨2, ![100000, D]⟩ : Shape).Idx) : (⟨2, ![4000, D]⟩ : Shape).Idx :=
  ix2 ⟨(i 0).val % 4000, Nat.mod_lt _ (by decide)⟩ (i 1)

/-- The array index of place `y` of block `t`: row `4000 t + y 0`, same column. -/
def glob {D : Nat} (t : Fin 25) (y : (⟨2, ![4000, D]⟩ : Shape).Idx) : (⟨2, ![100000, D]⟩ : Shape).Idx :=
  ix2 ⟨4000 * t.val + (y 0).val, by have := idx2_lt0 y; have := t.isLt; omega⟩ (y 1)

/-- Row block `t` of an array. -/
def blk {D : Nat} {α : Type} (A : (⟨2, ![100000, D]⟩ : Shape).Idx → α) (t : Fin 25) : (⟨2, ![4000, D]⟩ : Shape).Idx → α :=
  fun y => A (glob t y)

theorem pt_val {D : Nat} (i : (⟨2, ![100000, D]⟩ : Shape).Idx) : (pt i).val = (i 0).val / 4000 := rfl

theorem loc_row_val {D : Nat} (i : (⟨2, ![100000, D]⟩ : Shape).Idx) : (loc i 0).val = (i 0).val % 4000 := rfl

theorem loc_col {D : Nat} (i : (⟨2, ![100000, D]⟩ : Shape).Idx) : loc i 1 = i 1 := rfl

theorem blk_apply {D : Nat} {α : Type} (A : (⟨2, ![100000, D]⟩ : Shape).Idx → α) (t : Fin 25) (y : (⟨2, ![4000, D]⟩ : Shape).Idx) :
    blk A t y = A (glob t y) := rfl

theorem glob_pt_loc {D : Nat} (i : (⟨2, ![100000, D]⟩ : Shape).Idx) : glob (pt i) (loc i) = i := by
  funext a
  match a with
  | ⟨0, _⟩ => apply Fin.ext; show 4000 * ((i 0).val / 4000) + (i 0).val % 4000 = (i 0).val; omega
  | ⟨1, _⟩ => rfl

theorem pt_glob {D : Nat} (t : Fin 25) (y : (⟨2, ![4000, D]⟩ : Shape).Idx) : pt (glob t y) = t := by
  apply Fin.ext
  show (4000 * t.val + (y 0).val) / 4000 = t.val
  have := idx2_lt0 y; omega

theorem loc_glob {D : Nat} (t : Fin 25) (y : (⟨2, ![4000, D]⟩ : Shape).Idx) : loc (glob t y) = y := by
  funext a
  match a with
  | ⟨0, _⟩ => apply Fin.ext; show (4000 * t.val + (y 0).val) % 4000 = (y 0).val; have := idx2_lt0 y; omega
  | ⟨1, _⟩ => rfl

/-- The block of row `i 0`, at that row's place and any column `k` (of an array of any width), is row `i 0`, column `k`. -/
theorem glob_pt_row {D D' : Nat} (i : (⟨2, ![100000, D]⟩ : Shape).Idx) (k : Fin D') :
    glob (pt i) (ix2 (loc i 0) k) = ix2 (i 0) k := by
  funext a
  match a with
  | ⟨0, _⟩ => apply Fin.ext; show 4000 * ((i 0).val / 4000) + (i 0).val % 4000 = (i 0).val; omega
  | ⟨1, _⟩ => rfl

/-- The same with the place's row given by its value. -/
theorem glob_pt_of_row {D D' : Nat} (i : (⟨2, ![100000, D]⟩ : Shape).Idx) (y : (⟨2, ![4000, D']⟩ : Shape).Idx)
    (h : (y 0).val = (i 0).val % 4000) : glob (pt i) y = ix2 (i 0) (y 1) := by
  funext a
  match a with
  | ⟨0, _⟩ => apply Fin.ext; show 4000 * ((i 0).val / 4000) + (y 0).val = (i 0).val; omega
  | ⟨1, _⟩ => rfl

theorem blk_pt_row {D D' : Nat} {α : Type} (A : (⟨2, ![100000, D']⟩ : Shape).Idx → α) (i : (⟨2, ![100000, D]⟩ : Shape).Idx) (k : Fin D') :
    blk A (pt i) (ix2 (loc i 0) k) = A (ix2 (i 0) k) :=
  congrArg A (glob_pt_row i k)

theorem blk_pt_loc {D : Nat} {α : Type} (A : (⟨2, ![100000, D]⟩ : Shape).Idx → α) (i : (⟨2, ![100000, D]⟩ : Shape).Idx) :
    blk A (pt i) (loc i) = A i :=
  congrArg A (glob_pt_loc i)

section Regions
variable (V : (c : Dev nD) → (b : Ref sig .tc) → Buf (Elt F) ((c : Thread nD τ).loc b))

/-! ## Region 0 -/

/-- Region 0's grid has 25 points. -/
theorem N0 : cfg0.N = 25 := N_0

/-- The point of region 0's grid holding row `i 0`. -/
def pt0 {D : Nat} (i : (⟨2, ![100000, D]⟩ : Shape).Idx) : Fin cfg0.N := Fin.cast N0.symm (pt i)

theorem cast_pt0 {D : Nat} (i : (⟨2, ![100000, D]⟩ : Shape).Idx) : Fin.cast N0 (pt0 i) = pt i := rfl

theorem pt0_val {D : Nat} (i : (⟨2, ![100000, D]⟩ : Shape).Idx) : (pt0 i).val = (i 0).val / 4000 := rfl

/-- Window 0 of region 0 moves with the grid: at point `t` it is block `t` of the rows, the one block of columns. -/
theorem idx0_0 : ∀ t : Fin cfg0.N, win0_0.index t (0 : Fin 2) = t.val ∧ win0_0.index t (1 : Fin 2) = 0 :=
  (by decide +kernel : ∀ t : Fin grid0.N, _)
/-- Window 1 of region 0 stays: at every point it is the one block, the whole array. -/
theorem idx0_1 : ∀ t : Fin cfg0.N, win0_1.index t (0 : Fin 2) = 0 ∧ win0_1.index t (1 : Fin 2) = 0 :=
  (by decide +kernel : ∀ t : Fin grid0.N, _)
/-- Window 2 of region 0 stays: at every point it is the one block, the whole array. -/
theorem idx0_2 : ∀ t : Fin cfg0.N, win0_2.index t (0 : Fin 2) = 0 ∧ win0_2.index t (1 : Fin 2) = 0 :=
  (by decide +kernel : ∀ t : Fin grid0.N, _)
/-- Window 3 of region 0 stays: at every point it is the one block, the whole array. -/
theorem idx0_3 : ∀ t : Fin cfg0.N, win0_3.index t (0 : Fin 2) = 0 ∧ win0_3.index t (1 : Fin 2) = 0 :=
  (by decide +kernel : ∀ t : Fin grid0.N, _)
/-- Window 4 of region 0 stays: at every point it is the one block, the whole array. -/
theorem idx0_4 : ∀ t : Fin cfg0.N, win0_4.index t (0 : Fin 2) = 0 ∧ win0_4.index t (1 : Fin 2) = 0 :=
  (by decide +kernel : ∀ t : Fin grid0.N, _)
/-- Window 5 of region 0 moves with the grid: at point `t` it is block `t` of the rows, the one block of columns. -/
theorem idx0_5 : ∀ t : Fin cfg0.N, win0_5.index t (0 : Fin 2) = t.val ∧ win0_5.index t (1 : Fin 2) = 0 :=
  (by decide +kernel : ∀ t : Fin grid0.N, _)
/-- Window 6 of region 0 moves with the grid: at point `t` it is block `t` of the rows, the one block of columns. -/
theorem idx0_6 : ∀ t : Fin cfg0.N, win0_6.index t (0 : Fin 2) = t.val ∧ win0_6.index t (1 : Fin 2) = 0 :=
  (by decide +kernel : ∀ t : Fin grid0.N, _)

/-! ### The input blocks, read off the arrays -/

/-- Place `y` of input window 0's block at point `t` is the array at row `4000 t + y 0`, column `y 1`. -/
theorem iblk0_0_apply (c : Dev nD) (t : Fin cfg0.N) (y : S4000x35.Idx) :
    iblk0 V c 0 t y = V c (Pipeline.arrRef spec0 0) (glob (Fin.cast N0 t) y) := by
  obtain ⟨e0, e1⟩ := idx0_0 t
  unfold iblk0
  rw [View.read_apply]
  refine (cast_eq _ _).trans (congrArg (V c (Pipeline.arrRef spec0 0)) ?_)
  funext a
  match a with
  | ⟨0, _⟩ => apply Fin.ext; show win0_0.index t (0 : Fin 2) * 4000 + 1 * (y 0).val = 4000 * t.val + (y 0).val; rw [e0]; omega
  | ⟨1, _⟩ => apply Fin.ext; show win0_0.index t (1 : Fin 2) * 35 + 1 * (y 1).val = (y 1).val; rw [e1]; omega

/-- Input window 0's block at point `t` is row block `t` of its array. -/
theorem iblk0_0_blk (c : Dev nD) (t : Fin cfg0.N) :
    (iblk0 V c 0 t : S4000x35.Idx → Elt F .f32) = blk (D := 35) (V c (Pipeline.arrRef spec0 0)) (Fin.cast N0 t) :=
  funext fun y => iblk0_0_apply V c t y

/-- Input window 1's block is the whole array, at every point. -/
theorem iblk0_1_eq (c : Dev nD) (t : Fin cfg0.N) :
    (iblk0 V c 1 t : S26x8.Idx → Elt F .f32) = V c (Pipeline.arrRef spec0 1) := by
  obtain ⟨e0, e1⟩ := idx0_1 t
  funext y
  unfold iblk0
  rw [View.read_apply]
  refine (cast_eq _ _).trans (congrArg (V c (Pipeline.arrRef spec0 1)) ?_)
  funext a
  match a with
  | ⟨0, _⟩ => apply Fin.ext; show win0_1.index t (0 : Fin 2) * 26 + 1 * (y 0).val = (y 0).val; rw [e0]; omega
  | ⟨1, _⟩ => apply Fin.ext; show win0_1.index t (1 : Fin 2) * 8 + 1 * (y 1).val = (y 1).val; rw [e1]; omega

/-- Input window 2's block is the whole array, at every point. -/
theorem iblk0_2_eq (c : Dev nD) (t : Fin cfg0.N) :
    (iblk0 V c 2 t : S1x8.Idx → Elt F .f32) = V c (Pipeline.arrRef spec0 2) := by
  obtain ⟨e0, e1⟩ := idx0_2 t
  funext y
  unfold iblk0
  rw [View.read_apply]
  refine (cast_eq _ _).trans (congrArg (V c (Pipeline.arrRef spec0 2)) ?_)
  funext a
  match a with
  | ⟨0, _⟩ => apply Fin.ext; show win0_2.index t (0 : Fin 2) * 1 + 1 * (y 0).val = (y 0).val; rw [e0]; omega
  | ⟨1, _⟩ => apply Fin.ext; show win0_2.index t (1 : Fin 2) * 8 + 1 * (y 1).val = (y 1).val; rw [e1]; omega

/-- Input window 3's block is the whole array, at every point. -/
theorem iblk0_3_eq (c : Dev nD) (t : Fin cfg0.N) :
    (iblk0 V c 3 t : S1x8.Idx → Elt F .f32) = V c (Pipeline.arrRef spec0 3) := by
  obtain ⟨e0, e1⟩ := idx0_3 t
  funext y
  unfold iblk0
  rw [View.read_apply]
  refine (cast_eq _ _).trans (congrArg (V c (Pipeline.arrRef spec0 3)) ?_)
  funext a
  match a with
  | ⟨0, _⟩ => apply Fin.ext; show win0_3.index t (0 : Fin 2) * 1 + 1 * (y 0).val = (y 0).val; rw [e0]; omega
  | ⟨1, _⟩ => apply Fin.ext; show win0_3.index t (1 : Fin 2) * 8 + 1 * (y 1).val = (y 1).val; rw [e1]; omega

/-- Input window 4's block is the whole array, at every point. -/
theorem iblk0_4_eq (c : Dev nD) (t : Fin cfg0.N) :
    (iblk0 V c 4 t : S1x8.Idx → Elt F .f32) = V c (Pipeline.arrRef spec0 4) := by
  obtain ⟨e0, e1⟩ := idx0_4 t
  funext y
  unfold iblk0
  rw [View.read_apply]
  refine (cast_eq _ _).trans (congrArg (V c (Pipeline.arrRef spec0 4)) ?_)
  funext a
  match a with
  | ⟨0, _⟩ => apply Fin.ext; show win0_4.index t (0 : Fin 2) * 1 + 1 * (y 0).val = (y 0).val; rw [e0]; omega
  | ⟨1, _⟩ => apply Fin.ext; show win0_4.index t (1 : Fin 2) * 8 + 1 * (y 1).val = (y 1).val; rw [e1]; omega

/-- Input window 0's block at the point of row `i 0` (of an index of any width) is that row's block of its array. -/
theorem iblk0_0_at_pt {D : Nat} (c : Dev nD) (i : (⟨2, ![100000, D]⟩ : Shape).Idx) :
    (iblk0 V c 0 (pt0 i) : S4000x35.Idx → Elt F .f32) = blk (D := 35) (V c (Pipeline.arrRef spec0 0)) (pt i) :=
  iblk0_0_blk V c (pt0 i)

/-! ### The output arrays -/

/-- What point `t` writes back to output window 5 is block `t` of ONE array: the one whose entry `i` is the body's
    result on the input blocks at the point of row `i 0`, read at the place of `i` in its block. -/
theorem flushed0_5_eq (c : Dev nD) (t : Fin cfg0.N) :
    (dat0 V c).flushed 5 t = ((cfg0.win 5).blk t).view.read (Elt F) (fun i : S100000x17.Idx =>
      out0_5 (iblk0 V c 0 (pt0 i)) (iblk0 V c 1 (pt0 i)) (iblk0 V c 2 (pt0 i)) (iblk0 V c 3 (pt0 i)) (iblk0 V c 4 (pt0 i)) (loc i)) := by
  show (cfg0.win 5).cut (grid0.coords t) ((dat0 V c).after 5 t) = _
  rw [after0_5]
  obtain ⟨e0, e1⟩ := idx0_5 t
  funext j
  have hj0 : (j 0).val < 4000 := (j 0).isLt
  have hp : pt0 (D := 17) (((cfg0.win 5).blk t).view.emb j) = t := by
    apply Fin.ext
    show (win0_5.index t (0 : Fin 2) * 4000 + 1 * (j 0).val) / 4000 = t.val
    rw [e0]; omega
  have hl : loc (D := 17) (((cfg0.win 5).blk t).view.emb j) = j := by
    funext a
    match a with
    | ⟨0, _⟩ => apply Fin.ext; show (win0_5.index t (0 : Fin 2) * 4000 + 1 * (j 0).val) % 4000 = (j 0).val; rw [e0]; omega
    | ⟨1, _⟩ => apply Fin.ext; show win0_5.index t (1 : Fin 2) * 17 + 1 * (j 1).val = (j 1).val; rw [e1]; omega
  rw [View.read_apply, hp, hl]
  exact (cast_eq _ _).symm

/-- An index of the array is in point `t`'s block iff each coordinate is in the block's range on its axis. -/
theorem mem_blk0_5 (t : Fin cfg0.N) (i : S100000x17.Idx) :
    i ∈ ((cfg0.win 5).blk t).view.set ↔ ∀ a : Fin 2, win0_5.index t a * S4000x17.size a ≤ (i a).val ∧ (i a).val < win0_5.index t a * S4000x17.size a + S4000x17.size a := by
  show i ∈ ((View.whole main_v16_0).slice (win0_5.rect t)).set ↔ _
  rw [View.set_slice_whole, Rect.mem_set_unit]
  exact Iff.rfl

/-- Every index of the array is in the block of the point of its row. -/
theorem cover0_5 (i : S100000x17.Idx) :
    ∃ t : Fin cfg0.N, (cfg0.win 5).flush t = true ∧ i ∈ ((cfg0.win 5).blk t).view.set := by
  refine ⟨pt0 i, flush0_5 _, ?_⟩
  rw [mem_blk0_5]
  obtain ⟨e0, e1⟩ := idx0_5 (pt0 i)
  have hv : (pt0 i).val = (i 0).val / 4000 := rfl
  have h1 : (i 1).val < 17 := idx2_lt1 i
  intro a
  match a with
  | ⟨0, _⟩ => show win0_5.index (pt0 i) (0 : Fin 2) * 4000 ≤ (i 0).val ∧ (i 0).val < win0_5.index (pt0 i) (0 : Fin 2) * 4000 + 4000; rw [e0, hv]; omega
  | ⟨1, _⟩ => show win0_5.index (pt0 i) (1 : Fin 2) * 17 ≤ (i 1).val ∧ (i 1).val < win0_5.index (pt0 i) (1 : Fin 2) * 17 + 17; rw [e1]; omega

/-- THE ARRAY output window 5 leaves, from the input BLOCKS: entry `i` is the body's result on the input blocks at the
    point of row `i 0`, read at the place of `i` in its block. -/
theorem arr0_5 (c : Dev nD) (i : S100000x17.Idx) :
    (dat0 V c).arrAt 5 cfg0.N i
      = out0_5 (iblk0 V c 0 (pt0 i)) (iblk0 V c 1 (pt0 i)) (iblk0 V c 2 (pt0 i)) (iblk0 V c 3 (pt0 i)) (iblk0 V c 4 (pt0 i)) (loc i) :=
  congrFun ((dat0 V c).arrAt_eq_of_cover 5 _ (fun t _ => flushed0_5_eq V c t) cover0_5) i

/-- The body's result depends on the input blocks only. -/
theorem out0_5_congr {x0 x0' : Vec F S4000x35 .f32} {x1 x1' : Vec F S26x8 .f32} {x2 x2' : Vec F S1x8 .f32} {x3 x3' : Vec F S1x8 .f32} {x4 x4' : Vec F S1x8 .f32}
    (h0 : x0 = x0') (h1 : x1 = x1') (h2 : x2 = x2') (h3 : x3 = x3') (h4 : x4 = x4') (y : S4000x17.Idx) :
    out0_5 x0 x1 x2 x3 x4 y = out0_5 x0' x1' x2' x3' x4' y := by
  subst h0 h1 h2 h3 h4; rfl

/-- THE ARRAY output window 5 leaves, from the input ARRAYS: entry `i` is the body's result on row block `(i 0) / 4000`
    of each row-blocked input array and on the whole weight arrays, read at row `(i 0) % 4000`, column `i 1`. -/
theorem arr0_5_arrays (c : Dev nD) (i : S100000x17.Idx) :
    (dat0 V c).arrAt 5 cfg0.N i
      = out0_5 (blk (D := 35) (V c (Pipeline.arrRef spec0 0)) (pt i)) (V c (Pipeline.arrRef spec0 1)) (V c (Pipeline.arrRef spec0 2)) (V c (Pipeline.arrRef spec0 3)) (V c (Pipeline.arrRef spec0 4)) (loc i) :=
  (arr0_5 V c i).trans (out0_5_congr (iblk0_0_at_pt V c i) (iblk0_1_eq V c (pt0 i)) (iblk0_2_eq V c (pt0 i)) (iblk0_3_eq V c (pt0 i)) (iblk0_4_eq V c (pt0 i)) (loc i))

/-- What point `t` writes back to output window 6 is block `t` of ONE array: the one whose entry `i` is the body's
    result on the input blocks at the point of row `i 0`, read at the place of `i` in its block. -/
theorem flushed0_6_eq (c : Dev nD) (t : Fin cfg0.N) :
    (dat0 V c).flushed 6 t = ((cfg0.win 6).blk t).view.read (Elt F) (fun i : S100000x17.Idx =>
      out0_6 (iblk0 V c 0 (pt0 i)) (iblk0 V c 1 (pt0 i)) (iblk0 V c 2 (pt0 i)) (iblk0 V c 3 (pt0 i)) (iblk0 V c 4 (pt0 i)) (loc i)) := by
  show (cfg0.win 6).cut (grid0.coords t) ((dat0 V c).after 6 t) = _
  rw [after0_6]
  obtain ⟨e0, e1⟩ := idx0_6 t
  funext j
  have hj0 : (j 0).val < 4000 := (j 0).isLt
  have hp : pt0 (D := 17) (((cfg0.win 6).blk t).view.emb j) = t := by
    apply Fin.ext
    show (win0_6.index t (0 : Fin 2) * 4000 + 1 * (j 0).val) / 4000 = t.val
    rw [e0]; omega
  have hl : loc (D := 17) (((cfg0.win 6).blk t).view.emb j) = j := by
    funext a
    match a with
    | ⟨0, _⟩ => apply Fin.ext; show (win0_6.index t (0 : Fin 2) * 4000 + 1 * (j 0).val) % 4000 = (j 0).val; rw [e0]; omega
    | ⟨1, _⟩ => apply Fin.ext; show win0_6.index t (1 : Fin 2) * 17 + 1 * (j 1).val = (j 1).val; rw [e1]; omega
  rw [View.read_apply, hp, hl]
  exact (cast_eq _ _).symm

/-- An index of the array is in point `t`'s block iff each coordinate is in the block's range on its axis. -/
theorem mem_blk0_6 (t : Fin cfg0.N) (i : S100000x17.Idx) :
    i ∈ ((cfg0.win 6).blk t).view.set ↔ ∀ a : Fin 2, win0_6.index t a * S4000x17.size a ≤ (i a).val ∧ (i a).val < win0_6.index t a * S4000x17.size a + S4000x17.size a := by
  show i ∈ ((View.whole main_v16_1).slice (win0_6.rect t)).set ↔ _
  rw [View.set_slice_whole, Rect.mem_set_unit]
  exact Iff.rfl

/-- Every index of the array is in the block of the point of its row. -/
theorem cover0_6 (i : S100000x17.Idx) :
    ∃ t : Fin cfg0.N, (cfg0.win 6).flush t = true ∧ i ∈ ((cfg0.win 6).blk t).view.set := by
  refine ⟨pt0 i, flush0_6 _, ?_⟩
  rw [mem_blk0_6]
  obtain ⟨e0, e1⟩ := idx0_6 (pt0 i)
  have hv : (pt0 i).val = (i 0).val / 4000 := rfl
  have h1 : (i 1).val < 17 := idx2_lt1 i
  intro a
  match a with
  | ⟨0, _⟩ => show win0_6.index (pt0 i) (0 : Fin 2) * 4000 ≤ (i 0).val ∧ (i 0).val < win0_6.index (pt0 i) (0 : Fin 2) * 4000 + 4000; rw [e0, hv]; omega
  | ⟨1, _⟩ => show win0_6.index (pt0 i) (1 : Fin 2) * 17 ≤ (i 1).val ∧ (i 1).val < win0_6.index (pt0 i) (1 : Fin 2) * 17 + 17; rw [e1]; omega

/-- THE ARRAY output window 6 leaves, from the input BLOCKS: entry `i` is the body's result on the input blocks at the
    point of row `i 0`, read at the place of `i` in its block. -/
theorem arr0_6 (c : Dev nD) (i : S100000x17.Idx) :
    (dat0 V c).arrAt 6 cfg0.N i
      = out0_6 (iblk0 V c 0 (pt0 i)) (iblk0 V c 1 (pt0 i)) (iblk0 V c 2 (pt0 i)) (iblk0 V c 3 (pt0 i)) (iblk0 V c 4 (pt0 i)) (loc i) :=
  congrFun ((dat0 V c).arrAt_eq_of_cover 6 _ (fun t _ => flushed0_6_eq V c t) cover0_6) i

/-- The body's result depends on the input blocks only. -/
theorem out0_6_congr {x0 x0' : Vec F S4000x35 .f32} {x1 x1' : Vec F S26x8 .f32} {x2 x2' : Vec F S1x8 .f32} {x3 x3' : Vec F S1x8 .f32} {x4 x4' : Vec F S1x8 .f32}
    (h0 : x0 = x0') (h1 : x1 = x1') (h2 : x2 = x2') (h3 : x3 = x3') (h4 : x4 = x4') (y : S4000x17.Idx) :
    out0_6 x0 x1 x2 x3 x4 y = out0_6 x0' x1' x2' x3' x4' y := by
  subst h0 h1 h2 h3 h4; rfl

/-- THE ARRAY output window 6 leaves, from the input ARRAYS: entry `i` is the body's result on row block `(i 0) / 4000`
    of each row-blocked input array and on the whole weight arrays, read at row `(i 0) % 4000`, column `i 1`. -/
theorem arr0_6_arrays (c : Dev nD) (i : S100000x17.Idx) :
    (dat0 V c).arrAt 6 cfg0.N i
      = out0_6 (blk (D := 35) (V c (Pipeline.arrRef spec0 0)) (pt i)) (V c (Pipeline.arrRef spec0 1)) (V c (Pipeline.arrRef spec0 2)) (V c (Pipeline.arrRef spec0 3)) (V c (Pipeline.arrRef spec0 4)) (loc i) :=
  (arr0_6 V c i).trans (out0_6_congr (iblk0_0_at_pt V c i) (iblk0_1_eq V c (pt0 i)) (iblk0_2_eq V c (pt0 i)) (iblk0_3_eq V c (pt0 i)) (iblk0_4_eq V c (pt0 i)) (loc i))

/-! ## Region 1 -/

/-- Region 1's grid has 25 points. -/
theorem N1 : cfg1.N = 25 := N_1

/-- The point of region 1's grid holding row `i 0`. -/
def pt1 {D : Nat} (i : (⟨2, ![100000, D]⟩ : Shape).Idx) : Fin cfg1.N := Fin.cast N1.symm (pt i)

theorem cast_pt1 {D : Nat} (i : (⟨2, ![100000, D]⟩ : Shape).Idx) : Fin.cast N1 (pt1 i) = pt i := rfl

theorem pt1_val {D : Nat} (i : (⟨2, ![100000, D]⟩ : Shape).Idx) : (pt1 i).val = (i 0).val / 4000 := rfl

/-- Window 0 of region 1 moves with the grid: at point `t` it is block `t` of the rows, the one block of columns. -/
theorem idx1_0 : ∀ t : Fin cfg1.N, win1_0.index t (0 : Fin 2) = t.val ∧ win1_0.index t (1 : Fin 2) = 0 :=
  (by decide +kernel : ∀ t : Fin grid1.N, _)
/-- Window 1 of region 1 moves with the grid: at point `t` it is block `t` of the rows, the one block of columns. -/
theorem idx1_1 : ∀ t : Fin cfg1.N, win1_1.index t (0 : Fin 2) = t.val ∧ win1_1.index t (1 : Fin 2) = 0 :=
  (by decide +kernel : ∀ t : Fin grid1.N, _)
/-- Window 2 of region 1 moves with the grid: at point `t` it is block `t` of the rows, the one block of columns. -/
theorem idx1_2 : ∀ t : Fin cfg1.N, win1_2.index t (0 : Fin 2) = t.val ∧ win1_2.index t (1 : Fin 2) = 0 :=
  (by decide +kernel : ∀ t : Fin grid1.N, _)
/-- Window 3 of region 1 stays: at every point it is the one block, the whole array. -/
theorem idx1_3 : ∀ t : Fin cfg1.N, win1_3.index t (0 : Fin 2) = 0 ∧ win1_3.index t (1 : Fin 2) = 0 :=
  (by decide +kernel : ∀ t : Fin grid1.N, _)
/-- Window 4 of region 1 stays: at every point it is the one block, the whole array. -/
theorem idx1_4 : ∀ t : Fin cfg1.N, win1_4.index t (0 : Fin 2) = 0 ∧ win1_4.index t (1 : Fin 2) = 0 :=
  (by decide +kernel : ∀ t : Fin grid1.N, _)
/-- Window 5 of region 1 stays: at every point it is the one block, the whole array. -/
theorem idx1_5 : ∀ t : Fin cfg1.N, win1_5.index t (0 : Fin 2) = 0 ∧ win1_5.index t (1 : Fin 2) = 0 :=
  (by decide +kernel : ∀ t : Fin grid1.N, _)
/-- Window 6 of region 1 moves with the grid: at point `t` it is block `t` of the rows, the one block of columns. -/
theorem idx1_6 : ∀ t : Fin cfg1.N, win1_6.index t (0 : Fin 2) = t.val ∧ win1_6.index t (1 : Fin 2) = 0 :=
  (by decide +kernel : ∀ t : Fin grid1.N, _)
/-- Window 7 of region 1 moves with the grid: at point `t` it is block `t` of the rows, the one block of columns. -/
theorem idx1_7 : ∀ t : Fin cfg1.N, win1_7.index t (0 : Fin 2) = t.val ∧ win1_7.index t (1 : Fin 2) = 0 :=
  (by decide +kernel : ∀ t : Fin grid1.N, _)

/-! ### The input blocks, read off the arrays -/

/-- Place `y` of input window 0's block at point `t` is the array at row `4000 t + y 0`, column `y 1`. -/
theorem iblk1_0_apply (c : Dev nD) (t : Fin cfg1.N) (y : S4000x17.Idx) :
    iblk1 V c 0 t y = V c (Pipeline.arrRef spec1 0) (glob (Fin.cast N1 t) y) := by
  obtain ⟨e0, e1⟩ := idx1_0 t
  unfold iblk1
  rw [View.read_apply]
  refine (cast_eq _ _).trans (congrArg (V c (Pipeline.arrRef spec1 0)) ?_)
  funext a
  match a with
  | ⟨0, _⟩ => apply Fin.ext; show win1_0.index t (0 : Fin 2) * 4000 + 1 * (y 0).val = 4000 * t.val + (y 0).val; rw [e0]; omega
  | ⟨1, _⟩ => apply Fin.ext; show win1_0.index t (1 : Fin 2) * 17 + 1 * (y 1).val = (y 1).val; rw [e1]; omega

/-- Input window 0's block at point `t` is row block `t` of its array. -/
theorem iblk1_0_blk (c : Dev nD) (t : Fin cfg1.N) :
    (iblk1 V c 0 t : S4000x17.Idx → Elt F .f32) = blk (D := 17) (V c (Pipeline.arrRef spec1 0)) (Fin.cast N1 t) :=
  funext fun y => iblk1_0_apply V c t y

/-- Place `y` of input window 1's block at point `t` is the array at row `4000 t + y 0`, column `y 1`. -/
theorem iblk1_1_apply (c : Dev nD) (t : Fin cfg1.N) (y : S4000x1.Idx) :
    iblk1 V c 1 t y = V c (Pipeline.arrRef spec1 1) (glob (Fin.cast N1 t) y) := by
  obtain ⟨e0, e1⟩ := idx1_1 t
  unfold iblk1
  rw [View.read_apply]
  refine (cast_eq _ _).trans (congrArg (V c (Pipeline.arrRef spec1 1)) ?_)
  funext a
  match a with
  | ⟨0, _⟩ => apply Fin.ext; show win1_1.index t (0 : Fin 2) * 4000 + 1 * (y 0).val = 4000 * t.val + (y 0).val; rw [e0]; omega
  | ⟨1, _⟩ => apply Fin.ext; show win1_1.index t (1 : Fin 2) * 1 + 1 * (y 1).val = (y 1).val; rw [e1]; omega

/-- Input window 1's block at point `t` is row block `t` of its array. -/
theorem iblk1_1_blk (c : Dev nD) (t : Fin cfg1.N) :
    (iblk1 V c 1 t : S4000x1.Idx → Elt F .f32) = blk (D := 1) (V c (Pipeline.arrRef spec1 1)) (Fin.cast N1 t) :=
  funext fun y => iblk1_1_apply V c t y

/-- Place `y` of input window 2's block at point `t` is the array at row `4000 t + y 0`, column `y 1`. -/
theorem iblk1_2_apply (c : Dev nD) (t : Fin cfg1.N) (y : S4000x17.Idx) :
    iblk1 V c 2 t y = V c (Pipeline.arrRef spec1 2) (glob (Fin.cast N1 t) y) := by
  obtain ⟨e0, e1⟩ := idx1_2 t
  unfold iblk1
  rw [View.read_apply]
  refine (cast_eq _ _).trans (congrArg (V c (Pipeline.arrRef spec1 2)) ?_)
  funext a
  match a with
  | ⟨0, _⟩ => apply Fin.ext; show win1_2.index t (0 : Fin 2) * 4000 + 1 * (y 0).val = 4000 * t.val + (y 0).val; rw [e0]; omega
  | ⟨1, _⟩ => apply Fin.ext; show win1_2.index t (1 : Fin 2) * 17 + 1 * (y 1).val = (y 1).val; rw [e1]; omega

/-- Input window 2's block at point `t` is row block `t` of its array. -/
theorem iblk1_2_blk (c : Dev nD) (t : Fin cfg1.N) :
    (iblk1 V c 2 t : S4000x17.Idx → Elt F .f32) = blk (D := 17) (V c (Pipeline.arrRef spec1 2)) (Fin.cast N1 t) :=
  funext fun y => iblk1_2_apply V c t y

/-- Input window 3's block is the whole array, at every point. -/
theorem iblk1_3_eq (c : Dev nD) (t : Fin cfg1.N) :
    (iblk1 V c 3 t : S17x64.Idx → Elt F .f32) = V c (Pipeline.arrRef spec1 3) := by
  obtain ⟨e0, e1⟩ := idx1_3 t
  funext y
  unfold iblk1
  rw [View.read_apply]
  refine (cast_eq _ _).trans (congrArg (V c (Pipeline.arrRef spec1 3)) ?_)
  funext a
  match a with
  | ⟨0, _⟩ => apply Fin.ext; show win1_3.index t (0 : Fin 2) * 17 + 1 * (y 0).val = (y 0).val; rw [e0]; omega
  | ⟨1, _⟩ => apply Fin.ext; show win1_3.index t (1 : Fin 2) * 64 + 1 * (y 1).val = (y 1).val; rw [e1]; omega

/-- Input window 4's block is the whole array, at every point. -/
theorem iblk1_4_eq (c : Dev nD) (t : Fin cfg1.N) :
    (iblk1 V c 4 t : S1x64.Idx → Elt F .f32) = V c (Pipeline.arrRef spec1 4) := by
  obtain ⟨e0, e1⟩ := idx1_4 t
  funext y
  unfold iblk1
  rw [View.read_apply]
  refine (cast_eq _ _).trans (congrArg (V c (Pipeline.arrRef spec1 4)) ?_)
  funext a
  match a with
  | ⟨0, _⟩ => apply Fin.ext; show win1_4.index t (0 : Fin 2) * 1 + 1 * (y 0).val = (y 0).val; rw [e0]; omega
  | ⟨1, _⟩ => apply Fin.ext; show win1_4.index t (1 : Fin 2) * 64 + 1 * (y 1).val = (y 1).val; rw [e1]; omega

/-- Input window 5's block is the whole array, at every point. -/
theorem iblk1_5_eq (c : Dev nD) (t : Fin cfg1.N) :
    (iblk1 V c 5 t : S17x64.Idx → Elt F .f32) = V c (Pipeline.arrRef spec1 5) := by
  obtain ⟨e0, e1⟩ := idx1_5 t
  funext y
  unfold iblk1
  rw [View.read_apply]
  refine (cast_eq _ _).trans (congrArg (V c (Pipeline.arrRef spec1 5)) ?_)
  funext a
  match a with
  | ⟨0, _⟩ => apply Fin.ext; show win1_5.index t (0 : Fin 2) * 17 + 1 * (y 0).val = (y 0).val; rw [e0]; omega
  | ⟨1, _⟩ => apply Fin.ext; show win1_5.index t (1 : Fin 2) * 64 + 1 * (y 1).val = (y 1).val; rw [e1]; omega

/-- Input window 0's block at the point of row `i 0` (of an index of any width) is that row's block of its array. -/
theorem iblk1_0_at_pt {D : Nat} (c : Dev nD) (i : (⟨2, ![100000, D]⟩ : Shape).Idx) :
    (iblk1 V c 0 (pt1 i) : S4000x17.Idx → Elt F .f32) = blk (D := 17) (V c (Pipeline.arrRef spec1 0)) (pt i) :=
  iblk1_0_blk V c (pt1 i)

/-- Input window 1's block at the point of row `i 0` (of an index of any width) is that row's block of its array. -/
theorem iblk1_1_at_pt {D : Nat} (c : Dev nD) (i : (⟨2, ![100000, D]⟩ : Shape).Idx) :
    (iblk1 V c 1 (pt1 i) : S4000x1.Idx → Elt F .f32) = blk (D := 1) (V c (Pipeline.arrRef spec1 1)) (pt i) :=
  iblk1_1_blk V c (pt1 i)

/-- Input window 2's block at the point of row `i 0` (of an index of any width) is that row's block of its array. -/
theorem iblk1_2_at_pt {D : Nat} (c : Dev nD) (i : (⟨2, ![100000, D]⟩ : Shape).Idx) :
    (iblk1 V c 2 (pt1 i) : S4000x17.Idx → Elt F .f32) = blk (D := 17) (V c (Pipeline.arrRef spec1 2)) (pt i) :=
  iblk1_2_blk V c (pt1 i)

/-! ### The output arrays -/

/-- What point `t` writes back to output window 6 is block `t` of ONE array: the one whose entry `i` is the body's
    result on the input blocks at the point of row `i 0`, read at the place of `i` in its block. -/
theorem flushed1_6_eq (c : Dev nD) (t : Fin cfg1.N) :
    (dat1 V c).flushed 6 t = ((cfg1.win 6).blk t).view.read (Elt F) (fun i : S100000x64.Idx =>
      out1_6 (iblk1 V c 0 (pt1 i)) (iblk1 V c 1 (pt1 i)) (iblk1 V c 2 (pt1 i)) (iblk1 V c 3 (pt1 i)) (iblk1 V c 4 (pt1 i)) (iblk1 V c 5 (pt1 i)) (loc i)) := by
  show (cfg1.win 6).cut (grid1.coords t) ((dat1 V c).after 6 t) = _
  rw [after1_6]
  obtain ⟨e0, e1⟩ := idx1_6 t
  funext j
  have hj0 : (j 0).val < 4000 := (j 0).isLt
  have hp : pt1 (D := 64) (((cfg1.win 6).blk t).view.emb j) = t := by
    apply Fin.ext
    show (win1_6.index t (0 : Fin 2) * 4000 + 1 * (j 0).val) / 4000 = t.val
    rw [e0]; omega
  have hl : loc (D := 64) (((cfg1.win 6).blk t).view.emb j) = j := by
    funext a
    match a with
    | ⟨0, _⟩ => apply Fin.ext; show (win1_6.index t (0 : Fin 2) * 4000 + 1 * (j 0).val) % 4000 = (j 0).val; rw [e0]; omega
    | ⟨1, _⟩ => apply Fin.ext; show win1_6.index t (1 : Fin 2) * 64 + 1 * (j 1).val = (j 1).val; rw [e1]; omega
  rw [View.read_apply, hp, hl]
  exact (cast_eq _ _).symm

/-- An index of the array is in point `t`'s block iff each coordinate is in the block's range on its axis. -/
theorem mem_blk1_6 (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v29_0).slice (win1_6.rect t)).set ↔ _
  rw [View.set_slice_whole, Rect.mem_set_unit]
  exact Iff.rfl

/-- Every index of the array is in the block of the point of its row. -/
theorem cover1_6 (i : S100000x64.Idx) :
    ∃ t : Fin cfg1.N, (cfg1.win 6).flush t = true ∧ i ∈ ((cfg1.win 6).blk t).view.set := by
  refine ⟨pt1 i, flush1_6 _, ?_⟩
  rw [mem_blk1_6]
  obtain ⟨e0, e1⟩ := idx1_6 (pt1 i)
  have hv : (pt1 i).val = (i 0).val / 4000 := rfl
  have h1 : (i 1).val < 64 := idx2_lt1 i
  intro a
  match a with
  | ⟨0, _⟩ => show win1_6.index (pt1 i) (0 : Fin 2) * 4000 ≤ (i 0).val ∧ (i 0).val < win1_6.index (pt1 i) (0 : Fin 2) * 4000 + 4000; rw [e0, hv]; omega
  | ⟨1, _⟩ => show win1_6.index (pt1 i) (1 : Fin 2) * 64 ≤ (i 1).val ∧ (i 1).val < win1_6.index (pt1 i) (1 : Fin 2) * 64 + 64; rw [e1]; omega

/-- THE ARRAY output window 6 leaves, from the input BLOCKS: entry `i` is the body's result on the input blocks at the
    point of row `i 0`, read at the place of `i` in its block. -/
theorem arr1_6 (c : Dev nD) (i : S100000x64.Idx) :
    (dat1 V c).arrAt 6 cfg1.N i
      = out1_6 (iblk1 V c 0 (pt1 i)) (iblk1 V c 1 (pt1 i)) (iblk1 V c 2 (pt1 i)) (iblk1 V c 3 (pt1 i)) (iblk1 V c 4 (pt1 i)) (iblk1 V c 5 (pt1 i)) (loc i) :=
  congrFun ((dat1 V c).arrAt_eq_of_cover 6 _ (fun t _ => flushed1_6_eq V c t) cover1_6) i

/-- The body's result depends on the input blocks only. -/
theorem out1_6_congr {x0 x0' : Vec F S4000x17 .f32} {x1 x1' : Vec F S4000x1 .f32} {x2 x2' : Vec F S4000x17 .f32} {x3 x3' : Vec F S17x64 .f32} {x4 x4' : Vec F S1x64 .f32} {x5 x5' : Vec F S17x64 .f32}
    (h0 : x0 = x0') (h1 : x1 = x1') (h2 : x2 = x2') (h3 : x3 = x3') (h4 : x4 = x4') (h5 : x5 = x5') (y : S4000x64.Idx) :
    out1_6 x0 x1 x2 x3 x4 x5 y = out1_6 x0' x1' x2' x3' x4' x5' y := by
  subst h0 h1 h2 h3 h4 h5; rfl

/-- THE ARRAY output window 6 leaves, from the input ARRAYS: entry `i` is the body's result on row block `(i 0) / 4000`
    of each row-blocked input array and on the whole weight arrays, read at row `(i 0) % 4000`, column `i 1`. -/
theorem arr1_6_arrays (c : Dev nD) (i : S100000x64.Idx) :
    (dat1 V c).arrAt 6 cfg1.N i
      = out1_6 (blk (D := 17) (V c (Pipeline.arrRef spec1 0)) (pt i)) (blk (D := 1) (V c (Pipeline.arrRef spec1 1)) (pt i)) (blk (D := 17) (V c (Pipeline.arrRef spec1 2)) (pt i)) (V c (Pipeline.arrRef spec1 3)) (V c (Pipeline.arrRef spec1 4)) (V c (Pipeline.arrRef spec1 5)) (loc i) :=
  (arr1_6 V c i).trans (out1_6_congr (iblk1_0_at_pt V c i) (iblk1_1_at_pt V c i) (iblk1_2_at_pt V c i) (iblk1_3_eq V c (pt1 i)) (iblk1_4_eq V c (pt1 i)) (iblk1_5_eq V c (pt1 i)) (loc i))

/-- What point `t` writes back to output window 7 is block `t` of ONE array: the one whose entry `i` is the body's
    result on the input blocks at the point of row `i 0`, read at the place of `i` in its block. -/
theorem flushed1_7_eq (c : Dev nD) (t : Fin cfg1.N) :
    (dat1 V c).flushed 7 t = ((cfg1.win 7).blk t).view.read (Elt F) (fun i : S100000x64.Idx =>
      out1_7 (iblk1 V c 0 (pt1 i)) (iblk1 V c 1 (pt1 i)) (iblk1 V c 2 (pt1 i)) (iblk1 V c 3 (pt1 i)) (iblk1 V c 4 (pt1 i)) (iblk1 V c 5 (pt1 i)) (loc i)) := by
  show (cfg1.win 7).cut (grid1.coords t) ((dat1 V c).after 7 t) = _
  rw [after1_7]
  obtain ⟨e0, e1⟩ := idx1_7 t
  funext j
  have hj0 : (j 0).val < 4000 := (j 0).isLt
  have hp : pt1 (D := 64) (((cfg1.win 7).blk t).view.emb j) = t := by
    apply Fin.ext
    show (win1_7.index t (0 : Fin 2) * 4000 + 1 * (j 0).val) / 4000 = t.val
    rw [e0]; omega
  have hl : loc (D := 64) (((cfg1.win 7).blk t).view.emb j) = j := by
    funext a
    match a with
    | ⟨0, _⟩ => apply Fin.ext; show (win1_7.index t (0 : Fin 2) * 4000 + 1 * (j 0).val) % 4000 = (j 0).val; rw [e0]; omega
    | ⟨1, _⟩ => apply Fin.ext; show win1_7.index t (1 : Fin 2) * 64 + 1 * (j 1).val = (j 1).val; rw [e1]; omega
  rw [View.read_apply, hp, hl]
  exact (cast_eq _ _).symm

/-- An index of the array is in point `t`'s block iff each coordinate is in the block's range on its axis. -/
theorem mem_blk1_7 (t : Fin cfg1.N) (i : S100000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v29_1).slice (win1_7.rect t)).set ↔ _
  rw [View.set_slice_whole, Rect.mem_set_unit]
  exact Iff.rfl

/-- Every index of the array is in the block of the point of its row. -/
theorem cover1_7 (i : S100000x64.Idx) :
    ∃ t : Fin cfg1.N, (cfg1.win 7).flush t = true ∧ i ∈ ((cfg1.win 7).blk t).view.set := by
  refine ⟨pt1 i, flush1_7 _, ?_⟩
  rw [mem_blk1_7]
  obtain ⟨e0, e1⟩ := idx1_7 (pt1 i)
  have hv : (pt1 i).val = (i 0).val / 4000 := rfl
  have h1 : (i 1).val < 64 := idx2_lt1 i
  intro a
  match a with
  | ⟨0, _⟩ => show win1_7.index (pt1 i) (0 : Fin 2) * 4000 ≤ (i 0).val ∧ (i 0).val < win1_7.index (pt1 i) (0 : Fin 2) * 4000 + 4000; rw [e0, hv]; omega
  | ⟨1, _⟩ => show win1_7.index (pt1 i) (1 : Fin 2) * 64 ≤ (i 1).val ∧ (i 1).val < win1_7.index (pt1 i) (1 : Fin 2) * 64 + 64; rw [e1]; omega

/-- THE ARRAY output window 7 leaves, from the input BLOCKS: entry `i` is the body's result on the input blocks at the
    point of row `i 0`, read at the place of `i` in its block. -/
theorem arr1_7 (c : Dev nD) (i : S100000x64.Idx) :
    (dat1 V c).arrAt 7 cfg1.N i
      = out1_7 (iblk1 V c 0 (pt1 i)) (iblk1 V c 1 (pt1 i)) (iblk1 V c 2 (pt1 i)) (iblk1 V c 3 (pt1 i)) (iblk1 V c 4 (pt1 i)) (iblk1 V c 5 (pt1 i)) (loc i) :=
  congrFun ((dat1 V c).arrAt_eq_of_cover 7 _ (fun t _ => flushed1_7_eq V c t) cover1_7) i

/-- The body's result depends on the input blocks only. -/
theorem out1_7_congr {x0 x0' : Vec F S4000x17 .f32} {x1 x1' : Vec F S4000x1 .f32} {x2 x2' : Vec F S4000x17 .f32} {x3 x3' : Vec F S17x64 .f32} {x4 x4' : Vec F S1x64 .f32} {x5 x5' : Vec F S17x64 .f32}
    (h0 : x0 = x0') (h1 : x1 = x1') (h2 : x2 = x2') (h3 : x3 = x3') (h4 : x4 = x4') (h5 : x5 = x5') (y : S4000x64.Idx) :
    out1_7 x0 x1 x2 x3 x4 x5 y = out1_7 x0' x1' x2' x3' x4' x5' y := by
  subst h0 h1 h2 h3 h4 h5; rfl

/-- THE ARRAY output window 7 leaves, from the input ARRAYS: entry `i` is the body's result on row block `(i 0) / 4000`
    of each row-blocked input array and on the whole weight arrays, read at row `(i 0) % 4000`, column `i 1`. -/
theorem arr1_7_arrays (c : Dev nD) (i : S100000x64.Idx) :
    (dat1 V c).arrAt 7 cfg1.N i
      = out1_7 (blk (D := 17) (V c (Pipeline.arrRef spec1 0)) (pt i)) (blk (D := 1) (V c (Pipeline.arrRef spec1 1)) (pt i)) (blk (D := 17) (V c (Pipeline.arrRef spec1 2)) (pt i)) (V c (Pipeline.arrRef spec1 3)) (V c (Pipeline.arrRef spec1 4)) (V c (Pipeline.arrRef spec1 5)) (loc i) :=
  (arr1_7 V c i).trans (out1_7_congr (iblk1_0_at_pt V c i) (iblk1_1_at_pt V c i) (iblk1_2_at_pt V c i) (iblk1_3_eq V c (pt1 i)) (iblk1_4_eq V c (pt1 i)) (iblk1_5_eq V c (pt1 i)) (loc i))

/-! ## Region 2 -/

/-- Region 2's grid has 25 points. -/
theorem N2 : cfg2.N = 25 := N_2

/-- The point of region 2's grid holding row `i 0`. -/
def pt2 {D : Nat} (i : (⟨2, ![100000, D]⟩ : Shape).Idx) : Fin cfg2.N := Fin.cast N2.symm (pt i)

theorem cast_pt2 {D : Nat} (i : (⟨2, ![100000, D]⟩ : Shape).Idx) : Fin.cast N2 (pt2 i) = pt i := rfl

theorem pt2_val {D : Nat} (i : (⟨2, ![100000, D]⟩ : Shape).Idx) : (pt2 i).val = (i 0).val / 4000 := rfl

/-- Window 0 of region 2 moves with the grid: at point `t` it is block `t` of the rows, the one block of columns. -/
theorem idx2_0 : ∀ t : Fin cfg2.N, win2_0.index t (0 : Fin 2) = t.val ∧ win2_0.index t (1 : Fin 2) = 0 :=
  (by decide +kernel : ∀ t : Fin grid2.N, _)
/-- Window 1 of region 2 moves with the grid: at point `t` it is block `t` of the rows, the one block of columns. -/
theorem idx2_1 : ∀ t : Fin cfg2.N, win2_1.index t (0 : Fin 2) = t.val ∧ win2_1.index t (1 : Fin 2) = 0 :=
  (by decide +kernel : ∀ t : Fin grid2.N, _)
/-- Window 2 of region 2 moves with the grid: at point `t` it is block `t` of the rows, the one block of columns. -/
theorem idx2_2 : ∀ t : Fin cfg2.N, win2_2.index t (0 : Fin 2) = t.val ∧ win2_2.index t (1 : Fin 2) = 0 :=
  (by decide +kernel : ∀ t : Fin grid2.N, _)
/-- Window 3 of region 2 stays: at every point it is the one block, the whole array. -/
theorem idx2_3 : ∀ t : Fin cfg2.N, win2_3.index t (0 : Fin 2) = 0 ∧ win2_3.index t (1 : Fin 2) = 0 :=
  (by decide +kernel : ∀ t : Fin grid2.N, _)
/-- Window 4 of region 2 stays: at every point it is the one block, the whole array. -/
theorem idx2_4 : ∀ t : Fin cfg2.N, win2_4.index t (0 : Fin 2) = 0 ∧ win2_4.index t (1 : Fin 2) = 0 :=
  (by decide +kernel : ∀ t : Fin grid2.N, _)
/-- Window 5 of region 2 stays: at every point it is the one block, the whole array. -/
theorem idx2_5 : ∀ t : Fin cfg2.N, win2_5.index t (0 : Fin 2) = 0 ∧ win2_5.index t (1 : Fin 2) = 0 :=
  (by decide +kernel : ∀ t : Fin grid2.N, _)
/-- Window 6 of region 2 moves with the grid: at point `t` it is block `t` of the rows, the one block of columns. -/
theorem idx2_6 : ∀ t : Fin cfg2.N, win2_6.index t (0 : Fin 2) = t.val ∧ win2_6.index t (1 : Fin 2) = 0 :=
  (by decide +kernel : ∀ t : Fin grid2.N, _)
/-- Window 7 of region 2 moves with the grid: at point `t` it is block `t` of the rows, the one block of columns. -/
theorem idx2_7 : ∀ t : Fin cfg2.N, win2_7.index t (0 : Fin 2) = t.val ∧ win2_7.index t (1 : Fin 2) = 0 :=
  (by decide +kernel : ∀ t : Fin grid2.N, _)

/-! ### The input blocks, read off the arrays -/

/-- Place `y` of input window 0's block at point `t` is the array at row `4000 t + y 0`, column `y 1`. -/
theorem iblk2_0_apply (c : Dev nD) (t : Fin cfg2.N) (y : S4000x64.Idx) :
    iblk2 V c 0 t y = V c (Pipeline.arrRef spec2 0) (glob (Fin.cast N2 t) y) := by
  obtain ⟨e0, e1⟩ := idx2_0 t
  unfold iblk2
  rw [View.read_apply]
  refine (cast_eq _ _).trans (congrArg (V c (Pipeline.arrRef spec2 0)) ?_)
  funext a
  match a with
  | ⟨0, _⟩ => apply Fin.ext; show win2_0.index t (0 : Fin 2) * 4000 + 1 * (y 0).val = 4000 * t.val + (y 0).val; rw [e0]; omega
  | ⟨1, _⟩ => apply Fin.ext; show win2_0.index t (1 : Fin 2) * 64 + 1 * (y 1).val = (y 1).val; rw [e1]; omega

/-- Input window 0's block at point `t` is row block `t` of its array. -/
theorem iblk2_0_blk (c : Dev nD) (t : Fin cfg2.N) :
    (iblk2 V c 0 t : S4000x64.Idx → Elt F .f32) = blk (D := 64) (V c (Pipeline.arrRef spec2 0)) (Fin.cast N2 t) :=
  funext fun y => iblk2_0_apply V c t y

/-- Place `y` of input window 1's block at point `t` is the array at row `4000 t + y 0`, column `y 1`. -/
theorem iblk2_1_apply (c : Dev nD) (t : Fin cfg2.N) (y : S4000x1.Idx) :
    iblk2 V c 1 t y = V c (Pipeline.arrRef spec2 1) (glob (Fin.cast N2 t) y) := by
  obtain ⟨e0, e1⟩ := idx2_1 t
  unfold iblk2
  rw [View.read_apply]
  refine (cast_eq _ _).trans (congrArg (V c (Pipeline.arrRef spec2 1)) ?_)
  funext a
  match a with
  | ⟨0, _⟩ => apply Fin.ext; show win2_1.index t (0 : Fin 2) * 4000 + 1 * (y 0).val = 4000 * t.val + (y 0).val; rw [e0]; omega
  | ⟨1, _⟩ => apply Fin.ext; show win2_1.index t (1 : Fin 2) * 1 + 1 * (y 1).val = (y 1).val; rw [e1]; omega

/-- Input window 1's block at point `t` is row block `t` of its array. -/
theorem iblk2_1_blk (c : Dev nD) (t : Fin cfg2.N) :
    (iblk2 V c 1 t : S4000x1.Idx → Elt F .f32) = blk (D := 1) (V c (Pipeline.arrRef spec2 1)) (Fin.cast N2 t) :=
  funext fun y => iblk2_1_apply V c t y

/-- Place `y` of input window 2's block at point `t` is the array at row `4000 t + y 0`, column `y 1`. -/
theorem iblk2_2_apply (c : Dev nD) (t : Fin cfg2.N) (y : S4000x64.Idx) :
    iblk2 V c 2 t y = V c (Pipeline.arrRef spec2 2) (glob (Fin.cast N2 t) y) := by
  obtain ⟨e0, e1⟩ := idx2_2 t
  unfold iblk2
  rw [View.read_apply]
  refine (cast_eq _ _).trans (congrArg (V c (Pipeline.arrRef spec2 2)) ?_)
  funext a
  match a with
  | ⟨0, _⟩ => apply Fin.ext; show win2_2.index t (0 : Fin 2) * 4000 + 1 * (y 0).val = 4000 * t.val + (y 0).val; rw [e0]; omega
  | ⟨1, _⟩ => apply Fin.ext; show win2_2.index t (1 : Fin 2) * 64 + 1 * (y 1).val = (y 1).val; rw [e1]; omega

/-- Input window 2's block at point `t` is row block `t` of its array. -/
theorem iblk2_2_blk (c : Dev nD) (t : Fin cfg2.N) :
    (iblk2 V c 2 t : S4000x64.Idx → Elt F .f32) = blk (D := 64) (V c (Pipeline.arrRef spec2 2)) (Fin.cast N2 t) :=
  funext fun y => iblk2_2_apply V c t y

/-- Input window 3's block is the whole array, at every point. -/
theorem iblk2_3_eq (c : Dev nD) (t : Fin cfg2.N) :
    (iblk2 V c 3 t : S64x64.Idx → Elt F .f32) = V c (Pipeline.arrRef spec2 3) := by
  obtain ⟨e0, e1⟩ := idx2_3 t
  funext y
  unfold iblk2
  rw [View.read_apply]
  refine (cast_eq _ _).trans (congrArg (V c (Pipeline.arrRef spec2 3)) ?_)
  funext a
  match a with
  | ⟨0, _⟩ => apply Fin.ext; show win2_3.index t (0 : Fin 2) * 64 + 1 * (y 0).val = (y 0).val; rw [e0]; omega
  | ⟨1, _⟩ => apply Fin.ext; show win2_3.index t (1 : Fin 2) * 64 + 1 * (y 1).val = (y 1).val; rw [e1]; omega

/-- Input window 4's block is the whole array, at every point. -/
theorem iblk2_4_eq (c : Dev nD) (t : Fin cfg2.N) :
    (iblk2 V c 4 t : S1x64.Idx → Elt F .f32) = V c (Pipeline.arrRef spec2 4) := by
  obtain ⟨e0, e1⟩ := idx2_4 t
  funext y
  unfold iblk2
  rw [View.read_apply]
  refine (cast_eq _ _).trans (congrArg (V c (Pipeline.arrRef spec2 4)) ?_)
  funext a
  match a with
  | ⟨0, _⟩ => apply Fin.ext; show win2_4.index t (0 : Fin 2) * 1 + 1 * (y 0).val = (y 0).val; rw [e0]; omega
  | ⟨1, _⟩ => apply Fin.ext; show win2_4.index t (1 : Fin 2) * 64 + 1 * (y 1).val = (y 1).val; rw [e1]; omega

/-- Input window 5's block is the whole array, at every point. -/
theorem iblk2_5_eq (c : Dev nD) (t : Fin cfg2.N) :
    (iblk2 V c 5 t : S64x64.Idx → Elt F .f32) = V c (Pipeline.arrRef spec2 5) := by
  obtain ⟨e0, e1⟩ := idx2_5 t
  funext y
  unfold iblk2
  rw [View.read_apply]
  refine (cast_eq _ _).trans (congrArg (V c (Pipeline.arrRef spec2 5)) ?_)
  funext a
  match a with
  | ⟨0, _⟩ => apply Fin.ext; show win2_5.index t (0 : Fin 2) * 64 + 1 * (y 0).val = (y 0).val; rw [e0]; omega
  | ⟨1, _⟩ => apply Fin.ext; show win2_5.index t (1 : Fin 2) * 64 + 1 * (y 1).val = (y 1).val; rw [e1]; omega

/-- Input window 0's block at the point of row `i 0` (of an index of any width) is that row's block of its array. -/
theorem iblk2_0_at_pt {D : Nat} (c : Dev nD) (i : (⟨2, ![100000, D]⟩ : Shape).Idx) :
    (iblk2 V c 0 (pt2 i) : S4000x64.Idx → Elt F .f32) = blk (D := 64) (V c (Pipeline.arrRef spec2 0)) (pt i) :=
  iblk2_0_blk V c (pt2 i)

/-- Input window 1's block at the point of row `i 0` (of an index of any width) is that row's block of its array. -/
theorem iblk2_1_at_pt {D : Nat} (c : Dev nD) (i : (⟨2, ![100000, D]⟩ : Shape).Idx) :
    (iblk2 V c 1 (pt2 i) : S4000x1.Idx → Elt F .f32) = blk (D := 1) (V c (Pipeline.arrRef spec2 1)) (pt i) :=
  iblk2_1_blk V c (pt2 i)

/-- Input window 2's block at the point of row `i 0` (of an index of any width) is that row's block of its array. -/
theorem iblk2_2_at_pt {D : Nat} (c : Dev nD) (i : (⟨2, ![100000, D]⟩ : Shape).Idx) :
    (iblk2 V c 2 (pt2 i) : S4000x64.Idx → Elt F .f32) = blk (D := 64) (V c (Pipeline.arrRef spec2 2)) (pt i) :=
  iblk2_2_blk V c (pt2 i)

/-! ### The output arrays -/

/-- What point `t` writes back to output window 6 is block `t` of ONE array: the one whose entry `i` is the body's
    result on the input blocks at the point of row `i 0`, read at the place of `i` in its block. -/
theorem flushed2_6_eq (c : Dev nD) (t : Fin cfg2.N) :
    (dat2 V c).flushed 6 t = ((cfg2.win 6).blk t).view.read (Elt F) (fun i : S100000x64.Idx =>
      out2_6 (iblk2 V c 0 (pt2 i)) (iblk2 V c 1 (pt2 i)) (iblk2 V c 2 (pt2 i)) (iblk2 V c 3 (pt2 i)) (iblk2 V c 4 (pt2 i)) (iblk2 V c 5 (pt2 i)) (loc i)) := by
  show (cfg2.win 6).cut (grid2.coords t) ((dat2 V c).after 6 t) = _
  rw [after2_6]
  obtain ⟨e0, e1⟩ := idx2_6 t
  funext j
  have hj0 : (j 0).val < 4000 := (j 0).isLt
  have hp : pt2 (D := 64) (((cfg2.win 6).blk t).view.emb j) = t := by
    apply Fin.ext
    show (win2_6.index t (0 : Fin 2) * 4000 + 1 * (j 0).val) / 4000 = t.val
    rw [e0]; omega
  have hl : loc (D := 64) (((cfg2.win 6).blk t).view.emb j) = j := by
    funext a
    match a with
    | ⟨0, _⟩ => apply Fin.ext; show (win2_6.index t (0 : Fin 2) * 4000 + 1 * (j 0).val) % 4000 = (j 0).val; rw [e0]; omega
    | ⟨1, _⟩ => apply Fin.ext; show win2_6.index t (1 : Fin 2) * 64 + 1 * (j 1).val = (j 1).val; rw [e1]; omega
  rw [View.read_apply, hp, hl]
  exact (cast_eq _ _).symm

/-- An index of the array is in point `t`'s block iff each coordinate is in the block's range on its axis. -/
theorem mem_blk2_6 (t : Fin cfg2.N) (i : S100000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v42_0).slice (win2_6.rect t)).set ↔ _
  rw [View.set_slice_whole, Rect.mem_set_unit]
  exact Iff.rfl

/-- Every index of the array is in the block of the point of its row. -/
theorem cover2_6 (i : S100000x64.Idx) :
    ∃ t : Fin cfg2.N, (cfg2.win 6).flush t = true ∧ i ∈ ((cfg2.win 6).blk t).view.set := by
  refine ⟨pt2 i, flush2_6 _, ?_⟩
  rw [mem_blk2_6]
  obtain ⟨e0, e1⟩ := idx2_6 (pt2 i)
  have hv : (pt2 i).val = (i 0).val / 4000 := rfl
  have h1 : (i 1).val < 64 := idx2_lt1 i
  intro a
  match a with
  | ⟨0, _⟩ => show win2_6.index (pt2 i) (0 : Fin 2) * 4000 ≤ (i 0).val ∧ (i 0).val < win2_6.index (pt2 i) (0 : Fin 2) * 4000 + 4000; rw [e0, hv]; omega
  | ⟨1, _⟩ => show win2_6.index (pt2 i) (1 : Fin 2) * 64 ≤ (i 1).val ∧ (i 1).val < win2_6.index (pt2 i) (1 : Fin 2) * 64 + 64; rw [e1]; omega

/-- THE ARRAY output window 6 leaves, from the input BLOCKS: entry `i` is the body's result on the input blocks at the
    point of row `i 0`, read at the place of `i` in its block. -/
theorem arr2_6 (c : Dev nD) (i : S100000x64.Idx) :
    (dat2 V c).arrAt 6 cfg2.N i
      = out2_6 (iblk2 V c 0 (pt2 i)) (iblk2 V c 1 (pt2 i)) (iblk2 V c 2 (pt2 i)) (iblk2 V c 3 (pt2 i)) (iblk2 V c 4 (pt2 i)) (iblk2 V c 5 (pt2 i)) (loc i) :=
  congrFun ((dat2 V c).arrAt_eq_of_cover 6 _ (fun t _ => flushed2_6_eq V c t) cover2_6) i

/-- The body's result depends on the input blocks only. -/
theorem out2_6_congr {x0 x0' : Vec F S4000x64 .f32} {x1 x1' : Vec F S4000x1 .f32} {x2 x2' : Vec F S4000x64 .f32} {x3 x3' : Vec F S64x64 .f32} {x4 x4' : Vec F S1x64 .f32} {x5 x5' : Vec F S64x64 .f32}
    (h0 : x0 = x0') (h1 : x1 = x1') (h2 : x2 = x2') (h3 : x3 = x3') (h4 : x4 = x4') (h5 : x5 = x5') (y : S4000x64.Idx) :
    out2_6 x0 x1 x2 x3 x4 x5 y = out2_6 x0' x1' x2' x3' x4' x5' y := by
  subst h0 h1 h2 h3 h4 h5; rfl

/-- THE ARRAY output window 6 leaves, from the input ARRAYS: entry `i` is the body's result on row block `(i 0) / 4000`
    of each row-blocked input array and on the whole weight arrays, read at row `(i 0) % 4000`, column `i 1`. -/
theorem arr2_6_arrays (c : Dev nD) (i : S100000x64.Idx) :
    (dat2 V c).arrAt 6 cfg2.N i
      = out2_6 (blk (D := 64) (V c (Pipeline.arrRef spec2 0)) (pt i)) (blk (D := 1) (V c (Pipeline.arrRef spec2 1)) (pt i)) (blk (D := 64) (V c (Pipeline.arrRef spec2 2)) (pt i)) (V c (Pipeline.arrRef spec2 3)) (V c (Pipeline.arrRef spec2 4)) (V c (Pipeline.arrRef spec2 5)) (loc i) :=
  (arr2_6 V c i).trans (out2_6_congr (iblk2_0_at_pt V c i) (iblk2_1_at_pt V c i) (iblk2_2_at_pt V c i) (iblk2_3_eq V c (pt2 i)) (iblk2_4_eq V c (pt2 i)) (iblk2_5_eq V c (pt2 i)) (loc i))

/-- What point `t` writes back to output window 7 is block `t` of ONE array: the one whose entry `i` is the body's
    result on the input blocks at the point of row `i 0`, read at the place of `i` in its block. -/
theorem flushed2_7_eq (c : Dev nD) (t : Fin cfg2.N) :
    (dat2 V c).flushed 7 t = ((cfg2.win 7).blk t).view.read (Elt F) (fun i : S100000x64.Idx =>
      out2_7 (iblk2 V c 0 (pt2 i)) (iblk2 V c 1 (pt2 i)) (iblk2 V c 2 (pt2 i)) (iblk2 V c 3 (pt2 i)) (iblk2 V c 4 (pt2 i)) (iblk2 V c 5 (pt2 i)) (loc i)) := by
  show (cfg2.win 7).cut (grid2.coords t) ((dat2 V c).after 7 t) = _
  rw [after2_7]
  obtain ⟨e0, e1⟩ := idx2_7 t
  funext j
  have hj0 : (j 0).val < 4000 := (j 0).isLt
  have hp : pt2 (D := 64) (((cfg2.win 7).blk t).view.emb j) = t := by
    apply Fin.ext
    show (win2_7.index t (0 : Fin 2) * 4000 + 1 * (j 0).val) / 4000 = t.val
    rw [e0]; omega
  have hl : loc (D := 64) (((cfg2.win 7).blk t).view.emb j) = j := by
    funext a
    match a with
    | ⟨0, _⟩ => apply Fin.ext; show (win2_7.index t (0 : Fin 2) * 4000 + 1 * (j 0).val) % 4000 = (j 0).val; rw [e0]; omega
    | ⟨1, _⟩ => apply Fin.ext; show win2_7.index t (1 : Fin 2) * 64 + 1 * (j 1).val = (j 1).val; rw [e1]; omega
  rw [View.read_apply, hp, hl]
  exact (cast_eq _ _).symm

/-- An index of the array is in point `t`'s block iff each coordinate is in the block's range on its axis. -/
theorem mem_blk2_7 (t : Fin cfg2.N) (i : S100000x64.Idx) :
    i ∈ ((cfg2.win 7).blk t).view.set ↔ ∀ a : Fin 2, win2_7.index t a * S4000x64.size a ≤ (i a).val ∧ (i a).val < win2_7.index t a * S4000x64.size a + S4000x64.size a := by
  show i ∈ ((View.whole main_v42_1).slice (win2_7.rect t)).set ↔ _
  rw [View.set_slice_whole, Rect.mem_set_unit]
  exact Iff.rfl

/-- Every index of the array is in the block of the point of its row. -/
theorem cover2_7 (i : S100000x64.Idx) :
    ∃ t : Fin cfg2.N, (cfg2.win 7).flush t = true ∧ i ∈ ((cfg2.win 7).blk t).view.set := by
  refine ⟨pt2 i, flush2_7 _, ?_⟩
  rw [mem_blk2_7]
  obtain ⟨e0, e1⟩ := idx2_7 (pt2 i)
  have hv : (pt2 i).val = (i 0).val / 4000 := rfl
  have h1 : (i 1).val < 64 := idx2_lt1 i
  intro a
  match a with
  | ⟨0, _⟩ => show win2_7.index (pt2 i) (0 : Fin 2) * 4000 ≤ (i 0).val ∧ (i 0).val < win2_7.index (pt2 i) (0 : Fin 2) * 4000 + 4000; rw [e0, hv]; omega
  | ⟨1, _⟩ => show win2_7.index (pt2 i) (1 : Fin 2) * 64 ≤ (i 1).val ∧ (i 1).val < win2_7.index (pt2 i) (1 : Fin 2) * 64 + 64; rw [e1]; omega

/-- THE ARRAY output window 7 leaves, from the input BLOCKS: entry `i` is the body's result on the input blocks at the
    point of row `i 0`, read at the place of `i` in its block. -/
theorem arr2_7 (c : Dev nD) (i : S100000x64.Idx) :
    (dat2 V c).arrAt 7 cfg2.N i
      = out2_7 (iblk2 V c 0 (pt2 i)) (iblk2 V c 1 (pt2 i)) (iblk2 V c 2 (pt2 i)) (iblk2 V c 3 (pt2 i)) (iblk2 V c 4 (pt2 i)) (iblk2 V c 5 (pt2 i)) (loc i) :=
  congrFun ((dat2 V c).arrAt_eq_of_cover 7 _ (fun t _ => flushed2_7_eq V c t) cover2_7) i

/-- The body's result depends on the input blocks only. -/
theorem out2_7_congr {x0 x0' : Vec F S4000x64 .f32} {x1 x1' : Vec F S4000x1 .f32} {x2 x2' : Vec F S4000x64 .f32} {x3 x3' : Vec F S64x64 .f32} {x4 x4' : Vec F S1x64 .f32} {x5 x5' : Vec F S64x64 .f32}
    (h0 : x0 = x0') (h1 : x1 = x1') (h2 : x2 = x2') (h3 : x3 = x3') (h4 : x4 = x4') (h5 : x5 = x5') (y : S4000x64.Idx) :
    out2_7 x0 x1 x2 x3 x4 x5 y = out2_7 x0' x1' x2' x3' x4' x5' y := by
  subst h0 h1 h2 h3 h4 h5; rfl

/-- THE ARRAY output window 7 leaves, from the input ARRAYS: entry `i` is the body's result on row block `(i 0) / 4000`
    of each row-blocked input array and on the whole weight arrays, read at row `(i 0) % 4000`, column `i 1`. -/
theorem arr2_7_arrays (c : Dev nD) (i : S100000x64.Idx) :
    (dat2 V c).arrAt 7 cfg2.N i
      = out2_7 (blk (D := 64) (V c (Pipeline.arrRef spec2 0)) (pt i)) (blk (D := 1) (V c (Pipeline.arrRef spec2 1)) (pt i)) (blk (D := 64) (V c (Pipeline.arrRef spec2 2)) (pt i)) (V c (Pipeline.arrRef spec2 3)) (V c (Pipeline.arrRef spec2 4)) (V c (Pipeline.arrRef spec2 5)) (loc i) :=
  (arr2_7 V c i).trans (out2_7_congr (iblk2_0_at_pt V c i) (iblk2_1_at_pt V c i) (iblk2_2_at_pt V c i) (iblk2_3_eq V c (pt2 i)) (iblk2_4_eq V c (pt2 i)) (iblk2_5_eq V c (pt2 i)) (loc i))

/-! ## Region 3 -/

/-- Region 3's grid has 25 points. -/
theorem N3 : cfg3.N = 25 := N_3

/-- The point of region 3's grid holding row `i 0`. -/
def pt3 {D : Nat} (i : (⟨2, ![100000, D]⟩ : Shape).Idx) : Fin cfg3.N := Fin.cast N3.symm (pt i)

theorem cast_pt3 {D : Nat} (i : (⟨2, ![100000, D]⟩ : Shape).Idx) : Fin.cast N3 (pt3 i) = pt i := rfl

theorem pt3_val {D : Nat} (i : (⟨2, ![100000, D]⟩ : Shape).Idx) : (pt3 i).val = (i 0).val / 4000 := rfl

/-- Window 0 of region 3 moves with the grid: at point `t` it is block `t` of the rows, the one block of columns. -/
theorem idx3_0 : ∀ t : Fin cfg3.N, win3_0.index t (0 : Fin 2) = t.val ∧ win3_0.index t (1 : Fin 2) = 0 :=
  (by decide +kernel : ∀ t : Fin grid3.N, _)
/-- Window 1 of region 3 moves with the grid: at point `t` it is block `t` of the rows, the one block of columns. -/
theorem idx3_1 : ∀ t : Fin cfg3.N, win3_1.index t (0 : Fin 2) = t.val ∧ win3_1.index t (1 : Fin 2) = 0 :=
  (by decide +kernel : ∀ t : Fin grid3.N, _)
/-- Window 2 of region 3 moves with the grid: at point `t` it is block `t` of the rows, the one block of columns. -/
theorem idx3_2 : ∀ t : Fin cfg3.N, win3_2.index t (0 : Fin 2) = t.val ∧ win3_2.index t (1 : Fin 2) = 0 :=
  (by decide +kernel : ∀ t : Fin grid3.N, _)
/-- Window 3 of region 3 stays: at every point it is the one block, the whole array. -/
theorem idx3_3 : ∀ t : Fin cfg3.N, win3_3.index t (0 : Fin 2) = 0 ∧ win3_3.index t (1 : Fin 2) = 0 :=
  (by decide +kernel : ∀ t : Fin grid3.N, _)
/-- Window 4 of region 3 stays: at every point it is the one block, the whole array. -/
theorem idx3_4 : ∀ t : Fin cfg3.N, win3_4.index t (0 : Fin 2) = 0 ∧ win3_4.index t (1 : Fin 2) = 0 :=
  (by decide +kernel : ∀ t : Fin grid3.N, _)
/-- Window 5 of region 3 stays: at every point it is the one block, the whole array. -/
theorem idx3_5 : ∀ t : Fin cfg3.N, win3_5.index t (0 : Fin 2) = 0 ∧ win3_5.index t (1 : Fin 2) = 0 :=
  (by decide +kernel : ∀ t : Fin grid3.N, _)
/-- Window 6 of region 3 stays: at every point it is the one block, the whole array. -/
theorem idx3_6 : ∀ t : Fin cfg3.N, win3_6.index t (0 : Fin 2) = 0 ∧ win3_6.index t (1 : Fin 2) = 0 :=
  (by decide +kernel : ∀ t : Fin grid3.N, _)
/-- Window 7 of region 3 stays: at every point it is the one block, the whole array. -/
theorem idx3_7 : ∀ t : Fin cfg3.N, win3_7.index t (0 : Fin 2) = 0 ∧ win3_7.index t (1 : Fin 2) = 0 :=
  (by decide +kernel : ∀ t : Fin grid3.N, _)
/-- Window 8 of region 3 moves with the grid: at point `t` it is block `t` of the rows, the one block of columns. -/
theorem idx3_8 : ∀ t : Fin cfg3.N, win3_8.index t (0 : Fin 2) = t.val ∧ win3_8.index t (1 : Fin 2) = 0 :=
  (by decide +kernel : ∀ t : Fin grid3.N, _)

/-! ### The input blocks, read off the arrays -/

/-- Place `y` of input window 0's block at point `t` is the array at row `4000 t + y 0`, column `y 1`. -/
theorem iblk3_0_apply (c : Dev nD) (t : Fin cfg3.N) (y : S4000x64.Idx) :
    iblk3 V c 0 t y = V c (Pipeline.arrRef spec3 0) (glob (Fin.cast N3 t) y) := by
  obtain ⟨e0, e1⟩ := idx3_0 t
  unfold iblk3
  rw [View.read_apply]
  refine (cast_eq _ _).trans (congrArg (V c (Pipeline.arrRef spec3 0)) ?_)
  funext a
  match a with
  | ⟨0, _⟩ => apply Fin.ext; show win3_0.index t (0 : Fin 2) * 4000 + 1 * (y 0).val = 4000 * t.val + (y 0).val; rw [e0]; omega
  | ⟨1, _⟩ => apply Fin.ext; show win3_0.index t (1 : Fin 2) * 64 + 1 * (y 1).val = (y 1).val; rw [e1]; omega

/-- Input window 0's block at point `t` is row block `t` of its array. -/
theorem iblk3_0_blk (c : Dev nD) (t : Fin cfg3.N) :
    (iblk3 V c 0 t : S4000x64.Idx → Elt F .f32) = blk (D := 64) (V c (Pipeline.arrRef spec3 0)) (Fin.cast N3 t) :=
  funext fun y => iblk3_0_apply V c t y

/-- Place `y` of input window 1's block at point `t` is the array at row `4000 t + y 0`, column `y 1`. -/
theorem iblk3_1_apply (c : Dev nD) (t : Fin cfg3.N) (y : S4000x1.Idx) :
    iblk3 V c 1 t y = V c (Pipeline.arrRef spec3 1) (glob (Fin.cast N3 t) y) := by
  obtain ⟨e0, e1⟩ := idx3_1 t
  unfold iblk3
  rw [View.read_apply]
  refine (cast_eq _ _).trans (congrArg (V c (Pipeline.arrRef spec3 1)) ?_)
  funext a
  match a with
  | ⟨0, _⟩ => apply Fin.ext; show win3_1.index t (0 : Fin 2) * 4000 + 1 * (y 0).val = 4000 * t.val + (y 0).val; rw [e0]; omega
  | ⟨1, _⟩ => apply Fin.ext; show win3_1.index t (1 : Fin 2) * 1 + 1 * (y 1).val = (y 1).val; rw [e1]; omega

/-- Input window 1's block at point `t` is row block `t` of its array. -/
theorem iblk3_1_blk (c : Dev nD) (t : Fin cfg3.N) :
    (iblk3 V c 1 t : S4000x1.Idx → Elt F .f32) = blk (D := 1) (V c (Pipeline.arrRef spec3 1)) (Fin.cast N3 t) :=
  funext fun y => iblk3_1_apply V c t y

/-- Place `y` of input window 2's block at point `t` is the array at row `4000 t + y 0`, column `y 1`. -/
theorem iblk3_2_apply (c : Dev nD) (t : Fin cfg3.N) (y : S4000x64.Idx) :
    iblk3 V c 2 t y = V c (Pipeline.arrRef spec3 2) (glob (Fin.cast N3 t) y) := by
  obtain ⟨e0, e1⟩ := idx3_2 t
  unfold iblk3
  rw [View.read_apply]
  refine (cast_eq _ _).trans (congrArg (V c (Pipeline.arrRef spec3 2)) ?_)
  funext a
  match a with
  | ⟨0, _⟩ => apply Fin.ext; show win3_2.index t (0 : Fin 2) * 4000 + 1 * (y 0).val = 4000 * t.val + (y 0).val; rw [e0]; omega
  | ⟨1, _⟩ => apply Fin.ext; show win3_2.index t (1 : Fin 2) * 64 + 1 * (y 1).val = (y 1).val; rw [e1]; omega

/-- Input window 2's block at point `t` is row block `t` of its array. -/
theorem iblk3_2_blk (c : Dev nD) (t : Fin cfg3.N) :
    (iblk3 V c 2 t : S4000x64.Idx → Elt F .f32) = blk (D := 64) (V c (Pipeline.arrRef spec3 2)) (Fin.cast N3 t) :=
  funext fun y => iblk3_2_apply V c t y

/-- Input window 3's block is the whole array, at every point. -/
theorem iblk3_3_eq (c : Dev nD) (t : Fin cfg3.N) :
    (iblk3 V c 3 t : S64x64.Idx → Elt F .f32) = V c (Pipeline.arrRef spec3 3) := by
  obtain ⟨e0, e1⟩ := idx3_3 t
  funext y
  unfold iblk3
  rw [View.read_apply]
  refine (cast_eq _ _).trans (congrArg (V c (Pipeline.arrRef spec3 3)) ?_)
  funext a
  match a with
  | ⟨0, _⟩ => apply Fin.ext; show win3_3.index t (0 : Fin 2) * 64 + 1 * (y 0).val = (y 0).val; rw [e0]; omega
  | ⟨1, _⟩ => apply Fin.ext; show win3_3.index t (1 : Fin 2) * 64 + 1 * (y 1).val = (y 1).val; rw [e1]; omega

/-- Input window 4's block is the whole array, at every point. -/
theorem iblk3_4_eq (c : Dev nD) (t : Fin cfg3.N) :
    (iblk3 V c 4 t : S1x64.Idx → Elt F .f32) = V c (Pipeline.arrRef spec3 4) := by
  obtain ⟨e0, e1⟩ := idx3_4 t
  funext y
  unfold iblk3
  rw [View.read_apply]
  refine (cast_eq _ _).trans (congrArg (V c (Pipeline.arrRef spec3 4)) ?_)
  funext a
  match a with
  | ⟨0, _⟩ => apply Fin.ext; show win3_4.index t (0 : Fin 2) * 1 + 1 * (y 0).val = (y 0).val; rw [e0]; omega
  | ⟨1, _⟩ => apply Fin.ext; show win3_4.index t (1 : Fin 2) * 64 + 1 * (y 1).val = (y 1).val; rw [e1]; omega

/-- Input window 5's block is the whole array, at every point. -/
theorem iblk3_5_eq (c : Dev nD) (t : Fin cfg3.N) :
    (iblk3 V c 5 t : S64x64.Idx → Elt F .f32) = V c (Pipeline.arrRef spec3 5) := by
  obtain ⟨e0, e1⟩ := idx3_5 t
  funext y
  unfold iblk3
  rw [View.read_apply]
  refine (cast_eq _ _).trans (congrArg (V c (Pipeline.arrRef spec3 5)) ?_)
  funext a
  match a with
  | ⟨0, _⟩ => apply Fin.ext; show win3_5.index t (0 : Fin 2) * 64 + 1 * (y 0).val = (y 0).val; rw [e0]; omega
  | ⟨1, _⟩ => apply Fin.ext; show win3_5.index t (1 : Fin 2) * 64 + 1 * (y 1).val = (y 1).val; rw [e1]; omega

/-- Input window 6's block is the whole array, at every point. -/
theorem iblk3_6_eq (c : Dev nD) (t : Fin cfg3.N) :
    (iblk3 V c 6 t : S64x1.Idx → Elt F .f32) = V c (Pipeline.arrRef spec3 6) := by
  obtain ⟨e0, e1⟩ := idx3_6 t
  funext y
  unfold iblk3
  rw [View.read_apply]
  refine (cast_eq _ _).trans (congrArg (V c (Pipeline.arrRef spec3 6)) ?_)
  funext a
  match a with
  | ⟨0, _⟩ => apply Fin.ext; show win3_6.index t (0 : Fin 2) * 64 + 1 * (y 0).val = (y 0).val; rw [e0]; omega
  | ⟨1, _⟩ => apply Fin.ext; show win3_6.index t (1 : Fin 2) * 1 + 1 * (y 1).val = (y 1).val; rw [e1]; omega

/-- Input window 7's block is the whole array, at every point. -/
theorem iblk3_7_eq (c : Dev nD) (t : Fin cfg3.N) :
    (iblk3 V c 7 t : S1x1.Idx → Elt F .f32) = V c (Pipeline.arrRef spec3 7) := by
  obtain ⟨e0, e1⟩ := idx3_7 t
  funext y
  unfold iblk3
  rw [View.read_apply]
  refine (cast_eq _ _).trans (congrArg (V c (Pipeline.arrRef spec3 7)) ?_)
  funext a
  match a with
  | ⟨0, _⟩ => apply Fin.ext; show win3_7.index t (0 : Fin 2) * 1 + 1 * (y 0).val = (y 0).val; rw [e0]; omega
  | ⟨1, _⟩ => apply Fin.ext; show win3_7.index t (1 : Fin 2) * 1 + 1 * (y 1).val = (y 1).val; rw [e1]; omega

/-- Input window 0's block at the point of row `i 0` (of an index of any width) is that row's block of its array. -/
theorem iblk3_0_at_pt {D : Nat} (c : Dev nD) (i : (⟨2, ![100000, D]⟩ : Shape).Idx) :
    (iblk3 V c 0 (pt3 i) : S4000x64.Idx → Elt F .f32) = blk (D := 64) (V c (Pipeline.arrRef spec3 0)) (pt i) :=
  iblk3_0_blk V c (pt3 i)

/-- Input window 1's block at the point of row `i 0` (of an index of any width) is that row's block of its array. -/
theorem iblk3_1_at_pt {D : Nat} (c : Dev nD) (i : (⟨2, ![100000, D]⟩ : Shape).Idx) :
    (iblk3 V c 1 (pt3 i) : S4000x1.Idx → Elt F .f32) = blk (D := 1) (V c (Pipeline.arrRef spec3 1)) (pt i) :=
  iblk3_1_blk V c (pt3 i)

/-- Input window 2's block at the point of row `i 0` (of an index of any width) is that row's block of its array. -/
theorem iblk3_2_at_pt {D : Nat} (c : Dev nD) (i : (⟨2, ![100000, D]⟩ : Shape).Idx) :
    (iblk3 V c 2 (pt3 i) : S4000x64.Idx → Elt F .f32) = blk (D := 64) (V c (Pipeline.arrRef spec3 2)) (pt i) :=
  iblk3_2_blk V c (pt3 i)

/-! ### The output arrays -/

/-- What point `t` writes back to output window 8 is block `t` of ONE array: the one whose entry `i` is the body's
    result on the input blocks at the point of row `i 0`, read at the place of `i` in its block. -/
theorem flushed3_8_eq (c : Dev nD) (t : Fin cfg3.N) :
    (dat3 V c).flushed 8 t = ((cfg3.win 8).blk t).view.read (Elt F) (fun i : S100000x1.Idx =>
      out3_8 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) (iblk3 V c 7 (pt3 i)) (loc i)) := by
  show (cfg3.win 8).cut (grid3.coords t) ((dat3 V c).after 8 t) = _
  rw [after3_8]
  obtain ⟨e0, e1⟩ := idx3_8 t
  funext j
  have hj0 : (j 0).val < 4000 := (j 0).isLt
  have hp : pt3 (D := 1) (((cfg3.win 8).blk t).view.emb j) = t := by
    apply Fin.ext
    show (win3_8.index t (0 : Fin 2) * 4000 + 1 * (j 0).val) / 4000 = t.val
    rw [e0]; omega
  have hl : loc (D := 1) (((cfg3.win 8).blk t).view.emb j) = j := by
    funext a
    match a with
    | ⟨0, _⟩ => apply Fin.ext; show (win3_8.index t (0 : Fin 2) * 4000 + 1 * (j 0).val) % 4000 = (j 0).val; rw [e0]; omega
    | ⟨1, _⟩ => apply Fin.ext; show win3_8.index t (1 : Fin 2) * 1 + 1 * (j 1).val = (j 1).val; rw [e1]; omega
  rw [View.read_apply, hp, hl]
  exact (cast_eq _ _).symm

/-- An index of the array is in point `t`'s block iff each coordinate is in the block's range on its axis. -/
theorem mem_blk3_8 (t : Fin cfg3.N) (i : S100000x1.Idx) :
    i ∈ ((cfg3.win 8).blk t).view.set ↔ ∀ a : Fin 2, win3_8.index t a * S4000x1.size a ≤ (i a).val ∧ (i a).val < win3_8.index t a * S4000x1.size a + S4000x1.size a := by
  show i ∈ ((View.whole main_v56).slice (win3_8.rect t)).set ↔ _
  rw [View.set_slice_whole, Rect.mem_set_unit]
  exact Iff.rfl

/-- Every index of the array is in the block of the point of its row. -/
theorem cover3_8 (i : S100000x1.Idx) :
    ∃ t : Fin cfg3.N, (cfg3.win 8).flush t = true ∧ i ∈ ((cfg3.win 8).blk t).view.set := by
  refine ⟨pt3 i, flush3_8 _, ?_⟩
  rw [mem_blk3_8]
  obtain ⟨e0, e1⟩ := idx3_8 (pt3 i)
  have hv : (pt3 i).val = (i 0).val / 4000 := rfl
  have h1 : (i 1).val < 1 := idx2_lt1 i
  intro a
  match a with
  | ⟨0, _⟩ => show win3_8.index (pt3 i) (0 : Fin 2) * 4000 ≤ (i 0).val ∧ (i 0).val < win3_8.index (pt3 i) (0 : Fin 2) * 4000 + 4000; rw [e0, hv]; omega
  | ⟨1, _⟩ => show win3_8.index (pt3 i) (1 : Fin 2) * 1 ≤ (i 1).val ∧ (i 1).val < win3_8.index (pt3 i) (1 : Fin 2) * 1 + 1; rw [e1]; omega

/-- THE ARRAY output window 8 leaves, from the input BLOCKS: entry `i` is the body's result on the input blocks at the
    point of row `i 0`, read at the place of `i` in its block. -/
theorem arr3_8 (c : Dev nD) (i : S100000x1.Idx) :
    (dat3 V c).arrAt 8 cfg3.N i
      = out3_8 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) (iblk3 V c 7 (pt3 i)) (loc i) :=
  congrFun ((dat3 V c).arrAt_eq_of_cover 8 _ (fun t _ => flushed3_8_eq V c t) cover3_8) i

/-- The body's result depends on the input blocks only. -/
theorem out3_8_congr {x0 x0' : Vec F S4000x64 .f32} {x1 x1' : Vec F S4000x1 .f32} {x2 x2' : Vec F S4000x64 .f32} {x3 x3' : Vec F S64x64 .f32} {x4 x4' : Vec F S1x64 .f32} {x5 x5' : Vec F S64x64 .f32} {x6 x6' : Vec F S64x1 .f32} {x7 x7' : Vec F S1x1 .f32}
    (h0 : x0 = x0') (h1 : x1 = x1') (h2 : x2 = x2') (h3 : x3 = x3') (h4 : x4 = x4') (h5 : x5 = x5') (h6 : x6 = x6') (h7 : x7 = x7') (y : S4000x1.Idx) :
    out3_8 x0 x1 x2 x3 x4 x5 x6 x7 y = out3_8 x0' x1' x2' x3' x4' x5' x6' x7' y := by
  subst h0 h1 h2 h3 h4 h5 h6 h7; rfl

/-- THE ARRAY output window 8 leaves, from the input ARRAYS: entry `i` is the body's result on row block `(i 0) / 4000`
    of each row-blocked input array and on the whole weight arrays, read at row `(i 0) % 4000`, column `i 1`. -/
theorem arr3_8_arrays (c : Dev nD) (i : S100000x1.Idx) :
    (dat3 V c).arrAt 8 cfg3.N i
      = out3_8 (blk (D := 64) (V c (Pipeline.arrRef spec3 0)) (pt i)) (blk (D := 1) (V c (Pipeline.arrRef spec3 1)) (pt i)) (blk (D := 64) (V c (Pipeline.arrRef spec3 2)) (pt i)) (V c (Pipeline.arrRef spec3 3)) (V c (Pipeline.arrRef spec3 4)) (V c (Pipeline.arrRef spec3 5)) (V c (Pipeline.arrRef spec3 6)) (V c (Pipeline.arrRef spec3 7)) (loc i) :=
  (arr3_8 V c i).trans (out3_8_congr (iblk3_0_at_pt V c i) (iblk3_1_at_pt V c i) (iblk3_2_at_pt V c i) (iblk3_3_eq V c (pt3 i)) (iblk3_4_eq V c (pt3 i)) (iblk3_5_eq V c (pt3 i)) (iblk3_6_eq V c (pt3 i)) (iblk3_7_eq V c (pt3 i)) (loc i))

end Regions
end Cert.KernelIdeal.Blocks
end
-- ==== Proof.LibDotSum.lean ====
/-
  A contraction over one axis, re-indexed: the sum over a dot's contraction index type of the operands' products
  is the sum over `Fin K` once each operand's index at the `k`-th contraction position is known.
-/
import Idealize.ShloMosaic.PureOps.Ideal.Laws
import Idealize.ShloMosaic.Lib.ValueIdx

noncomputable section

namespace Cert.Gnn

open Idealize.ShloMosaic Idealize.ShloMosaic.ValueIdx

/-- The sum over a one-axis contraction index of `lhs · rhs` is the sum over `Fin K` of the operands at the indices
    `L k`, `R k` the dot's index maps take at the `k`-th contraction position. -/
theorem dot_sum {sl sr so : Shape} (d : DotDims sl sr so) (K : Nat) (hr : d.contr.rank = 1)
    (hs : d.contr.size ⟨0, by omega⟩ = K) (lhs : sl.Idx → EReal) (rhs : sr.Idx → EReal) (j : so.Idx)
    (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    ∑ q : d.contr.Idx, lhs (d.lhsIdx j q) * rhs (d.rhsIdx j q) = ∑ k : Fin K, lhs (L k) * rhs (R k) := by
  rw [← Equiv.sum_comp (contrEquiv1 d K hr hs).symm]
  exact Finset.sum_congr rfl fun k _ => by rw [hL k, hR k]

end Cert.Gnn

end
-- ==== Proof.PayCommon.lean ====
/-
  What the kernels' bodies share: a block stored or loaded whole is the block; a column broadcast along rows;
  each matrix product of a body, read at a row and a column, as a sum over the contracted coordinate.
-/
import proofs.«140343_j90855738180235_2_alg».proof.Proof.Gen.KernelIdeal.Frame
import proofs.«140343_j90855738180235_2_alg».proof.Proof.Spec
import proofs.«140343_j90855738180235_2_alg».proof.Proof.LibDotSum
import Idealize.ShloMosaic.Lib.Pipeline.Value
import Idealize.ShloMosaic.Lib.ValueLayout

set_option maxRecDepth 16384

noncomputable section

namespace Cert.KernelIdeal.Pay

open Cert.KernelIdeal Cert.KernelIdeal.Gen Idealize.ShloMosaic Idealize.ShloMosaic.ValueIdx Idealize.ShloMosaic.Pipeline

/-- The offset of every whole-block access: zero on both axes. -/
theorem hz : (![0, 0] : Fin 2 → Nat) = fun _ => 0 := funext fun a => by fin_cases a <;> rfl

/-- A column `[a, 1]` broadcast to `[a, b]` reads, at `(p, c)`, the column at row `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The `26`-wide contraction `S4000x26 · S26x8` -/

theorem lhs26_0 (i : S4000x8.Idx) (q : dot_S4000x26_S26x8_S4000x8_1_0_0_1_n_n.contr.Idx) : (dot_S4000x26_S26x8_S4000x8_1_0_0_1_n_n.lhsIdx i q 0).val = (i 0).val := by
  unfold DotDims.lhsIdx
  rw [dif_neg (show ¬(0 : Fin S4000x26.rank) ∈ dot_S4000x26_S26x8_S4000x8_1_0_0_1_n_n.lhsBatch by decide),
    dif_pos (show (0 : Fin S4000x26.rank) ∈ dot_S4000x26_S26x8_S4000x8_1_0_0_1_n_n.lhsNonContracting by decide)]
  rfl
theorem lhs26_1 (i : S4000x8.Idx) (q : dot_S4000x26_S26x8_S4000x8_1_0_0_1_n_n.contr.Idx) : (dot_S4000x26_S26x8_S4000x8_1_0_0_1_n_n.lhsIdx i q 1).val = (q ⟨0, by decide⟩).val :=
  dot_S4000x26_S26x8_S4000x8_1_0_0_1_n_n.lhsIdx_val_of_single rfl i q
theorem rhs26_0 (i : S4000x8.Idx) (q : dot_S4000x26_S26x8_S4000x8_1_0_0_1_n_n.contr.Idx) : (dot_S4000x26_S26x8_S4000x8_1_0_0_1_n_n.rhsIdx i q 0).val = (q ⟨0, by decide⟩).val :=
  dot_S4000x26_S26x8_S4000x8_1_0_0_1_n_n.rhsIdx_val_of_single rfl i q
theorem rhs26_1 (i : S4000x8.Idx) (q : dot_S4000x26_S26x8_S4000x8_1_0_0_1_n_n.contr.Idx) : (dot_S4000x26_S26x8_S4000x8_1_0_0_1_n_n.rhsIdx i q 1).val = (i 1).val := by
  unfold DotDims.rhsIdx
  rw [dif_neg (show ¬(1 : Fin S26x8.rank) ∈ dot_S4000x26_S26x8_S4000x8_1_0_0_1_n_n.rhsBatch by decide),
    dif_pos (show (1 : Fin S26x8.rank) ∈ dot_S4000x26_S26x8_S4000x8_1_0_0_1_n_n.rhsNonContracting by decide)]
  rfl
/-- At contraction position `k` the left operand is read at `(row j, k)`. -/
theorem lhs26 (j : S4000x8.Idx) (k : Fin 26) :
    dot_S4000x26_S26x8_S4000x8_1_0_0_1_n_n.lhsIdx j ((contrEquiv1 dot_S4000x26_S26x8_S4000x8_1_0_0_1_n_n 26 rfl rfl).symm k) = ix2 (Cert.Gnn.row j) k := funext fun a => Fin.ext (by
  have hk := contrEquiv1_symm_val dot_S4000x26_S26x8_S4000x8_1_0_0_1_n_n 26 rfl rfl k
  match a with
  | ⟨0, _⟩ => exact lhs26_0 _ _
  | ⟨1, _⟩ => exact (lhs26_1 _ _).trans hk)
/-- At contraction position `k` the right operand is read at `(k, col j)`. -/
theorem rhs26 (j : S4000x8.Idx) (k : Fin 26) :
    dot_S4000x26_S26x8_S4000x8_1_0_0_1_n_n.rhsIdx j ((contrEquiv1 dot_S4000x26_S26x8_S4000x8_1_0_0_1_n_n 26 rfl rfl).symm k) = ix2 k (Cert.Gnn.col j) := funext fun a => Fin.ext (by
  have hk := contrEquiv1_symm_val dot_S4000x26_S26x8_S4000x8_1_0_0_1_n_n 26 rfl rfl k
  match a with
  | ⟨0, _⟩ => exact (rhs26_0 _ _).trans hk
  | ⟨1, _⟩ => exact rhs26_1 _ _)
/-- The product into a zero accumulator, read at `(r, c)`: the sum over `k` of `lhs (r, k) · rhs (k, c)`. -/
theorem matmul26_apply {φ₁ φ₂ : FTy} (lhs : FVec Ideal S4000x26 φ₁) (rhs : FVec Ideal S26x8 φ₂) (r : Fin 4000) (c : Fin 8) :
    matmul dot_S4000x26_S26x8_S4000x8_1_0_0_1_n_n none lhs rhs (constant S4000x8 .f32 0x00000000#32) (ix2 r c) = ∑ k : Fin 26, lhs (ix2 r k) * rhs (ix2 k c) := by
  simp only [Ideal.matmul_constant_zero_apply]
  exact Cert.Gnn.dot_sum dot_S4000x26_S26x8_S4000x8_1_0_0_1_n_n 26 rfl rfl _ _ (ix2 r c) (fun k => ix2 r k) (fun k => ix2 k c)
    (fun k => lhs26 (ix2 r c) k) (fun k => rhs26 (ix2 r c) k)

/-! ### The `17`-wide contraction `S4000x17 · S17x64` -/

theorem lhs17_0 (i : S4000x64.Idx) (q : dot_S4000x17_S17x64_S4000x64_1_0_0_1_n_n.contr.Idx) : (dot_S4000x17_S17x64_S4000x64_1_0_0_1_n_n.lhsIdx i q 0).val = (i 0).val := by
  unfold DotDims.lhsIdx
  rw [dif_neg (show ¬(0 : Fin S4000x17.rank) ∈ dot_S4000x17_S17x64_S4000x64_1_0_0_1_n_n.lhsBatch by decide),
    dif_pos (show (0 : Fin S4000x17.rank) ∈ dot_S4000x17_S17x64_S4000x64_1_0_0_1_n_n.lhsNonContracting by decide)]
  rfl
theorem lhs17_1 (i : S4000x64.Idx) (q : dot_S4000x17_S17x64_S4000x64_1_0_0_1_n_n.contr.Idx) : (dot_S4000x17_S17x64_S4000x64_1_0_0_1_n_n.lhsIdx i q 1).val = (q ⟨0, by decide⟩).val :=
  dot_S4000x17_S17x64_S4000x64_1_0_0_1_n_n.lhsIdx_val_of_single rfl i q
theorem rhs17_0 (i : S4000x64.Idx) (q : dot_S4000x17_S17x64_S4000x64_1_0_0_1_n_n.contr.Idx) : (dot_S4000x17_S17x64_S4000x64_1_0_0_1_n_n.rhsIdx i q 0).val = (q ⟨0, by decide⟩).val :=
  dot_S4000x17_S17x64_S4000x64_1_0_0_1_n_n.rhsIdx_val_of_single rfl i q
theorem rhs17_1 (i : S4000x64.Idx) (q : dot_S4000x17_S17x64_S4000x64_1_0_0_1_n_n.contr.Idx) : (dot_S4000x17_S17x64_S4000x64_1_0_0_1_n_n.rhsIdx i q 1).val = (i 1).val := by
  unfold DotDims.rhsIdx
  rw [dif_neg (show ¬(1 : Fin S17x64.rank) ∈ dot_S4000x17_S17x64_S4000x64_1_0_0_1_n_n.rhsBatch by decide),
    dif_pos (show (1 : Fin S17x64.rank) ∈ dot_S4000x17_S17x64_S4000x64_1_0_0_1_n_n.rhsNonContracting by decide)]
  rfl
/-- At contraction position `k` the left operand is read at `(row j, k)`. -/
theorem lhs17 (j : S4000x64.Idx) (k : Fin 17) :
    dot_S4000x17_S17x64_S4000x64_1_0_0_1_n_n.lhsIdx j ((contrEquiv1 dot_S4000x17_S17x64_S4000x64_1_0_0_1_n_n 17 rfl rfl).symm k) = ix2 (Cert.Gnn.row j) k := funext fun a => Fin.ext (by
  have hk := contrEquiv1_symm_val dot_S4000x17_S17x64_S4000x64_1_0_0_1_n_n 17 rfl rfl k
  match a with
  | ⟨0, _⟩ => exact lhs17_0 _ _
  | ⟨1, _⟩ => exact (lhs17_1 _ _).trans hk)
/-- At contraction position `k` the right operand is read at `(k, col j)`. -/
theorem rhs17 (j : S4000x64.Idx) (k : Fin 17) :
    dot_S4000x17_S17x64_S4000x64_1_0_0_1_n_n.rhsIdx j ((contrEquiv1 dot_S4000x17_S17x64_S4000x64_1_0_0_1_n_n 17 rfl rfl).symm k) = ix2 k (Cert.Gnn.col j) := funext fun a => Fin.ext (by
  have hk := contrEquiv1_symm_val dot_S4000x17_S17x64_S4000x64_1_0_0_1_n_n 17 rfl rfl k
  match a with
  | ⟨0, _⟩ => exact (rhs17_0 _ _).trans hk
  | ⟨1, _⟩ => exact rhs17_1 _ _)
/-- The product into a zero accumulator, read at `(r, c)`: the sum over `k` of `lhs (r, k) · rhs (k, c)`. -/
theorem matmul17_apply {φ₁ φ₂ : FTy} (lhs : FVec Ideal S4000x17 φ₁) (rhs : FVec Ideal S17x64 φ₂) (r : Fin 4000) (c : Fin 64) :
    matmul dot_S4000x17_S17x64_S4000x64_1_0_0_1_n_n none lhs rhs (constant S4000x64 .f32 0x00000000#32) (ix2 r c) = ∑ k : Fin 17, lhs (ix2 r k) * rhs (ix2 k c) := by
  simp only [Ideal.matmul_constant_zero_apply]
  exact Cert.Gnn.dot_sum dot_S4000x17_S17x64_S4000x64_1_0_0_1_n_n 17 rfl rfl _ _ (ix2 r c) (fun k => ix2 r k) (fun k => ix2 k c)
    (fun k => lhs17 (ix2 r c) k) (fun k => rhs17 (ix2 r c) k)

/-! ### The `64`-wide contraction `S4000x64 · S64x64` -/

theorem lhs64_0 (i : S4000x64.Idx) (q : dot_S4000x64_S64x64_S4000x64_1_0_0_1_n_n.contr.Idx) : (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
theorem lhs64_1 (i : S4000x64.Idx) (q : dot_S4000x64_S64x64_S4000x64_1_0_0_1_n_n.contr.Idx) : (dot_S4000x64_S64x64_S4000x64_1_0_0_1_n_n.lhsIdx i q 1).val = (q ⟨0, by decide⟩).val :=
  dot_S4000x64_S64x64_S4000x64_1_0_0_1_n_n.lhsIdx_val_of_single rfl i q
theorem rhs64_0 (i : S4000x64.Idx) (q : dot_S4000x64_S64x64_S4000x64_1_0_0_1_n_n.contr.Idx) : (dot_S4000x64_S64x64_S4000x64_1_0_0_1_n_n.rhsIdx i q 0).val = (q ⟨0, by decide⟩).val :=
  dot_S4000x64_S64x64_S4000x64_1_0_0_1_n_n.rhsIdx_val_of_single rfl i q
theorem rhs64_1 (i : S4000x64.Idx) (q : dot_S4000x64_S64x64_S4000x64_1_0_0_1_n_n.contr.Idx) : (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl
/-- At contraction position `k` the left operand is read at `(row j, k)`. -/
theorem lhs64 (j : S4000x64.Idx) (k : Fin 64) :
    dot_S4000x64_S64x64_S4000x64_1_0_0_1_n_n.lhsIdx j ((contrEquiv1 dot_S4000x64_S64x64_S4000x64_1_0_0_1_n_n 64 rfl rfl).symm k) = ix2 (Cert.Gnn.row j) k := funext fun a => Fin.ext (by
  have hk := contrEquiv1_symm_val dot_S4000x64_S64x64_S4000x64_1_0_0_1_n_n 64 rfl rfl k
  match a with
  | ⟨0, _⟩ => exact lhs64_0 _ _
  | ⟨1, _⟩ => exact (lhs64_1 _ _).trans hk)
/-- At contraction position `k` the right operand is read at `(k, col j)`. -/
theorem rhs64 (j : S4000x64.Idx) (k : Fin 64) :
    dot_S4000x64_S64x64_S4000x64_1_0_0_1_n_n.rhsIdx j ((contrEquiv1 dot_S4000x64_S64x64_S4000x64_1_0_0_1_n_n 64 rfl rfl).symm k) = ix2 k (Cert.Gnn.col j) := funext fun a => Fin.ext (by
  have hk := contrEquiv1_symm_val dot_S4000x64_S64x64_S4000x64_1_0_0_1_n_n 64 rfl rfl k
  match a with
  | ⟨0, _⟩ => exact (rhs64_0 _ _).trans hk
  | ⟨1, _⟩ => exact rhs64_1 _ _)
/-- The product into a zero accumulator, read at `(r, c)`: the sum over `k` of `lhs (r, k) · rhs (k, c)`. -/
theorem matmul64_apply {φ₁ φ₂ : FTy} (lhs : FVec Ideal S4000x64 φ₁) (rhs : FVec Ideal S64x64 φ₂) (r : Fin 4000) (c : Fin 64) :
    matmul dot_S4000x64_S64x64_S4000x64_1_0_0_1_n_n none lhs rhs (constant S4000x64 .f32 0x00000000#32) (ix2 r c) = ∑ k : Fin 64, lhs (ix2 r k) * rhs (ix2 k c) := by
  simp only [Ideal.matmul_constant_zero_apply]
  exact Cert.Gnn.dot_sum dot_S4000x64_S64x64_S4000x64_1_0_0_1_n_n 64 rfl rfl _ _ (ix2 r c) (fun k => ix2 r k) (fun k => ix2 k c)
    (fun k => lhs64 (ix2 r c) k) (fun k => rhs64 (ix2 r c) k)

/-! ### The `64`-wide contraction `S4000x64 · S64x1` -/

theorem lhs641_0 (i : S4000x1.Idx) (q : dot_S4000x64_S64x1_S4000x1_1_0_0_1_n_n.contr.Idx) : (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide),
    dif_pos (show (0 : Fin S4000x64.rank) ∈ dot_S4000x64_S64x1_S4000x1_1_0_0_1_n_n.lhsNonContracting by decide)]
  rfl
theorem lhs641_1 (i : S4000x1.Idx) (q : dot_S4000x64_S64x1_S4000x1_1_0_0_1_n_n.contr.Idx) : (dot_S4000x64_S64x1_S4000x1_1_0_0_1_n_n.lhsIdx i q 1).val = (q ⟨0, by decide⟩).val :=
  dot_S4000x64_S64x1_S4000x1_1_0_0_1_n_n.lhsIdx_val_of_single rfl i q
theorem rhs641_0 (i : S4000x1.Idx) (q : dot_S4000x64_S64x1_S4000x1_1_0_0_1_n_n.contr.Idx) : (dot_S4000x64_S64x1_S4000x1_1_0_0_1_n_n.rhsIdx i q 0).val = (q ⟨0, by decide⟩).val :=
  dot_S4000x64_S64x1_S4000x1_1_0_0_1_n_n.rhsIdx_val_of_single rfl i q
theorem rhs641_1 (i : S4000x1.Idx) (q : dot_S4000x64_S64x1_S4000x1_1_0_0_1_n_n.contr.Idx) : (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide),
    dif_pos (show (1 : Fin S64x1.rank) ∈ dot_S4000x64_S64x1_S4000x1_1_0_0_1_n_n.rhsNonContracting by decide)]
  rfl
/-- At contraction position `k` the left operand is read at `(row j, k)`. -/
theorem lhs641 (j : S4000x1.Idx) (k : Fin 64) :
    dot_S4000x64_S64x1_S4000x1_1_0_0_1_n_n.lhsIdx j ((contrEquiv1 dot_S4000x64_S64x1_S4000x1_1_0_0_1_n_n 64 rfl rfl).symm k) = ix2 (Cert.Gnn.row j) k := funext fun a => Fin.ext (by
  have hk := contrEquiv1_symm_val dot_S4000x64_S64x1_S4000x1_1_0_0_1_n_n 64 rfl rfl k
  match a with
  | ⟨0, _⟩ => exact lhs641_0 _ _
  | ⟨1, _⟩ => exact (lhs641_1 _ _).trans hk)
/-- At contraction position `k` the right operand is read at `(k, col j)`. -/
theorem rhs641 (j : S4000x1.Idx) (k : Fin 64) :
    dot_S4000x64_S64x1_S4000x1_1_0_0_1_n_n.rhsIdx j ((contrEquiv1 dot_S4000x64_S64x1_S4000x1_1_0_0_1_n_n 64 rfl rfl).symm k) = ix2 k (Cert.Gnn.col j) := funext fun a => Fin.ext (by
  have hk := contrEquiv1_symm_val dot_S4000x64_S64x1_S4000x1_1_0_0_1_n_n 64 rfl rfl k
  match a with
  | ⟨0, _⟩ => exact (rhs641_0 _ _).trans hk
  | ⟨1, _⟩ => exact rhs641_1 _ _)
/-- The product into a zero accumulator, read at `(r, c)`: the sum over `k` of `lhs (r, k) · rhs (k, c)`. -/
theorem matmul641_apply {φ₁ φ₂ : FTy} (lhs : FVec Ideal S4000x64 φ₁) (rhs : FVec Ideal S64x1 φ₂) (r : Fin 4000) (c : Fin 1) :
    matmul dot_S4000x64_S64x1_S4000x1_1_0_0_1_n_n none lhs rhs (constant S4000x1 .f32 0x00000000#32) (ix2 r c) = ∑ k : Fin 64, lhs (ix2 r k) * rhs (ix2 k c) := by
  simp only [Ideal.matmul_constant_zero_apply]
  exact Cert.Gnn.dot_sum dot_S4000x64_S64x1_S4000x1_1_0_0_1_n_n 64 rfl rfl _ _ (ix2 r c) (fun k => ix2 r k) (fun k => ix2 k c)
    (fun k => lhs641 (ix2 r c) k) (fun k => rhs641 (ix2 r c) k)

end Cert.KernelIdeal.Pay

end
-- ==== Proof.PayEmbed.lean ====
/-
  The embedding body on one block of 4000 nodes, read at a row `r` and a column `j` of its 17-column result:
  columns 0…5 are the feature block's, 6…13 the layer-normalised family embedding, 14…16 the feature block's
  columns 32…34.
-/
import proofs.«140343_j90855738180235_2_alg».proof.Proof.PayCommon

set_option maxRecDepth 16384

noncomputable section

namespace Cert.KernelIdeal.Pay

open Cert.KernelIdeal Cert.KernelIdeal.Gen Idealize.ShloMosaic Idealize.ShloMosaic.ValueIdx Idealize.ShloMosaic.Pipeline

/-- A vector `[a]` cast to a column `[a, 1]` reads, at `(p, 0)`, the vector at `p`. -/
theorem shapeCast_a_a1_apply {α : Type} {a : Nat} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- A row's sum over its 8 columns. -/
theorem rowsum8 (v : FVec Ideal S4000x8 .f32) (hφ : FKind.Formats .f32)
    (hacc : (0x00000000#32 : BitVec 32) = 0x00000000#32) (r : Fin 4000) :
    multiReduction .add [1] S4000 v 0x00000000#32 reduces_S4000x8_S4000 hφ hacc (ix1 r) = ∑ k : Fin 8, v (ix2 r k) := by
  refine (Ideal.multiReduction_add_single v 0x00000000#32 reduces_S4000x8_S4000 hφ hacc (ix1 r)).trans ?_
  refine Finset.sum_congr rfl fun k _ => congrArg v ?_
  funext c
  apply Fin.ext
  match c with
  | ⟨0, _⟩ => rfl
  | ⟨1, _⟩ => rfl

/-- The reciprocal square root of a block, read at an index. -/
theorem rsqrt_apply {s : Shape} {φ : FTy} (v : FVec Ideal s φ) (i : s.Idx) : (rsqrt v : FVec Ideal s φ) i = Ideal.rsqrt (v i) := rfl

/-- The one-hot columns: the slice at column offset 6 reads the block at column `6 + q`. -/
theorem slice26_apply (v0 : FVec Ideal S4000x35 .f32) (r : Fin 4000) (q : Fin 26) :
    extractStridedSlice S4000x26 ![0, 6] v0 slices_S4000x35_o0_6_S4000x26 (ix2 r q) = v0 (ix2 r ⟨6 + q.val, by omega⟩) := by
  refine extractStridedSlice_apply _ v0 _ (ix2 r q) (ix2 r ⟨6 + q.val, by omega⟩) fun a => ?_
  match a with
  | ⟨0, _⟩ => show r.val = 0 + r.val; omega
  | ⟨1, _⟩ => rfl

/-- The first six columns: the slice at offset 0. -/
theorem slice6_apply (v0 : FVec Ideal S4000x35 .f32) (r : Fin 4000) (q : Fin 6) :
    extractStridedSlice S4000x6 ![0, 0] v0 slices_S4000x35_o0_0_S4000x6 (ix2 r q) = v0 (ix2 r ⟨q.val, by omega⟩) := by
  refine extractStridedSlice_apply _ v0 _ (ix2 r q) (ix2 r ⟨q.val, by omega⟩) fun a => ?_
  match a with
  | ⟨0, _⟩ => show r.val = 0 + r.val; omega
  | ⟨1, _⟩ => show q.val = 0 + q.val; omega

/-- The last three columns: the slice at column offset 32. -/
theorem slice3_apply (v0 : FVec Ideal S4000x35 .f32) (r : Fin 4000) (q : Fin 3) :
    extractStridedSlice S4000x3 ![0, 32] v0 slices_S4000x35_o0_32_S4000x3 (ix2 r q) = v0 (ix2 r ⟨32 + q.val, by omega⟩) := by
  refine extractStridedSlice_apply _ v0 _ (ix2 r q) (ix2 r ⟨32 + q.val, by omega⟩) fun a => ?_
  match a with
  | ⟨0, _⟩ => show r.val = 0 + r.val; omega
  | ⟨1, _⟩ => rfl

/-- The embedding body at row `r`, column `j` of the block. -/
theorem k0_pay1_apply (v0 : FVec Ideal S4000x35 .f32) (v4 : FVec Ideal S26x8 .f32) (v8 v28 v32 : FVec Ideal S1x8 .f32)
    (r : Fin 4000) (j : Fin 17) :
    k0_pay1 v0 v4 v8 v28 v32 (ix2 r j)
      = if h : j.val < 6 then v0 (ix2 r ⟨j.val, by omega⟩)
        else if h' : j.val < 14 then
          Cert.Gnn.lnorm (fun k' => (∑ q : Fin 26, v0 (ix2 r ⟨6 + q.val, by omega⟩) * v4 (ix2 q k')) + v8 (ix2 (0 : Fin 1) k'))
            (fun i => v28 (ix2 (0 : Fin 1) (Cert.Gnn.pos i))) (fun i => v32 (ix2 (0 : Fin 1) (Cert.Gnn.pos i))) ⟨j.val - 6, by omega⟩
        else v0 (ix2 r ⟨j.val + 18, by omega⟩) := by
  unfold k0_pay1
  by_cases h : j.val < 6
  · rw [dif_pos h]
    refine (concatenate_apply_piece (1 : Fin S4000x17.rank) [⟨S4000x6, _⟩, ⟨S4000x8, _⟩, ⟨S4000x3, _⟩] concatenates_S4000x6_S4000x8_S4000x3_S4000x17_d1 (ix2 r j)
      0 (by simp) S4000x6 _ rfl rfl 0 rfl (ix2 r (⟨j.val, h⟩ : Fin 6)) ?_ ?_).trans ?_
    · intro b hb
      match b with
      | ⟨0, _⟩ => rfl
      | ⟨1, _⟩ => exact absurd rfl hb
    · show 0 + j.val = j.val; omega
    · exact slice6_apply v0 r ⟨j.val, h⟩
  · rw [dif_neg h]
    by_cases h' : j.val < 14
    · rw [dif_pos h']
      refine (concatenate_apply_piece (1 : Fin S4000x17.rank) [⟨S4000x6, _⟩, ⟨S4000x8, _⟩, ⟨S4000x3, _⟩] concatenates_S4000x6_S4000x8_S4000x3_S4000x17_d1 (ix2 r j)
        1 (by simp) S4000x8 _ rfl rfl 6 rfl (ix2 r (⟨j.val - 6, by omega⟩ : Fin 8)) ?_ ?_).trans ?_
      · intro b hb
        match b with
        | ⟨0, _⟩ => rfl
        | ⟨1, _⟩ => exact absurd rfl hb
      · show 6 + (j.val - 6) = j.val; omega
      · repeat (first | rw [rowsum8] | simp only [addf_apply, mulf_apply, subf_apply, divf_apply, matmul26_apply, truncf_apply, slice26_apply, shapeCast_self,
          broadcastTo_1b_ab_apply, broadcastTo_a1_ab_apply, shapeCast_a_a1_apply, broadcast_apply, rsqrt_apply])
        rfl
    · rw [dif_neg h']
      refine (concatenate_apply_piece (1 : Fin S4000x17.rank) [⟨S4000x6, _⟩, ⟨S4000x8, _⟩, ⟨S4000x3, _⟩] concatenates_S4000x6_S4000x8_S4000x3_S4000x17_d1 (ix2 r j)
        2 (by simp) S4000x3 _ rfl rfl 14 rfl (ix2 r (⟨j.val - 14, by omega⟩ : Fin 3)) ?_ ?_).trans ?_
      · intro b hb
        match b with
        | ⟨0, _⟩ => rfl
        | ⟨1, _⟩ => exact absurd rfl hb
      · show 14 + (j.val - 14) = j.val; omega
      · refine (slice3_apply v0 r ⟨j.val - 14, by omega⟩).trans (congrArg v0 ?_)
        exact congrArg (ix2 r) (Fin.ext (by show 32 + (j.val - 14) = j.val + 18; omega))

/-- The bf16 copy holds the same numbers. -/
theorem k0_pay2_apply (v0 : FVec Ideal S4000x35 .f32) (v4 : FVec Ideal S26x8 .f32) (v8 v28 v32 : FVec Ideal S1x8 .f32) (i : S4000x17.Idx) :
    (k0_pay2 (F := Ideal) v0 v4 v8 v28 v32 i : EReal) = (k0_pay1 (F := Ideal) v0 v4 v8 v28 v32 i : EReal) := rfl

/-- The body's store of the f32 output is its payload of the loaded blocks. -/
theorem out0_5_eq {F : FTy → Type} [FloatOps F] (x0 : Vec F S4000x35 .f32) (x1 : Vec F S26x8 .f32) (x2 x3 x4 : Vec F S1x8 .f32) :
    out0_5 x0 x1 x2 x3 x4 = k0_pay1 x0 x1 x2 x3 x4 := by
  unfold out0_5
  rw [View.canon_unit_zero hz]
  simp only [View.ld_unit_zero (S := S4000x35) hz, View.ld_unit_zero (S := S26x8) hz, View.ld_unit_zero (S := S1x8) hz]

/-- The body's store of the bf16 output is its payload of the loaded blocks. -/
theorem out0_6_eq {F : FTy → Type} [FloatOps F] (x0 : Vec F S4000x35 .f32) (x1 : Vec F S26x8 .f32) (x2 x3 x4 : Vec F S1x8 .f32) :
    out0_6 x0 x1 x2 x3 x4 = k0_pay2 x0 x1 x2 x3 x4 := by
  unfold out0_6
  rw [View.canon_unit_zero hz]
  simp only [View.ld_unit_zero (S := S4000x35) hz, View.ld_unit_zero (S := S26x8) hz, View.ld_unit_zero (S := S1x8) hz]

end Cert.KernelIdeal.Pay

end
-- ==== Proof.PaySage1.lean ====
/-
  The first graph layer's body on one block of 4000 nodes, read at a row `r` and a column `j`:
  the neighbour sum's row scaled by the row's reciprocal count, times the left matrix, plus the bias, plus the
  node's own row times the right matrix; the positive part of that.  The second output is the same numbers.
-/
import proofs.«140343_j90855738180235_2_alg».proof.Proof.PayCommon

set_option maxRecDepth 16384

noncomputable section

namespace Cert.KernelIdeal.Pay

open Cert.KernelIdeal Cert.KernelIdeal.Gen Idealize.ShloMosaic Idealize.ShloMosaic.ValueIdx Idealize.ShloMosaic.Pipeline

/-- The body's store of the f32 output is its payload of the loaded blocks. -/
theorem out1_6_eq {F : FTy → Type} [FloatOps F] (x0 : Vec F S4000x17 .f32) (x1 : Vec F S4000x1 .f32) (x2 : Vec F S4000x17 .f32)
    (x3 : Vec F S17x64 .f32) (x4 : Vec F S1x64 .f32) (x5 : Vec F S17x64 .f32) :
    out1_6 x0 x1 x2 x3 x4 x5 = k1_pay1 x0 x1 x2 x3 x5 x4 := by
  unfold out1_6
  rw [View.canon_unit_zero hz]
  simp only [View.ld_unit_zero (S := S4000x17) hz, View.ld_unit_zero (S := S4000x1) hz, View.ld_unit_zero (S := S17x64) hz, View.ld_unit_zero (S := S1x64) hz]

/-- The body's store of the bf16 output is its payload of the loaded blocks. -/
theorem out1_7_eq {F : FTy → Type} [FloatOps F] (x0 : Vec F S4000x17 .f32) (x1 : Vec F S4000x1 .f32) (x2 : Vec F S4000x17 .f32)
    (x3 : Vec F S17x64 .f32) (x4 : Vec F S1x64 .f32) (x5 : Vec F S17x64 .f32) :
    out1_7 x0 x1 x2 x3 x4 x5 = k1_pay2 x0 x1 x2 x3 x5 x4 := by
  unfold out1_7
  rw [View.canon_unit_zero hz]
  simp only [View.ld_unit_zero (S := S4000x17) hz, View.ld_unit_zero (S := S4000x1) hz, View.ld_unit_zero (S := S17x64) hz, View.ld_unit_zero (S := S1x64) hz]

/-- The layer at row `r`, column `j` of the block. -/
theorem k1_pay1_apply (v0 : Vec Ideal S4000x17 .f32) (v2 : Vec Ideal S4000x1 .f32) (v7 : Vec Ideal S4000x17 .f32)
    (v10 v12 : Vec Ideal S17x64 .f32) (v15 : Vec Ideal S1x64 .f32) (r : Fin 4000) (j : Fin 64) :
    k1_pay1 v0 v2 v7 v10 v12 v15 (ix2 r j)
      = max (((∑ k : Fin 17, (v0 (ix2 r k) * v2 (ix2 r (0 : Fin 1))) * v10 (ix2 k j)) + v15 (ix2 (0 : Fin 1) j))
          + ∑ k : Fin 17, v7 (ix2 r k) * v12 (ix2 k j)) Cert.Gnn.zero := by
  unfold k1_pay1
  rw [maximumf_apply, addf_apply, addf_apply, matmul17_apply, matmul17_apply]
  simp only [truncf_apply, mulf_apply, shapeCast_self, broadcastTo_a1_ab_apply, broadcastTo_1b_ab_apply, broadcast_apply]
  rfl

/-- The bf16 copy holds the same numbers. -/
theorem k1_pay2_apply (v0 : Vec Ideal S4000x17 .f32) (v2 : Vec Ideal S4000x1 .f32) (v7 : Vec Ideal S4000x17 .f32)
    (v10 v12 : Vec Ideal S17x64 .f32) (v15 : Vec Ideal S1x64 .f32) (i : S4000x64.Idx) :
    k1_pay2 v0 v2 v7 v10 v12 v15 i = k1_pay1 v0 v2 v7 v10 v12 v15 i := rfl

end Cert.KernelIdeal.Pay

end
-- ==== Proof.PaySage2.lean ====
/-
  The second graph layer's body on one block of 4000 nodes, read at a row `r` and a column `j`: as the first
  layer's at width 64, with the node's own state added before the positive part.
-/
import proofs.«140343_j90855738180235_2_alg».proof.Proof.PayCommon

set_option maxRecDepth 16384

noncomputable section

namespace Cert.KernelIdeal.Pay

open Cert.KernelIdeal Cert.KernelIdeal.Gen Idealize.ShloMosaic Idealize.ShloMosaic.ValueIdx Idealize.ShloMosaic.Pipeline

/-- The body's store of the f32 output is its payload of the loaded blocks. -/
theorem out2_6_eq {F : FTy → Type} [FloatOps F] (x0 : Vec F S4000x64 .f32) (x1 : Vec F S4000x1 .f32) (x2 : Vec F S4000x64 .f32)
    (x3 : Vec F S64x64 .f32) (x4 : Vec F S1x64 .f32) (x5 : Vec F S64x64 .f32) :
    out2_6 x0 x1 x2 x3 x4 x5 = k2_pay1 x0 x1 x2 x3 x5 x4 := by
  unfold out2_6
  rw [View.canon_unit_zero hz]
  simp only [View.ld_unit_zero (S := S4000x64) hz, View.ld_unit_zero (S := S4000x1) hz, View.ld_unit_zero (S := S64x64) hz, View.ld_unit_zero (S := S1x64) hz]

/-- The body's store of the bf16 output is its payload of the loaded blocks. -/
theorem out2_7_eq {F : FTy → Type} [FloatOps F] (x0 : Vec F S4000x64 .f32) (x1 : Vec F S4000x1 .f32) (x2 : Vec F S4000x64 .f32)
    (x3 : Vec F S64x64 .f32) (x4 : Vec F S1x64 .f32) (x5 : Vec F S64x64 .f32) :
    out2_7 x0 x1 x2 x3 x4 x5 = k2_pay2 x0 x1 x2 x3 x5 x4 := by
  unfold out2_7
  rw [View.canon_unit_zero hz]
  simp only [View.ld_unit_zero (S := S4000x64) hz, View.ld_unit_zero (S := S4000x1) hz, View.ld_unit_zero (S := S64x64) hz, View.ld_unit_zero (S := S1x64) hz]

/-- The layer at row `r`, column `j` of the block. -/
theorem k2_pay1_apply (v0 : Vec Ideal S4000x64 .f32) (v2 : Vec Ideal S4000x1 .f32) (v7 : Vec Ideal S4000x64 .f32)
    (v10 v12 : Vec Ideal S64x64 .f32) (v15 : Vec Ideal S1x64 .f32) (r : Fin 4000) (j : Fin 64) :
    k2_pay1 v0 v2 v7 v10 v12 v15 (ix2 r j)
      = max ((((∑ k : Fin 64, (v0 (ix2 r k) * v2 (ix2 r (0 : Fin 1))) * v10 (ix2 k j)) + v15 (ix2 (0 : Fin 1) j))
          + ∑ k : Fin 64, v7 (ix2 r k) * v12 (ix2 k j)) + v7 (ix2 r j)) Cert.Gnn.zero := by
  unfold k2_pay1
  rw [maximumf_apply, addf_apply, addf_apply, addf_apply, matmul64_apply, matmul64_apply]
  simp only [truncf_apply, mulf_apply, shapeCast_self, broadcastTo_a1_ab_apply, broadcastTo_1b_ab_apply, broadcast_apply]
  rfl

/-- The bf16 copy holds the same numbers. -/
theorem k2_pay2_apply (v0 : Vec Ideal S4000x64 .f32) (v2 : Vec Ideal S4000x1 .f32) (v7 : Vec Ideal S4000x64 .f32)
    (v10 v12 : Vec Ideal S64x64 .f32) (v15 : Vec Ideal S1x64 .f32) (i : S4000x64.Idx) :
    k2_pay2 v0 v2 v7 v10 v12 v15 i = k2_pay1 v0 v2 v7 v10 v12 v15 i := rfl

end Cert.KernelIdeal.Pay

end
-- ==== Proof.PaySage3.lean ====
/-
  The third graph layer's body fused with the read-out, on one block of 4000 nodes, read at a row `r`: the
  layer's state at each of its 64 columns (as the second layer's), times the 64 → 1 matrix, plus the bias.
-/
import proofs.«140343_j90855738180235_2_alg».proof.Proof.PayCommon

set_option maxRecDepth 16384

noncomputable section

namespace Cert.KernelIdeal.Pay

open Cert.KernelIdeal Cert.KernelIdeal.Gen Idealize.ShloMosaic Idealize.ShloMosaic.ValueIdx Idealize.ShloMosaic.Pipeline

/-- The body's one store is its payload of the loaded blocks. -/
theorem out3_8_eq {F : FTy → Type} [FloatOps F] (x0 : Vec F S4000x64 .f32) (x1 : Vec F S4000x1 .f32) (x2 : Vec F S4000x64 .f32)
    (x3 : Vec F S64x64 .f32) (x4 : Vec F S1x64 .f32) (x5 : Vec F S64x64 .f32) (x6 : Vec F S64x1 .f32) (x7 : Vec F S1x1 .f32) :
    out3_8 x0 x1 x2 x3 x4 x5 x6 x7 = k3_pay1 x0 x1 x2 x3 x5 x4 x6 x7 := by
  unfold out3_8
  rw [View.canon_unit_zero hz]
  simp only [View.ld_unit_zero (S := S4000x64) hz, View.ld_unit_zero (S := S4000x1) hz, View.ld_unit_zero (S := S64x64) hz, View.ld_unit_zero (S := S1x64) hz, View.ld_unit_zero (S := S64x1) hz, View.ld_unit_zero (S := S1x1) hz]

/-- The layer and the read-out at row `r` of the block (the output has one column). -/
theorem k3_pay1_apply (v0 : Vec Ideal S4000x64 .f32) (v2 : Vec Ideal S4000x1 .f32) (v7 : Vec Ideal S4000x64 .f32)
    (v10 v12 : Vec Ideal S64x64 .f32) (v15 : Vec Ideal S1x64 .f32) (v25 : Vec Ideal S64x1 .f32) (v28 : Vec Ideal S1x1 .f32)
    (r : Fin 4000) (c : Fin 1) :
    k3_pay1 v0 v2 v7 v10 v12 v15 v25 v28 (ix2 r c)
      = (∑ k : Fin 64, max ((((∑ q : Fin 64, (v0 (ix2 r q) * v2 (ix2 r (0 : Fin 1))) * v10 (ix2 q k)) + v15 (ix2 (0 : Fin 1) k))
            + ∑ q : Fin 64, v7 (ix2 r q) * v12 (ix2 q k)) + v7 (ix2 r k)) Cert.Gnn.zero * v25 (ix2 k c))
          + v28 (ix2 (0 : Fin 1) c) := by
  unfold k3_pay1
  rw [addf_apply, matmul641_apply]
  simp only [truncf_apply, maximumf_apply, addf_apply, matmul64_apply, mulf_apply, shapeCast_self, broadcastTo_a1_ab_apply,
    broadcastTo_1b_ab_apply, broadcast_apply]
  rfl

end Cert.KernelIdeal.Pay

end
-- ==== Proof.KerStage.lean ====
/-
  Each kernel's output arrays as the network's layers of its input arrays.

  A kernel processes the nodes in 25 blocks of 4000 rows; the array a kernel leaves is, at node `i`, the body's
  result on block `i / 4000` read at row `i % 4000`.  Reading the body's result there (a row of the block is a row
  of the array, the weights are whole arrays) gives the layer of the specification at node `i`.  The kernels
  multiply the neighbour sum by the reciprocal `1 / c` of the clamped in-degree where the specification divides by
  `c`: the same number off `c = 0`.  Biases reach the kernels as one-row matrices.
-/
import proofs.«140343_j90855738180235_2_alg».proof.Proof.KerBlocks
import proofs.«140343_j90855738180235_2_alg».proof.Proof.PayEmbed
import proofs.«140343_j90855738180235_2_alg».proof.Proof.PaySage1
import proofs.«140343_j90855738180235_2_alg».proof.Proof.PaySage2
import proofs.«140343_j90855738180235_2_alg».proof.Proof.PaySage3

set_option maxRecDepth 16384

noncomputable section

namespace Cert.KernelIdeal.Stage

open Cert.KernelIdeal Cert.KernelIdeal.Gen Cert.KernelIdeal.Blocks Cert.KernelIdeal.Pay
open Idealize.ShloMosaic Idealize.ShloMosaic.TcCoe Idealize.SL.Sem Idealize.ShloMosaic.ValueIdx
open Cert.Gnn (Arr1 Arr2)

/-! ## The bodies on a block of an array, at a node -/

/-- The embedding body on the block of node `i`, at `i`'s place, is the node state of the specification. -/
theorem embed_at (A0 : Arr2 100000 35) (A1 : Arr2 26 8) (A2 A3 A4 : Arr2 1 8) (be g b : Arr1 8)
    (hbe : ∀ k : Fin 8, A2 (ix2 (0 : Fin 1) k) = be (ix1 k)) (hg : ∀ k : Fin 8, A3 (ix2 (0 : Fin 1) k) = g (ix1 k))
    (hb : ∀ k : Fin 8, A4 (ix2 (0 : Fin 1) k) = b (ix1 k)) (i : (⟨2, ![100000, 17]⟩ : Shape).Idx) :
    k0_pay1 (F := Ideal) (blk A0 (pt i)) A1 A2 A3 A4 (loc i) = Cert.Gnn.h0 A0 A1 be g b i := by
  refine (k0_pay1_apply _ _ _ _ _ (loc i 0) (loc i 1)).trans ?_
  unfold Cert.Gnn.h0 Cert.Gnn.emb
  simp only [blk_pt_row, hbe, hg, hb, Cert.Gnn.ix1_pos]
  rfl

/-- The first layer's body on the block of node `i`, at `i`'s place. -/
theorem sage1_at (A0 : Arr2 100000 17) (A1 : Arr2 100000 1) (A2 : Arr2 100000 17) (A3 A5 : Arr2 17 64) (A4 : Arr2 1 64)
    (cc : Arr1 100000) (bl : Arr1 64)
    (hinv : ∀ i : Fin 100000, A1 (ix2 i (0 : Fin 1)) = Ideal.div 1 (cc (ix1 i))) (hcc : ∀ i : Fin 100000, cc (ix1 i) ≠ 0)
    (hbl : ∀ j : Fin 64, A4 (ix2 (0 : Fin 1) j) = bl (ix1 j)) (i : (⟨2, ![100000, 64]⟩ : Shape).Idx) :
    k1_pay1 (F := Ideal) (blk A0 (pt i)) (blk A1 (pt i)) (blk A2 (pt i)) A3 A5 A4 (loc i) = Cert.Gnn.sage1 A0 A2 cc A3 A5 bl i := by
  refine (k1_pay1_apply _ _ _ _ _ _ (loc i 0) (loc i 1)).trans ?_
  have e1 : blk A1 (pt i) (ix2 (loc i 0) (0 : Fin 1)) = Ideal.div 1 (cc (ix1 (Cert.Gnn.row i))) :=
    (blk_pt_row A1 i (0 : Fin 1)).trans (hinv (Cert.Gnn.row i))
  have e4 : A4 (ix2 (0 : Fin 1) (loc i 1)) = bl (ix1 (Cert.Gnn.col i)) := hbl (Cert.Gnn.col i)
  rw [e1, e4]
  simp only [blk_pt_row, Cert.Gnn.mul_one_div _ _ (hcc (Cert.Gnn.row i))]
  rfl

/-- A later layer's body on the block of node `i`, at `i`'s place. -/
theorem sageR_at (A0 : Arr2 100000 64) (A1 : Arr2 100000 1) (A2 : Arr2 100000 64) (A3 A5 : Arr2 64 64) (A4 : Arr2 1 64)
    (cc : Arr1 100000) (bl : Arr1 64)
    (hinv : ∀ i : Fin 100000, A1 (ix2 i (0 : Fin 1)) = Ideal.div 1 (cc (ix1 i))) (hcc : ∀ i : Fin 100000, cc (ix1 i) ≠ 0)
    (hbl : ∀ j : Fin 64, A4 (ix2 (0 : Fin 1) j) = bl (ix1 j)) (i : (⟨2, ![100000, 64]⟩ : Shape).Idx) :
    k2_pay1 (F := Ideal) (blk A0 (pt i)) (blk A1 (pt i)) (blk A2 (pt i)) A3 A5 A4 (loc i) = Cert.Gnn.sageR A0 A2 cc A3 A5 bl i := by
  refine (k2_pay1_apply _ _ _ _ _ _ (loc i 0) (loc i 1)).trans ?_
  have e1 : blk A1 (pt i) (ix2 (loc i 0) (0 : Fin 1)) = Ideal.div 1 (cc (ix1 (Cert.Gnn.row i))) :=
    (blk_pt_row A1 i (0 : Fin 1)).trans (hinv (Cert.Gnn.row i))
  have e4 : A4 (ix2 (0 : Fin 1) (loc i 1)) = bl (ix1 (Cert.Gnn.col i)) := hbl (Cert.Gnn.col i)
  have e2 : blk A2 (pt i) (ix2 (loc i 0) (loc i 1)) = A2 (ix2 (Cert.Gnn.row i) (Cert.Gnn.col i)) := blk_pt_loc A2 i |>.trans (congrArg A2 (Cert.Gnn.ix2_row_col i).symm)
  rw [e1, e4, e2]
  simp only [blk_pt_row, Cert.Gnn.mul_one_div _ _ (hcc (Cert.Gnn.row i))]
  rfl

/-- The third layer's body with the read-out on the block of node `i`, at `i`'s row. -/
theorem fc_at (A0 : Arr2 100000 64) (A1 : Arr2 100000 1) (A2 : Arr2 100000 64) (A3 A5 : Arr2 64 64) (A4 : Arr2 1 64)
    (A6 : Arr2 64 1) (A7 : Arr2 1 1) (cc : Arr1 100000) (bl : Arr1 64) (bfc : Arr1 1)
    (hinv : ∀ i : Fin 100000, A1 (ix2 i (0 : Fin 1)) = Ideal.div 1 (cc (ix1 i))) (hcc : ∀ i : Fin 100000, cc (ix1 i) ≠ 0)
    (hbl : ∀ j : Fin 64, A4 (ix2 (0 : Fin 1) j) = bl (ix1 j)) (hbfc : A7 (ix2 (0 : Fin 1) (0 : Fin 1)) = bfc (ix1 (0 : Fin 1)))
    (i : Fin 100000) :
    k3_pay1 (F := Ideal) (blk A0 (pt (D := 1) (ix2 i (0 : Fin 1)))) (blk A1 (pt (D := 1) (ix2 i (0 : Fin 1)))) (blk A2 (pt (D := 1) (ix2 i (0 : Fin 1)))) A3 A5 A4 A6 A7 (loc (ix2 i (0 : Fin 1)))
      = Cert.Gnn.fc (Cert.Gnn.sageR A0 A2 cc A3 A5 bl) A6 bfc (ix1 i) := by
  refine (k3_pay1_apply _ _ _ _ _ _ _ _ (loc (D := 1) (ix2 i (0 : Fin 1)) 0) (0 : Fin 1)).trans ?_
  have e1 : blk A1 (pt (D := 1) (ix2 i (0 : Fin 1))) (ix2 (loc (D := 1) (ix2 i (0 : Fin 1)) 0) (0 : Fin 1)) = Ideal.div 1 (cc (ix1 i)) :=
    (blk_pt_row A1 (ix2 i (0 : Fin 1)) (0 : Fin 1)).trans (hinv i)
  rw [e1, hbfc]
  simp only [blk_pt_row, hbl, Cert.Gnn.mul_one_div _ _ (hcc i)]
  rfl

/-! ## The arrays the kernels leave -/

variable (V : (c : Dev nD) → (b : Ref sig .tc) → Buf (Elt Ideal) ((c : Thread nD τ).loc b))

/-- Region 0: both outputs are the 17-column node state. -/
theorem stage0 (c : Dev nD) (be g b : Arr1 8)
    (hbe : ∀ k : Fin 8, V c (Pipeline.arrRef spec0 2) (ix2 (0 : Fin 1) k) = be (ix1 k))
    (hg : ∀ k : Fin 8, V c (Pipeline.arrRef spec0 3) (ix2 (0 : Fin 1) k) = g (ix1 k))
    (hb : ∀ k : Fin 8, V c (Pipeline.arrRef spec0 4) (ix2 (0 : Fin 1) k) = b (ix1 k)) :
    (dat0 V c).arrAt 5 cfg0.N = Cert.Gnn.h0 (V c (Pipeline.arrRef spec0 0)) (V c (Pipeline.arrRef spec0 1)) be g b
    ∧ (dat0 V c).arrAt 6 cfg0.N = Cert.Gnn.h0 (V c (Pipeline.arrRef spec0 0)) (V c (Pipeline.arrRef spec0 1)) be g b := by
  refine ⟨funext fun i => ?_, funext fun i => ?_⟩
  · rw [arr0_5_arrays, out0_5_eq]
    exact embed_at _ _ _ _ _ be g b hbe hg hb i
  · rw [arr0_6_arrays, out0_6_eq]
    exact embed_at _ _ _ _ _ be g b hbe hg hb i

/-- Region 1: both outputs are the first layer. -/
theorem stage1 (c : Dev nD) (cc : Arr1 100000) (bl : Arr1 64)
    (hinv : ∀ i : Fin 100000, V c (Pipeline.arrRef spec1 1) (ix2 i (0 : Fin 1)) = Ideal.div 1 (cc (ix1 i)))
    (hcc : ∀ i : Fin 100000, cc (ix1 i) ≠ 0)
    (hbl : ∀ j : Fin 64, V c (Pipeline.arrRef spec1 4) (ix2 (0 : Fin 1) j) = bl (ix1 j)) :
    (dat1 V c).arrAt 6 cfg1.N = Cert.Gnn.sage1 (V c (Pipeline.arrRef spec1 0)) (V c (Pipeline.arrRef spec1 2)) cc (V c (Pipeline.arrRef spec1 3)) (V c (Pipeline.arrRef spec1 5)) bl
    ∧ (dat1 V c).arrAt 7 cfg1.N = Cert.Gnn.sage1 (V c (Pipeline.arrRef spec1 0)) (V c (Pipeline.arrRef spec1 2)) cc (V c (Pipeline.arrRef spec1 3)) (V c (Pipeline.arrRef spec1 5)) bl := by
  refine ⟨funext fun i => ?_, funext fun i => ?_⟩
  · rw [arr1_6_arrays, out1_6_eq]
    exact sage1_at _ _ _ _ _ _ cc bl hinv hcc hbl i
  · rw [arr1_7_arrays, out1_7_eq]
    exact sage1_at _ _ _ _ _ _ cc bl hinv hcc hbl i

/-- Region 2: both outputs are the second layer. -/
theorem stage2 (c : Dev nD) (cc : Arr1 100000) (bl : Arr1 64)
    (hinv : ∀ i : Fin 100000, V c (Pipeline.arrRef spec2 1) (ix2 i (0 : Fin 1)) = Ideal.div 1 (cc (ix1 i)))
    (hcc : ∀ i : Fin 100000, cc (ix1 i) ≠ 0)
    (hbl : ∀ j : Fin 64, V c (Pipeline.arrRef spec2 4) (ix2 (0 : Fin 1) j) = bl (ix1 j)) :
    (dat2 V c).arrAt 6 cfg2.N = Cert.Gnn.sageR (V c (Pipeline.arrRef spec2 0)) (V c (Pipeline.arrRef spec2 2)) cc (V c (Pipeline.arrRef spec2 3)) (V c (Pipeline.arrRef spec2 5)) bl
    ∧ (dat2 V c).arrAt 7 cfg2.N = Cert.Gnn.sageR (V c (Pipeline.arrRef spec2 0)) (V c (Pipeline.arrRef spec2 2)) cc (V c (Pipeline.arrRef spec2 3)) (V c (Pipeline.arrRef spec2 5)) bl := by
  refine ⟨funext fun i => ?_, funext fun i => ?_⟩
  · rw [arr2_6_arrays, out2_6_eq]
    exact sageR_at _ _ _ _ _ _ cc bl hinv hcc hbl i
  · rw [arr2_7_arrays, out2_7_eq]
    exact sageR_at _ _ _ _ _ _ cc bl hinv hcc hbl i

/-- Region 3: the output column is the read-out of the third layer. -/
theorem stage3 (c : Dev nD) (cc : Arr1 100000) (bl : Arr1 64) (bfc : Arr1 1)
    (hinv : ∀ i : Fin 100000, V c (Pipeline.arrRef spec3 1) (ix2 i (0 : Fin 1)) = Ideal.div 1 (cc (ix1 i)))
    (hcc : ∀ i : Fin 100000, cc (ix1 i) ≠ 0)
    (hbl : ∀ j : Fin 64, V c (Pipeline.arrRef spec3 4) (ix2 (0 : Fin 1) j) = bl (ix1 j))
    (hbfc : V c (Pipeline.arrRef spec3 7) (ix2 (0 : Fin 1) (0 : Fin 1)) = bfc (ix1 (0 : Fin 1))) :
    ∀ i : Fin 100000, (dat3 V c).arrAt 8 cfg3.N (ix2 i (0 : Fin 1))
      = Cert.Gnn.fc (Cert.Gnn.sageR (V c (Pipeline.arrRef spec3 0)) (V c (Pipeline.arrRef spec3 2)) cc (V c (Pipeline.arrRef spec3 3)) (V c (Pipeline.arrRef spec3 5)) bl) (V c (Pipeline.arrRef spec3 6)) bfc (ix1 i) := by
  intro i
  rw [arr3_8_arrays, out3_8_eq]
  exact fc_at _ _ _ _ _ _ _ _ cc bl bfc hinv hcc hbl hbfc i

end Cert.KernelIdeal.Stage

end
-- ==== Proof.KerOut.lean ====
/- The kernel program's result as the network of the specification: each region's output arrays are the network's
   states over the program's own neighbour sums and clamped in-degrees, read at the launch contents of the arguments;
   the result is the read-out of the third layer's states. -/
import proofs.«140343_j90855738180235_2_alg».proof.Proof.KerReads
import proofs.«140343_j90855738180235_2_alg».proof.Proof.Spec
import proofs.«140343_j90855738180235_2_alg».proof.Proof.KerStage
import Idealize.ShloMosaic.Lib.ValueLayout
import Idealize.ShloMosaic.Lib.IdealHost
import Idealize.ShloMosaic.Lib.Pipeline.Value

set_option maxRecDepth 16384

noncomputable section

namespace Cert.KernelIdeal.Out

open Idealize.ShloMosaic Idealize.ShloMosaic.TcCoe Idealize.ShloMosaic.ValueIdx
open Idealize.SL Idealize.SL.Sem
open Cert.KernelIdeal Cert.KernelIdeal.Gen
open Cert.Gnn (Arr1 Arr2)

variable (m : (ℓ : Loc nD τ sig) → Buf (Elt Ideal) ℓ) (ρ : Dev nD → PrngReg)

/-- Each node's in-degree, at least one: one added per edge at the edge's destination from zero, then the maximum with one. -/
def kcnt (d : Vec Ideal S3200000 .i32) : Vec Ideal S100000 .f32 :=
  maximumf
    (Host.scatterAdd scatter_S100000_S3200000x1_S3200000_n_0_0_1
      (broadcastInDim S100000 ![] bcast_S_S100000 (constant (F := Ideal) S_ .f32 0x00000000#32))
      (Reads.dstIdx (F := Ideal) d)
      (broadcastInDim S3200000 ![] bcast_S_S3200000 (constant (F := Ideal) S_ .f32 0x3F800000#32)))
    (broadcastInDim S100000 ![] bcast_S_S100000 (constant (F := Ideal) S_ .f32 0x3F800000#32))

/-! ## Small reads -/

/-- The word of `1.0` denotes one. -/
theorem ofBits_one : Ideal.ofBits .f32 0x3F800000#32 = 1 := by
  simp [Ideal.ofBits, Ideal.ieee, -EReal.coe_mul]; norm_num

/-- A column flattened, read at an index, is the column at that row. -/
theorem shapeCast_a1_a_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- One over a vector, as a column, read at a row. -/
theorem inv_col_apply (k : Vec Ideal S100000 .f32) (i : Fin 100000) :
    (broadcastInDim S100000x1 ![0] bcast_S100000_S100000x1_0
        (Host.divf (broadcastInDim S100000 ![] bcast_S_S100000 (constant (F := Ideal) S_ .f32 0x3F800000#32)) k)
      : Arr2 100000 1) (ix2 i (0 : Fin 1)) = Ideal.div 1 (k (ix1 i)) := by
  rw [broadcastInDim_apply (![0] : Fin 1 → Fin 2) bcast_S100000_S100000x1_0 _ (ix2 i (0 : Fin 1)) (ix1 i)
    (fun a => by
      have ha : a = (0 : Fin 1) := Subsingleton.elim _ _
      subst ha
      rfl)]
  rw [hostDivf_apply, broadcastInDim_scalar_apply, constant_apply, ofBits_one]

/-- The maximum with one is not zero. -/
theorem max_one_ne_zero (s : Vec Ideal S100000 .f32) (i : Fin 100000) :
    maximumf s (broadcastInDim S100000 ![] bcast_S_S100000 (constant (F := Ideal) S_ .f32 0x3F800000#32)) (ix1 i) ≠ 0 := by
  rw [maximumf_apply, broadcastInDim_scalar_apply, constant_apply, ofBits_one]
  exact ne_of_gt (lt_of_lt_of_le zero_lt_one (le_max_right _ _))

/-- The mean's weight at a node is one over the node's clamped in-degree. -/
theorem invCnt_apply (d : Vec Ideal S3200000 .i32) (i : Fin 100000) :
    (Reads.invCnt (F := Ideal) d : Arr2 100000 1) (ix2 i (0 : Fin 1)) = Ideal.div 1 (kcnt d (ix1 i)) :=
  inv_col_apply (kcnt d) i

/-- The clamped in-degree is at least one, so it is not zero. -/
theorem kcnt_ne_zero (d : Vec Ideal S3200000 .i32) (i : Fin 100000) : kcnt d (ix1 i) ≠ 0 :=
  max_one_ne_zero _ i

/-! ## The network's states along the kernel program -/

/-- The node states after the embedding region. -/
def H0 (c : Dev nD) : Arr2 100000 17 :=
  Cert.Gnn.h0 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
/-- After the first graph layer. -/
def H1 (c : Dev nD) : Arr2 100000 64 :=
  Cert.Gnn.sage1 (Reads.agg17 (F := Ideal) (H0 m c) (Reads.srcRow (F := Ideal) (m ((c.tc : Thread nD τ).loc main_arg1))) (Reads.dstRow (F := Ideal) (m ((c.tc : Thread nD τ).loc main_arg1)))) (H0 m c) (kcnt (Reads.dstRow (F := Ideal) (m ((c.tc : Thread nD τ).loc main_arg1)))) (m ((c.tc : Thread nD τ).loc main_arg6)) (m ((c.tc : Thread nD τ).loc main_arg8)) (m ((c.tc : Thread nD τ).loc main_arg7))
/-- After the second graph layer. -/
def H2 (c : Dev nD) : Arr2 100000 64 :=
  Cert.Gnn.sageR (Reads.agg64 (F := Ideal) (H1 m c) (Reads.srcRow (F := Ideal) (m ((c.tc : Thread nD τ).loc main_arg1))) (Reads.dstRow (F := Ideal) (m ((c.tc : Thread nD τ).loc main_arg1)))) (H1 m c) (kcnt (Reads.dstRow (F := Ideal) (m ((c.tc : Thread nD τ).loc main_arg1)))) (m ((c.tc : Thread nD τ).loc main_arg9)) (m ((c.tc : Thread nD τ).loc main_arg11)) (m ((c.tc : Thread nD τ).loc main_arg10))
/-- After the third graph layer. -/
def H3 (c : Dev nD) : Arr2 100000 64 :=
  Cert.Gnn.sageR (Reads.agg64 (F := Ideal) (H2 m c) (Reads.srcRow (F := Ideal) (m ((c.tc : Thread nD τ).loc main_arg1))) (Reads.dstRow (F := Ideal) (m ((c.tc : Thread nD τ).loc main_arg1)))) (H2 m c) (kcnt (Reads.dstRow (F := Ideal) (m ((c.tc : Thread nD τ).loc main_arg1)))) (m ((c.tc : Thread nD τ).loc main_arg12)) (m ((c.tc : Thread nD τ).loc main_arg14)) (m ((c.tc : Thread nD τ).loc main_arg13))

/-- Region 0 leaves the node states in both of its outputs. -/
theorem reg0 (c : Dev nD) : ((Gen.dat0 (Gen.V1 m ρ) c).arrAt 5 cfg0.N : Arr2 100000 17) = H0 m c ∧ ((Gen.dat0 (Gen.V1 m ρ) c).arrAt 6 cfg0.N : Arr2 100000 17) = H0 m c := by
  have h : ((Gen.dat0 (Gen.V1 m ρ) c).arrAt 5 cfg0.N : Arr2 100000 17) = Cert.Gnn.h0 (Gen.V1 m ρ c main_arg0 : Arr2 100000 35) (Gen.V1 m ρ c main_arg2 : Arr2 26 8) (m ((c.tc : Thread nD τ).loc main_arg3)) (m ((c.tc : Thread nD τ).loc main_arg4)) (m ((c.tc : Thread nD τ).loc main_arg5))
      ∧ ((Gen.dat0 (Gen.V1 m ρ) c).arrAt 6 cfg0.N : Arr2 100000 17) = Cert.Gnn.h0 (Gen.V1 m ρ c main_arg0 : Arr2 100000 35) (Gen.V1 m ρ c main_arg2 : Arr2 26 8) (m ((c.tc : Thread nD τ).loc main_arg3)) (m ((c.tc : Thread nD τ).loc main_arg4)) (m ((c.tc : Thread nD τ).loc main_arg5)) :=
    Stage.stage0 (Gen.V1 m ρ) c (m ((c.tc : Thread nD τ).loc main_arg3)) (m ((c.tc : Thread nD τ).loc main_arg4)) (m ((c.tc : Thread nD τ).loc main_arg5))
      (fun k => (congrFun (show (Gen.V1 m ρ c main_v13 : Arr2 1 8) = _ from Reads.V1_v13 m ρ c) _).trans (shapeCast_a_1a_apply _ _ _ k))
      (fun k => (congrFun (show (Gen.V1 m ρ c main_v14 : Arr2 1 8) = _ from Reads.V1_v14 m ρ c) _).trans (shapeCast_a_1a_apply _ _ _ k))
      (fun k => (congrFun (show (Gen.V1 m ρ c main_v15 : Arr2 1 8) = _ from Reads.V1_v15 m ρ c) _).trans (shapeCast_a_1a_apply _ _ _ k))
  rw [Reads.V1_arg0 m ρ c, Reads.V1_arg2 m ρ c] at h
  exact h

/-- Region 1 leaves the first layer's states in both of its outputs. -/
theorem reg1 (c : Dev nD) : ((Gen.dat1 (Gen.V3 m ρ) c).arrAt 6 cfg1.N : Arr2 100000 64) = H1 m c ∧ ((Gen.dat1 (Gen.V3 m ρ) c).arrAt 7 cfg1.N : Arr2 100000 64) = H1 m c := by
  have h : ((Gen.dat1 (Gen.V3 m ρ) c).arrAt 6 cfg1.N : Arr2 100000 64) = Cert.Gnn.sage1 (Gen.V3 m ρ c main_v27 : Arr2 100000 17) (Gen.V3 m ρ c main_v16_0 : Arr2 100000 17) (kcnt (Reads.dstRow (F := Ideal) (m ((c.tc : Thread nD τ).loc main_arg1)))) (Gen.V3 m ρ c main_arg6 : Arr2 17 64) (Gen.V3 m ρ c main_arg8 : Arr2 17 64) (m ((c.tc : Thread nD τ).loc main_arg7))
      ∧ ((Gen.dat1 (Gen.V3 m ρ) c).arrAt 7 cfg1.N : Arr2 100000 64) = Cert.Gnn.sage1 (Gen.V3 m ρ c main_v27 : Arr2 100000 17) (Gen.V3 m ρ c main_v16_0 : Arr2 100000 17) (kcnt (Reads.dstRow (F := Ideal) (m ((c.tc : Thread nD τ).loc main_arg1)))) (Gen.V3 m ρ c main_arg6 : Arr2 17 64) (Gen.V3 m ρ c main_arg8 : Arr2 17 64) (m ((c.tc : Thread nD τ).loc main_arg7)) :=
    Stage.stage1 (Gen.V3 m ρ) c (kcnt (Reads.dstRow (F := Ideal) (m ((c.tc : Thread nD τ).loc main_arg1)))) (m ((c.tc : Thread nD τ).loc main_arg7))
      (fun i => (congrFun (show (Gen.V3 m ρ c main_v12 : Arr2 100000 1) = _ from Reads.V3_v12 m ρ c) _).trans (invCnt_apply _ i))
      (fun i => kcnt_ne_zero _ i)
      (fun j => (congrFun (show (Gen.V3 m ρ c main_v28 : Arr2 1 64) = _ from Reads.V3_v28 m ρ c) _).trans (shapeCast_a_1a_apply _ _ _ j))
  rw [Reads.V3_v27 m ρ c, Reads.V3_v16_0 m ρ c, Reads.V3_arg6 m ρ c, Reads.V3_arg8 m ρ c, (reg0 m ρ c).1, (reg0 m ρ c).2] at h
  exact h

/-- Region 2 leaves the second layer's states in both of its outputs. -/
theorem reg2 (c : Dev nD) : ((Gen.dat2 (Gen.V5 m ρ) c).arrAt 6 cfg2.N : Arr2 100000 64) = H2 m c ∧ ((Gen.dat2 (Gen.V5 m ρ) c).arrAt 7 cfg2.N : Arr2 100000 64) = H2 m c := by
  have h : ((Gen.dat2 (Gen.V5 m ρ) c).arrAt 6 cfg2.N : Arr2 100000 64) = Cert.Gnn.sageR (Gen.V5 m ρ c main_v40 : Arr2 100000 64) (Gen.V5 m ρ c main_v29_0 : Arr2 100000 64) (kcnt (Reads.dstRow (F := Ideal) (m ((c.tc : Thread nD τ).loc main_arg1)))) (Gen.V5 m ρ c main_arg9 : Arr2 64 64) (Gen.V5 m ρ c main_arg11 : Arr2 64 64) (m ((c.tc : Thread nD τ).loc main_arg10))
      ∧ ((Gen.dat2 (Gen.V5 m ρ) c).arrAt 7 cfg2.N : Arr2 100000 64) = Cert.Gnn.sageR (Gen.V5 m ρ c main_v40 : Arr2 100000 64) (Gen.V5 m ρ c main_v29_0 : Arr2 100000 64) (kcnt (Reads.dstRow (F := Ideal) (m ((c.tc : Thread nD τ).loc main_arg1)))) (Gen.V5 m ρ c main_arg9 : Arr2 64 64) (Gen.V5 m ρ c main_arg11 : Arr2 64 64) (m ((c.tc : Thread nD τ).loc main_arg10)) :=
    Stage.stage2 (Gen.V5 m ρ) c (kcnt (Reads.dstRow (F := Ideal) (m ((c.tc : Thread nD τ).loc main_arg1)))) (m ((c.tc : Thread nD τ).loc main_arg10))
      (fun i => (congrFun (show (Gen.V5 m ρ c main_v12 : Arr2 100000 1) = _ from Reads.V5_v12 m ρ c) _).trans (invCnt_apply _ i))
      (fun i => kcnt_ne_zero _ i)
      (fun j => (congrFun (show (Gen.V5 m ρ c main_v41 : Arr2 1 64) = _ from Reads.V5_v41 m ρ c) _).trans (shapeCast_a_1a_apply _ _ _ j))
  rw [Reads.V5_v40 m ρ c, Reads.V5_v29_0 m ρ c, Reads.V5_arg9 m ρ c, Reads.V5_arg11 m ρ c, (reg1 m ρ c).1, (reg1 m ρ c).2] at h
  exact h

/-- Region 3 leaves the read-out of the third layer's states in its output column. -/
theorem reg3 (c : Dev nD) (i : Fin 100000) : ((Gen.dat3 (Gen.V7 m ρ) c).arrAt 8 cfg3.N : Arr2 100000 1) (ix2 i (0 : Fin 1))
    = Cert.Gnn.fc (H3 m c) (m ((c.tc : Thread nD τ).loc main_arg15)) (m ((c.tc : Thread nD τ).loc main_arg16)) (ix1 i) := by
  have h : ∀ i : Fin 100000, ((Gen.dat3 (Gen.V7 m ρ) c).arrAt 8 cfg3.N : Arr2 100000 1) (ix2 i (0 : Fin 1))
      = Cert.Gnn.fc (Cert.Gnn.sageR (Gen.V7 m ρ c main_v53 : Arr2 100000 64) (Gen.V7 m ρ c main_v42_0 : Arr2 100000 64) (kcnt (Reads.dstRow (F := Ideal) (m ((c.tc : Thread nD τ).loc main_arg1)))) (Gen.V7 m ρ c main_arg12 : Arr2 64 64) (Gen.V7 m ρ c main_arg14 : Arr2 64 64) (m ((c.tc : Thread nD τ).loc main_arg13))) (Gen.V7 m ρ c main_arg15 : Arr2 64 1) (m ((c.tc : Thread nD τ).loc main_arg16)) (ix1 i) :=
    Stage.stage3 (Gen.V7 m ρ) c (kcnt (Reads.dstRow (F := Ideal) (m ((c.tc : Thread nD τ).loc main_arg1)))) (m ((c.tc : Thread nD τ).loc main_arg13)) (m ((c.tc : Thread nD τ).loc main_arg16))
      (fun i => (congrFun (show (Gen.V7 m ρ c main_v12 : Arr2 100000 1) = _ from Reads.V7_v12 m ρ c) _).trans (invCnt_apply _ i))
      (fun i => kcnt_ne_zero _ i)
      (fun j => (congrFun (show (Gen.V7 m ρ c main_v54 : Arr2 1 64) = _ from Reads.V7_v54 m ρ c) _).trans (shapeCast_a_1a_apply _ _ _ j))
      ((congrFun (show (Gen.V7 m ρ c main_v55 : Arr2 1 1) = _ from Reads.V7_v55 m ρ c) _).trans (shapeCast_a_1a_apply _ _ _ (0 : Fin 1)))
  rw [Reads.V7_v53 m ρ c, Reads.V7_v42_0 m ρ c, Reads.V7_arg12 m ρ c, Reads.V7_arg14 m ρ c, Reads.V7_arg15 m ρ c, (reg2 m ρ c).1, (reg2 m ρ c).2] at h
  exact h i

/-! ## The result -/

/-- The kernel program's result is the network over its own aggregations and clamped in-degrees, at the launch
    contents of its arguments. -/
theorem ker_out (c : Dev nD) : Gen.W9 m ρ c (Proc.devRef .tc main_v57)
    = Cert.Gnn.out (fun h => Reads.agg17 (F := Ideal) h (Reads.srcRow (F := Ideal) (m ((c.tc : Thread nD τ).loc main_arg1))) (Reads.dstRow (F := Ideal) (m ((c.tc : Thread nD τ).loc main_arg1))))
        (fun h => Reads.agg64 (F := Ideal) h (Reads.srcRow (F := Ideal) (m ((c.tc : Thread nD τ).loc main_arg1))) (Reads.dstRow (F := Ideal) (m ((c.tc : Thread nD τ).loc main_arg1))))
        (kcnt (Reads.dstRow (F := Ideal) (m ((c.tc : Thread nD τ).loc main_arg1))))
        (m ((c.tc : Thread nD τ).loc main_arg0))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16)) := by
  rw [Reads.R_out m ρ c]
  funext j
  obtain ⟨i, rfl⟩ : ∃ i : Fin 100000, j = ix1 i := ⟨Cert.Gnn.pos j, (Cert.Gnn.ix1_pos j).symm⟩
  refine (shapeCast_a1_a_apply _ _ i).trans ((reg3 m ρ c i).trans ?_)
  rfl

end Cert.KernelIdeal.Out

end
-- ==== Proof.RefRun.lean ====
/-
  The reference program's run.  Its @main is a straight line of host operations: the calls of the three
  outlined functions (the variance with its select, and the positive part, three times) are unfolded at their
  call sites over the buffers each call names.  The line is cut at the ends of the four stages of the network —
  the embedding with its normalisation, and the three graph layers (the last with the read-out) — so that the
  contents of a buffer after the whole line is a composition of four folds.  From any memory with zero
  counters every weakly fair execution of @main terminates with every buffer at that fold of its launch contents.
-/
import proofs.«140343_j90855738180235_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The embedding stage: the edge rows and feature blocks sliced, the family block embedded and normalised
    along its eight coordinates (the variance's operations in the order its function runs them), the node state
    concatenated. -/
abbrev opsA : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.unary main_arg0 main_v4 ((extractStridedSlice S100000x6 ![0, 0] · slices_S100000x35_S100000x6_0_0) : (⟨S100000x35, .f32⟩ : BufTy).Contents (Elt F) → (⟨S100000x6, .f32⟩ : BufTy).Contents (Elt F)),
    StableHlo.unary main_arg0 main_v5 ((extractStridedSlice S100000x26 ![0, 6] · slices_S100000x35_S100000x26_0_6) : (⟨S100000x35, .f32⟩ : BufTy).Contents (Elt F) → (⟨S100000x26, .f32⟩ : BufTy).Contents (Elt F)),
    StableHlo.unary main_arg0 main_v6 ((extractStridedSlice S100000x3 ![0, 32] · slices_S100000x35_S100000x3_0_32) : (⟨S100000x35, .f32⟩ : BufTy).Contents (Elt F) → (⟨S100000x3, .f32⟩ : BufTy).Contents (Elt F)),
    StableHlo.binary main_v5 main_arg2 main_v7 ((fun l r => Host.dotGeneral dot_S100000x26_S26x8_S100000x8_1_0_0_1_n_n none l r) : (⟨S100000x26, .f32⟩ : BufTy).Contents (Elt F) → (⟨S26x8, .f32⟩ : BufTy).Contents (Elt F) → (⟨S100000x8, .f32⟩ : BufTy).Contents (Elt F)),
    StableHlo.unary main_arg3 main_v8 (broadcastInDim S1x8 ![1] bcast_S8_S1x8_1 : (⟨S8, .f32⟩ : BufTy).Contents (Elt F) → (⟨S1x8, .f32⟩ : BufTy).Contents (Elt F)),
    StableHlo.unary main_v8 main_v9 (broadcastInDim S100000x8 ![0, 1] bcast_S1x8_S100000x8_0_1 : (⟨S1x8, .f32⟩ : BufTy).Contents (Elt F) → (⟨S100000x8, .f32⟩ : BufTy).Contents (Elt F)),
    StableHlo.binary main_v7 main_v9 main_v10 (addf : (⟨S100000x8, .f32⟩ : BufTy).Contents (Elt F) → (⟨S100000x8, .f32⟩ : BufTy).Contents (Elt F) → (⟨S100000x8, .f32⟩ : BufTy).Contents (Elt F)),
    StableHlo.nullary main_cst (constant S_ .f32 0x00000000#32),
    StableHlo.binary main_v10 main_cst main_v11 ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_cst_0 (constant S_ .f32 0x41000000#32),
    StableHlo.unary main_cst_0 main_v13 (broadcastInDim S100000x1 ![] bcast_S_S100000x1 : (⟨S_, .f32⟩ : BufTy).Contents (Elt F) → (⟨S100000x1, .f32⟩ : BufTy).Contents (Elt F)),
    StableHlo.binary main_v12 main_v13 main_v14 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32),
    StableHlo.TRef.nullary main_call0.cst (constant S_ .f32 0x00000000#32),
    StableHlo.TRef.binary (.of main_v10 : TRef sig ⟨S100000x8, .f32⟩) main_call0.cst main_call0.v0 (fun x v => Host.reduceAdd x v reducesTo_S100000x8_S100000_d1 h_S_),
    StableHlo.TRef.unary main_call0.v0 main_call0.v1 (broadcastInDim S100000x1 ![0] bcast_S100000_S100000x1_0),
    StableHlo.TRef.nullary main_call0.cst_0 (constant S_ .f32 0x41000000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x8 ![0, 1] bcast_S100000x1_S100000x8_0_1),
    StableHlo.TRef.binary (.of main_v10 : TRef sig ⟨S100000x8, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x41000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x8_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b),
    StableHlo.unary main_v14 main_v16 (broadcastInDim S100000x8 ![0, 1] bcast_S100000x1_S100000x8_0_1 : (⟨S100000x1, .f32⟩ : BufTy).Contents (Elt F) → (⟨S100000x8, .f32⟩ : BufTy).Contents (Elt F)),
    StableHlo.binary main_v10 main_v16 main_v17 (subf : (⟨S100000x8, .f32⟩ : BufTy).Contents (Elt F) → (⟨S100000x8, .f32⟩ : BufTy).Contents (Elt F) → (⟨S100000x8, .f32⟩ : BufTy).Contents (Elt F)),
    StableHlo.nullary main_cst_1 (constant S_ .f32 0x3727C5AC#32),
    StableHlo.unary main_cst_1 main_v18 (broadcastInDim S100000x1 ![] bcast_S_S100000x1 : (⟨S_, .f32⟩ : BufTy).Contents (Elt F) → (⟨S100000x1, .f32⟩ : BufTy).Contents (Elt F)),
    StableHlo.binary main_v15 main_v18 main_v19 (addf : (⟨S100000x1, .f32⟩ : BufTy).Contents (Elt F) → (⟨S100000x1, .f32⟩ : BufTy).Contents (Elt F) → (⟨S100000x1, .f32⟩ : BufTy).Contents (Elt F)),
    StableHlo.unary main_v19 main_v20 (Host.rsqrt : (⟨S100000x1, .f32⟩ : BufTy).Contents (Elt F) → (⟨S100000x1, .f32⟩ : BufTy).Contents (Elt F)),
    StableHlo.unary main_v20 main_v21 (broadcastInDim S100000x8 ![0, 1] bcast_S100000x1_S100000x8_0_1 : (⟨S100000x1, .f32⟩ : BufTy).Contents (Elt F) → (⟨S100000x8, .f32⟩ : BufTy).Contents (Elt F)),
    StableHlo.binary main_v17 main_v21 main_v22 (mulf : (⟨S100000x8, .f32⟩ : BufTy).Contents (Elt F) → (⟨S100000x8, .f32⟩ : BufTy).Contents (Elt F) → (⟨S100000x8, .f32⟩ : BufTy).Contents (Elt F)),
    StableHlo.unary main_arg4 main_v23 (broadcastInDim S1x8 ![1] bcast_S8_S1x8_1 : (⟨S8, .f32⟩ : BufTy).Contents (Elt F) → (⟨S1x8, .f32⟩ : BufTy).Contents (Elt F)),
    StableHlo.unary main_v23 main_v24 (broadcastInDim S100000x8 ![0, 1] bcast_S1x8_S100000x8_0_1 : (⟨S1x8, .f32⟩ : BufTy).Contents (Elt F) → (⟨S100000x8, .f32⟩ : BufTy).Contents (Elt F)),
    StableHlo.binary main_v22 main_v24 main_v25 (mulf : (⟨S100000x8, .f32⟩ : BufTy).Contents (Elt F) → (⟨S100000x8, .f32⟩ : BufTy).Contents (Elt F) → (⟨S100000x8, .f32⟩ : BufTy).Contents (Elt F)),
    StableHlo.unary main_arg5 main_v26 (broadcastInDim S1x8 ![1] bcast_S8_S1x8_1 : (⟨S8, .f32⟩ : BufTy).Contents (Elt F) → (⟨S1x8, .f32⟩ : BufTy).Contents (Elt F)),
    StableHlo.unary main_v26 main_v27 (broadcastInDim S100000x8 ![0, 1] bcast_S1x8_S100000x8_0_1 : (⟨S1x8, .f32⟩ : BufTy).Contents (Elt F) → (⟨S100000x8, .f32⟩ : BufTy).Contents (Elt F)),
    StableHlo.binary main_v25 main_v27 main_v28 (addf : (⟨S100000x8, .f32⟩ : BufTy).Contents (Elt F) → (⟨S100000x8, .f32⟩ : BufTy).Contents (Elt F) → (⟨S100000x8, .f32⟩ : BufTy).Contents (Elt F)),
    StableHlo.nary ![main_v4, main_v28, main_v6] main_v29 (fun u => concatenate S100000x17 1 [⟨S100000x6, u 0⟩, ⟨S100000x8, u 1⟩, ⟨S100000x3, u 2⟩] concatenates_S100000x6_S100000x8_S100000x3_S100000x17_d1) ]

/-- The first graph layer: source indices normalised, neighbour rows gathered and summed at their
    destinations, in-degrees counted and clamped, the mean and the two matrix products, the positive part. -/
abbrev opsB : List (HloOp τ sig (Elt F)) :=
  [ StableHlo.nullary main_c_2 (constantI S_ 32 0#32),
    StableHlo.unary main_c_2 main_v30 (broadcastInDim S3200000 ![] bcast_S_S3200000 : (⟨S_, .i32⟩ : BufTy).Contents (Elt F) → (⟨S3200000, .i32⟩ : BufTy).Contents (Elt F)),
    StableHlo.binary main_v1 main_v30 main_v31 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v32 (broadcastInDim S3200000 ![] bcast_S_S3200000 : (⟨S_, .i32⟩ : BufTy).Contents (Elt F) → (⟨S3200000, .i32⟩ : BufTy).Contents (Elt F)),
    StableHlo.binary main_v1 main_v32 main_v33 (addi : (⟨S3200000, .i32⟩ : BufTy).Contents (Elt F) → (⟨S3200000, .i32⟩ : BufTy).Contents (Elt F) → (⟨S3200000, .i32⟩ : BufTy).Contents (Elt F)),
    StableHlo.ternary main_v31 main_v33 main_v1 main_v34 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v34 main_v35 (broadcastInDim S3200000x1 ![0] bcast_S3200000_S3200000x1_0 : (⟨S3200000, .i32⟩ : BufTy).Contents (Elt F) → (⟨S3200000x1, .i32⟩ : BufTy).Contents (Elt F)),
    StableHlo.binary main_v29 main_v35 main_v36 ((fun x i => Host.gather gather_S100000x17_S3200000x1_S3200000x17_1_0_n_n_0_1_117 x i) : (⟨S100000x17, .f32⟩ : BufTy).Contents (Elt F) → (⟨S3200000x1, .i32⟩ : BufTy).Contents (Elt F) → (⟨S3200000x17, .f32⟩ : BufTy).Contents (Elt F)),
    StableHlo.nullary main_cst_4 (constant S_ .f32 0x00000000#32),
    StableHlo.unary main_cst_4 main_v37 (broadcastInDim S100000x17 ![] bcast_S_S100000x17 : (⟨S_, .f32⟩ : BufTy).Contents (Elt F) → (⟨S100000x17, .f32⟩ : BufTy).Contents (Elt F)),
    StableHlo.unary main_v3 main_v38 (broadcastInDim S3200000x1 ![0] bcast_S3200000_S3200000x1_0 : (⟨S3200000, .i32⟩ : BufTy).Contents (Elt F) → (⟨S3200000x1, .i32⟩ : BufTy).Contents (Elt F)),
    StableHlo.ternary main_v37 main_v38 main_v36 main_v39 ((fun x i u => Host.scatterAdd scatter_S100000x17_S3200000x1_S3200000x17_1_0_0_1 x i u) : (⟨S100000x17, .f32⟩ : BufTy).Contents (Elt F) → (⟨S3200000x1, .i32⟩ : BufTy).Contents (Elt F) → (⟨S3200000x17, .f32⟩ : BufTy).Contents (Elt F) → (⟨S100000x17, .f32⟩ : BufTy).Contents (Elt F)),
    StableHlo.nullary main_cst_5 (constant S_ .f32 0x3F800000#32),
    StableHlo.unary main_cst_5 main_v40 (broadcastInDim S3200000 ![] bcast_S_S3200000 : (⟨S_, .f32⟩ : BufTy).Contents (Elt F) → (⟨S3200000, .f32⟩ : BufTy).Contents (Elt F)),
    StableHlo.nullary main_cst_6 (constant S_ .f32 0x00000000#32),
    StableHlo.unary main_cst_6 main_v41 (broadcastInDim S100000 ![] bcast_S_S100000 : (⟨S_, .f32⟩ : BufTy).Contents (Elt F) → (⟨S100000, .f32⟩ : BufTy).Contents (Elt F)),
    StableHlo.unary main_v3 main_v42 (broadcastInDim S3200000x1 ![0] bcast_S3200000_S3200000x1_0 : (⟨S3200000, .i32⟩ : BufTy).Contents (Elt F) → (⟨S3200000x1, .i32⟩ : BufTy).Contents (Elt F)),
    StableHlo.ternary main_v41 main_v42 main_v40 main_v43 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_7 (constant S_ .f32 0x3F800000#32),
    StableHlo.unary main_cst_7 main_v44 (broadcastInDim S100000 ![] bcast_S_S100000 : (⟨S_, .f32⟩ : BufTy).Contents (Elt F) → (⟨S100000, .f32⟩ : BufTy).Contents (Elt F)),
    StableHlo.binary main_v43 main_v44 main_v45 (maximumf : (⟨S100000, .f32⟩ : BufTy).Contents (Elt F) → (⟨S100000, .f32⟩ : BufTy).Contents (Elt F) → (⟨S100000, .f32⟩ : BufTy).Contents (Elt F)),
    StableHlo.unary main_v45 main_v46 (broadcastInDim S100000x1 ![0] bcast_S100000_S100000x1_0 : (⟨S100000, .f32⟩ : BufTy).Contents (Elt F) → (⟨S100000x1, .f32⟩ : BufTy).Contents (Elt F)),
    StableHlo.unary main_v46 main_v47 (broadcastInDim S100000x17 ![0, 1] bcast_S100000x1_S100000x17_0_1 : (⟨S100000x1, .f32⟩ : BufTy).Contents (Elt F) → (⟨S100000x17, .f32⟩ : BufTy).Contents (Elt F)),
    StableHlo.binary main_v39 main_v47 main_v48 (Host.divf : (⟨S100000x17, .f32⟩ : BufTy).Contents (Elt F) → (⟨S100000x17, .f32⟩ : BufTy).Contents (Elt F) → (⟨S100000x17, .f32⟩ : BufTy).Contents (Elt F)),
    StableHlo.binary main_v48 main_arg6 main_v49 ((fun l r => Host.dotGeneral dot_S100000x17_S17x64_S100000x64_1_0_0_1_n_n none l r) : (⟨S100000x17, .f32⟩ : BufTy).Contents (Elt F) → (⟨S17x64, .f32⟩ : BufTy).Contents (Elt F) → (⟨S100000x64, .f32⟩ : BufTy).Contents (Elt F)),
    StableHlo.unary main_arg7 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)),
    StableHlo.binary main_v29 main_arg8 main_v53 ((fun l r => Host.dotGeneral dot_S100000x17_S17x64_S100000x64_1_0_0_1_n_n none l r) : (⟨S100000x17, .f32⟩ : BufTy).Contents (Elt F) → (⟨S17x64, .f32⟩ : BufTy).Contents (Elt F) → (⟨S100000x64, .f32⟩ : BufTy).Contents (Elt F)),
    StableHlo.binary main_v52 main_v53 main_v54 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v54 : TRef sig ⟨S100000x64, .f32⟩) main_call1.v0 main_call1.v1 maximumf ]

/-- The second graph layer: the same at width 64, the node's own state added before the positive part. -/
abbrev opsC : List (HloOp τ sig (Elt F)) :=
  [ StableHlo.nullary main_c_8 (constantI S_ 32 0#32),
    StableHlo.unary main_c_8 main_v56 (broadcastInDim S3200000 ![] bcast_S_S3200000 : (⟨S_, .i32⟩ : BufTy).Contents (Elt F) → (⟨S3200000, .i32⟩ : BufTy).Contents (Elt F)),
    StableHlo.binary main_v1 main_v56 main_v57 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v58 (broadcastInDim S3200000 ![] bcast_S_S3200000 : (⟨S_, .i32⟩ : BufTy).Contents (Elt F) → (⟨S3200000, .i32⟩ : BufTy).Contents (Elt F)),
    StableHlo.binary main_v1 main_v58 main_v59 (addi : (⟨S3200000, .i32⟩ : BufTy).Contents (Elt F) → (⟨S3200000, .i32⟩ : BufTy).Contents (Elt F) → (⟨S3200000, .i32⟩ : BufTy).Contents (Elt F)),
    StableHlo.ternary main_v57 main_v59 main_v1 main_v60 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v60 main_v61 (broadcastInDim S3200000x1 ![0] bcast_S3200000_S3200000x1_0 : (⟨S3200000, .i32⟩ : BufTy).Contents (Elt F) → (⟨S3200000x1, .i32⟩ : BufTy).Contents (Elt F)),
    StableHlo.binary main_v55 main_v61 main_v62 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_10 (constant S_ .f32 0x00000000#32),
    StableHlo.unary main_cst_10 main_v63 (broadcastInDim S100000x64 ![] bcast_S_S100000x64 : (⟨S_, .f32⟩ : BufTy).Contents (Elt F) → (⟨S100000x64, .f32⟩ : BufTy).Contents (Elt F)),
    StableHlo.unary main_v3 main_v64 (broadcastInDim S3200000x1 ![0] bcast_S3200000_S3200000x1_0 : (⟨S3200000, .i32⟩ : BufTy).Contents (Elt F) → (⟨S3200000x1, .i32⟩ : BufTy).Contents (Elt F)),
    StableHlo.ternary main_v63 main_v64 main_v62 main_v65 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.nullary main_cst_11 (constant S_ .f32 0x3F800000#32),
    StableHlo.unary main_cst_11 main_v66 (broadcastInDim S3200000 ![] bcast_S_S3200000 : (⟨S_, .f32⟩ : BufTy).Contents (Elt F) → (⟨S3200000, .f32⟩ : BufTy).Contents (Elt F)),
    StableHlo.nullary main_cst_12 (constant S_ .f32 0x00000000#32),
    StableHlo.unary main_cst_12 main_v67 (broadcastInDim S100000 ![] bcast_S_S100000 : (⟨S_, .f32⟩ : BufTy).Contents (Elt F) → (⟨S100000, .f32⟩ : BufTy).Contents (Elt F)),
    StableHlo.unary main_v3 main_v68 (broadcastInDim S3200000x1 ![0] bcast_S3200000_S3200000x1_0 : (⟨S3200000, .i32⟩ : BufTy).Contents (Elt F) → (⟨S3200000x1, .i32⟩ : BufTy).Contents (Elt F)),
    StableHlo.ternary main_v67 main_v68 main_v66 main_v69 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_13 (constant S_ .f32 0x3F800000#32),
    StableHlo.unary main_cst_13 main_v70 (broadcastInDim S100000 ![] bcast_S_S100000 : (⟨S_, .f32⟩ : BufTy).Contents (Elt F) → (⟨S100000, .f32⟩ : BufTy).Contents (Elt F)),
    StableHlo.binary main_v69 main_v70 main_v71 (maximumf : (⟨S100000, .f32⟩ : BufTy).Contents (Elt F) → (⟨S100000, .f32⟩ : BufTy).Contents (Elt F) → (⟨S100000, .f32⟩ : BufTy).Contents (Elt F)),
    StableHlo.unary main_v71 main_v72 (broadcastInDim S100000x1 ![0] bcast_S100000_S100000x1_0 : (⟨S100000, .f32⟩ : BufTy).Contents (Elt F) → (⟨S100000x1, .f32⟩ : BufTy).Contents (Elt F)),
    StableHlo.unary main_v72 main_v73 (broadcastInDim S100000x64 ![0, 1] bcast_S100000x1_S100000x64_0_1 : (⟨S100000x1, .f32⟩ : BufTy).Contents (Elt F) → (⟨S100000x64, .f32⟩ : BufTy).Contents (Elt F)),
    StableHlo.binary main_v65 main_v73 main_v74 (Host.divf : (⟨S100000x64, .f32⟩ : BufTy).Contents (Elt F) → (⟨S100000x64, .f32⟩ : BufTy).Contents (Elt F) → (⟨S100000x64, .f32⟩ : BufTy).Contents (Elt F)),
    StableHlo.binary main_v74 main_arg9 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v75 main_v77 main_v78 (addf : (⟨S100000x64, .f32⟩ : BufTy).Contents (Elt F) → (⟨S100000x64, .f32⟩ : BufTy).Contents (Elt F) → (⟨S100000x64, .f32⟩ : BufTy).Contents (Elt F)),
    StableHlo.binary main_v55 main_arg11 main_v79 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v78 main_v79 main_v80 (addf : (⟨S100000x64, .f32⟩ : BufTy).Contents (Elt F) → (⟨S100000x64, .f32⟩ : BufTy).Contents (Elt F) → (⟨S100000x64, .f32⟩ : BufTy).Contents (Elt F)),
    StableHlo.binary main_v80 main_v55 main_v81 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v81 : TRef sig ⟨S100000x64, .f32⟩) main_call2.v0 main_call2.v1 maximumf ]

/-- The third graph layer and the read-out. -/
abbrev opsD : List (HloOp τ sig (Elt F)) :=
  [ StableHlo.nullary main_c_14 (constantI S_ 32 0#32),
    StableHlo.unary main_c_14 main_v83 (broadcastInDim S3200000 ![] bcast_S_S3200000 : (⟨S_, .i32⟩ : BufTy).Contents (Elt F) → (⟨S3200000, .i32⟩ : BufTy).Contents (Elt F)),
    StableHlo.binary main_v1 main_v83 main_v84 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 100000#32),
    StableHlo.unary main_c_15 main_v85 (broadcastInDim S3200000 ![] bcast_S_S3200000 : (⟨S_, .i32⟩ : BufTy).Contents (Elt F) → (⟨S3200000, .i32⟩ : BufTy).Contents (Elt F)),
    StableHlo.binary main_v1 main_v85 main_v86 (addi : (⟨S3200000, .i32⟩ : BufTy).Contents (Elt F) → (⟨S3200000, .i32⟩ : BufTy).Contents (Elt F) → (⟨S3200000, .i32⟩ : BufTy).Contents (Elt F)),
    StableHlo.ternary main_v84 main_v86 main_v1 main_v87 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v87 main_v88 (broadcastInDim S3200000x1 ![0] bcast_S3200000_S3200000x1_0 : (⟨S3200000, .i32⟩ : BufTy).Contents (Elt F) → (⟨S3200000x1, .i32⟩ : BufTy).Contents (Elt F)),
    StableHlo.binary main_v82 main_v88 main_v89 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_16 (constant S_ .f32 0x00000000#32),
    StableHlo.unary main_cst_16 main_v90 (broadcastInDim S100000x64 ![] bcast_S_S100000x64 : (⟨S_, .f32⟩ : BufTy).Contents (Elt F) → (⟨S100000x64, .f32⟩ : BufTy).Contents (Elt F)),
    StableHlo.unary main_v3 main_v91 (broadcastInDim S3200000x1 ![0] bcast_S3200000_S3200000x1_0 : (⟨S3200000, .i32⟩ : BufTy).Contents (Elt F) → (⟨S3200000x1, .i32⟩ : BufTy).Contents (Elt F)),
    StableHlo.ternary main_v90 main_v91 main_v89 main_v92 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.nullary main_cst_17 (constant S_ .f32 0x3F800000#32),
    StableHlo.unary main_cst_17 main_v93 (broadcastInDim S3200000 ![] bcast_S_S3200000 : (⟨S_, .f32⟩ : BufTy).Contents (Elt F) → (⟨S3200000, .f32⟩ : BufTy).Contents (Elt F)),
    StableHlo.nullary main_cst_18 (constant S_ .f32 0x00000000#32),
    StableHlo.unary main_cst_18 main_v94 (broadcastInDim S100000 ![] bcast_S_S100000 : (⟨S_, .f32⟩ : BufTy).Contents (Elt F) → (⟨S100000, .f32⟩ : BufTy).Contents (Elt F)),
    StableHlo.unary main_v3 main_v95 (broadcastInDim S3200000x1 ![0] bcast_S3200000_S3200000x1_0 : (⟨S3200000, .i32⟩ : BufTy).Contents (Elt F) → (⟨S3200000x1, .i32⟩ : BufTy).Contents (Elt F)),
    StableHlo.ternary main_v94 main_v95 main_v93 main_v96 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_19 (constant S_ .f32 0x3F800000#32),
    StableHlo.unary main_cst_19 main_v97 (broadcastInDim S100000 ![] bcast_S_S100000 : (⟨S_, .f32⟩ : BufTy).Contents (Elt F) → (⟨S100000, .f32⟩ : BufTy).Contents (Elt F)),
    StableHlo.binary main_v96 main_v97 main_v98 (maximumf : (⟨S100000, .f32⟩ : BufTy).Contents (Elt F) → (⟨S100000, .f32⟩ : BufTy).Contents (Elt F) → (⟨S100000, .f32⟩ : BufTy).Contents (Elt F)),
    StableHlo.unary main_v98 main_v99 (broadcastInDim S100000x1 ![0] bcast_S100000_S100000x1_0 : (⟨S100000, .f32⟩ : BufTy).Contents (Elt F) → (⟨S100000x1, .f32⟩ : BufTy).Contents (Elt F)),
    StableHlo.unary main_v99 main_v100 (broadcastInDim S100000x64 ![0, 1] bcast_S100000x1_S100000x64_0_1 : (⟨S100000x1, .f32⟩ : BufTy).Contents (Elt F) → (⟨S100000x64, .f32⟩ : BufTy).Contents (Elt F)),
    StableHlo.binary main_v92 main_v100 main_v101 (Host.divf : (⟨S100000x64, .f32⟩ : BufTy).Contents (Elt F) → (⟨S100000x64, .f32⟩ : BufTy).Contents (Elt F) → (⟨S100000x64, .f32⟩ : BufTy).Contents (Elt F)),
    StableHlo.binary main_v101 main_arg12 main_v102 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v104 main_v105 (addf : (⟨S100000x64, .f32⟩ : BufTy).Contents (Elt F) → (⟨S100000x64, .f32⟩ : BufTy).Contents (Elt F) → (⟨S100000x64, .f32⟩ : BufTy).Contents (Elt F)),
    StableHlo.binary main_v82 main_arg14 main_v106 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v105 main_v106 main_v107 (addf : (⟨S100000x64, .f32⟩ : BufTy).Contents (Elt F) → (⟨S100000x64, .f32⟩ : BufTy).Contents (Elt F) → (⟨S100000x64, .f32⟩ : BufTy).Contents (Elt F)),
    StableHlo.binary main_v107 main_v82 main_v108 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v108 : TRef sig ⟨S100000x64, .f32⟩) main_call3.v0 main_call3.v1 maximumf,
    StableHlo.binary main_v109 main_arg15 main_v110 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg16 main_v111 (broadcastInDim S1x1 ![1] bcast_S1_S1x1_1 : (⟨S1, .f32⟩ : BufTy).Contents (Elt F) → (⟨S1x1, .f32⟩ : BufTy).Contents (Elt F)),
    StableHlo.unary main_v111 main_v112 (broadcastInDim S100000x1 ![0, 1] bcast_S1x1_S100000x1_0_1 : (⟨S1x1, .f32⟩ : BufTy).Contents (Elt F) → (⟨S100000x1, .f32⟩ : BufTy).Contents (Elt F)),
    StableHlo.binary main_v110 main_v112 main_v113 (addf : (⟨S100000x1, .f32⟩ : BufTy).Contents (Elt F) → (⟨S100000x1, .f32⟩ : BufTy).Contents (Elt F) → (⟨S100000x1, .f32⟩ : BufTy).Contents (Elt F)),
    StableHlo.reshape main_v113 main_v114 rfl shapeCasts_S100000x1_S100000 ]

/-- @main's operations in order, the calls unfolded. -/
abbrev ops : List (HloOp τ sig (Elt F)) := opsA ++ (opsB ++ (opsC ++ opsD))

/-- Two lines run one after the other leave what the second leaves from what the first left. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem forall_app {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

-- one bind re-associated per statement: the rewriting under the chain recurses once per statement
set_option maxRecDepth 8192 in
set_option maxHeartbeats 4000000 in
/-- @main is that straight line: the three windows and the functions' definitions unfolded at their calls, both
    sides are one chain of steps once sequencing is reassociated. -/
theorem main_eq (c : Dev nD) : main (F := F) c = seq ops := by
  simp only [main, main_part0, main_part1, main_part2, fn_var.body, fn_where.body, fn_relu.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- A buffer of a list, as a set of one device buffer inside the list's. -/
theorem single_sub {Ws : List (Ref sig .tc)} {y : Ref sig .tc} (h : y ∈ Ws) :
    ({(Proc.devRef .tc y : DevRef τ sig)} : Finset (DevRef τ sig)) ⊆ (Ws.map (Proc.devRef (τ := τ) .tc)).toFinset :=
  Finset.singleton_subset_iff.2 (List.mem_toFinset.2 (List.mem_map_of_mem h))

theorem opsA_sub : (opsA : List (HloOp τ sig (Elt F))).Forall fun op => op.bufs ⊆ tcRefs τ sig :=
  ⟨unary_bufs_sub .., reshape_bufs_sub .., unary_bufs_sub .., reshape_bufs_sub .., unary_bufs_sub .., unary_bufs_sub ..,
    unary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nary_bufs_sub ..⟩

theorem opsA_fresh : ∀ op ∈ (opsA : List (HloOp τ sig (Elt F))), op.fresh = ∅ := by
  intro _ h; (repeat (cases h with | head => rfl | tail _ h => ?_)); exact nomatch h

/-- The buffers the stage writes, in order. -/
abbrev writesA : List (Ref sig .tc) :=
  [main_v0, main_v1, main_v2, main_v3, main_v4, main_v5, main_v6, main_v7, main_v8, main_v9,
   main_v10, main_cst, main_v11, main_v12, main_cst_0, main_v13, main_v14, main_c, main_call0_cst, main_call0_v0,
   main_call0_v1, main_call0_cst_0, main_call0_v2, main_call0_v3, main_call0_v4, main_call0_v5, main_call0_v6, main_call0_v7, main_call0_cst_1, main_call0_v8,
   main_call0_cst_2, main_call0_v9, main_call0_v10, main_call0_v11, main_call0_v12, main_call0_cst_3, main_call0_v13, main_call0_cst_4, main_call0_call0_v0, main_call0_call0_v1,
   main_v15, main_v16, main_v17, main_cst_1, main_v18, main_v19, main_v20, main_v21, main_v22, main_v23,
   main_v24, main_v25, main_v26, main_v27, main_v28, main_v29]

theorem opsA_writes : (opsA : List (HloOp τ sig (Elt F))).Forall fun op =>
    op.writes ⊆ (writesA.map (Proc.devRef (τ := τ) .tc)).toFinset :=
  ⟨single_sub (y := main_v0) (by decide), single_sub (y := main_v1) (by decide), single_sub (y := main_v2) (by decide),
    single_sub (y := main_v3) (by decide), single_sub (y := main_v4) (by decide), single_sub (y := main_v5) (by decide),
    single_sub (y := main_v6) (by decide), single_sub (y := main_v7) (by decide), single_sub (y := main_v8) (by decide),
    single_sub (y := main_v9) (by decide), single_sub (y := main_v10) (by decide), single_sub (y := main_cst) (by decide),
    single_sub (y := main_v11) (by decide), single_sub (y := main_v12) (by decide), single_sub (y := main_cst_0) (by decide),
    single_sub (y := main_v13) (by decide), single_sub (y := main_v14) (by decide), single_sub (y := main_c) (by decide),
    single_sub (y := main_call0_cst) (by decide), single_sub (y := main_call0_v0) (by decide), single_sub (y := main_call0_v1) (by decide),
    single_sub (y := main_call0_cst_0) (by decide), single_sub (y := main_call0_v2) (by decide), single_sub (y := main_call0_v3) (by decide),
    single_sub (y := main_call0_v4) (by decide), single_sub (y := main_call0_v5) (by decide), single_sub (y := main_call0_v6) (by decide),
    single_sub (y := main_call0_v7) (by decide), single_sub (y := main_call0_cst_1) (by decide), single_sub (y := main_call0_v8) (by decide),
    single_sub (y := main_call0_cst_2) (by decide), single_sub (y := main_call0_v9) (by decide), single_sub (y := main_call0_v10) (by decide),
    single_sub (y := main_call0_v11) (by decide), single_sub (y := main_call0_v12) (by decide), single_sub (y := main_call0_cst_3) (by decide),
    single_sub (y := main_call0_v13) (by decide), single_sub (y := main_call0_cst_4) (by decide), single_sub (y := main_call0_call0_v0) (by decide),
    single_sub (y := main_call0_call0_v1) (by decide), single_sub (y := main_v15) (by decide), single_sub (y := main_v16) (by decide),
    single_sub (y := main_v17) (by decide), single_sub (y := main_cst_1) (by decide), single_sub (y := main_v18) (by decide),
    single_sub (y := main_v19) (by decide), single_sub (y := main_v20) (by decide), single_sub (y := main_v21) (by decide),
    single_sub (y := main_v22) (by decide), single_sub (y := main_v23) (by decide), single_sub (y := main_v24) (by decide),
    single_sub (y := main_v25) (by decide), single_sub (y := main_v26) (by decide), single_sub (y := main_v27) (by decide),
    single_sub (y := main_v28) (by decide), single_sub (y := main_v29) (by decide)⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub .., binary_bufs_sub ..,
    binary_bufs_sub .., nullary_bufs_sub .., unary_bufs_sub .., binary_bufs_sub ..⟩

theorem opsB_fresh : ∀ op ∈ (opsB : List (HloOp τ sig (Elt F))), op.fresh = ∅ := by
  intro _ h; (repeat (cases h with | head => rfl | tail _ h => ?_)); exact nomatch h

/-- The buffers the stage writes, in order. -/
abbrev writesB : List (Ref sig .tc) :=
  [main_c_2, main_v30, main_v31, main_c_3, main_v32, main_v33, main_v34, main_v35, main_v36, main_cst_4,
   main_v37, main_v38, main_v39, main_cst_5, main_v40, main_cst_6, main_v41, main_v42, main_v43, main_cst_7,
   main_v44, main_v45, main_v46, main_v47, main_v48, main_v49, main_v50, main_v51, main_v52, main_v53,
   main_v54, main_call1_cst, main_call1_v0, main_v55]

theorem opsB_writes : (opsB : List (HloOp τ sig (Elt F))).Forall fun op =>
    op.writes ⊆ (writesB.map (Proc.devRef (τ := τ) .tc)).toFinset :=
  ⟨single_sub (y := main_c_2) (by decide), single_sub (y := main_v30) (by decide), single_sub (y := main_v31) (by decide),
    single_sub (y := main_c_3) (by decide), single_sub (y := main_v32) (by decide), single_sub (y := main_v33) (by decide),
    single_sub (y := main_v34) (by decide), single_sub (y := main_v35) (by decide), single_sub (y := main_v36) (by decide),
    single_sub (y := main_cst_4) (by decide), single_sub (y := main_v37) (by decide), single_sub (y := main_v38) (by decide),
    single_sub (y := main_v39) (by decide), single_sub (y := main_cst_5) (by decide), single_sub (y := main_v40) (by decide),
    single_sub (y := main_cst_6) (by decide), single_sub (y := main_v41) (by decide), single_sub (y := main_v42) (by decide),
    single_sub (y := main_v43) (by decide), single_sub (y := main_cst_7) (by decide), single_sub (y := main_v44) (by decide),
    single_sub (y := main_v45) (by decide), single_sub (y := main_v46) (by decide), single_sub (y := main_v47) (by decide),
    single_sub (y := main_v48) (by decide), single_sub (y := main_v49) (by decide), single_sub (y := main_v50) (by decide),
    single_sub (y := main_v51) (by decide), single_sub (y := main_v52) (by decide), single_sub (y := main_v53) (by decide),
    single_sub (y := main_v54) (by decide), single_sub (y := main_call1_cst) (by decide), single_sub (y := main_call1_v0) (by decide),
    single_sub (y := main_v55) (by decide)⟩

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub .., binary_bufs_sub ..,
    binary_bufs_sub .., binary_bufs_sub .., nullary_bufs_sub .., unary_bufs_sub .., binary_bufs_sub ..⟩

theorem opsC_fresh : ∀ op ∈ (opsC : List (HloOp τ sig (Elt F))), op.fresh = ∅ := by
  intro _ h; (repeat (cases h with | head => rfl | tail _ h => ?_)); exact nomatch h

/-- The buffers the stage writes, in order. -/
abbrev writesC : List (Ref sig .tc) :=
  [main_c_8, main_v56, main_v57, main_c_9, main_v58, main_v59, main_v60, main_v61, main_v62, main_cst_10,
   main_v63, main_v64, main_v65, main_cst_11, main_v66, main_cst_12, main_v67, main_v68, main_v69, main_cst_13,
   main_v70, main_v71, main_v72, main_v73, main_v74, main_v75, main_v76, main_v77, main_v78, main_v79,
   main_v80, main_v81, main_call2_cst, main_call2_v0, main_v82]

theorem opsC_writes : (opsC : List (HloOp τ sig (Elt F))).Forall fun op =>
    op.writes ⊆ (writesC.map (Proc.devRef (τ := τ) .tc)).toFinset :=
  ⟨single_sub (y := main_c_8) (by decide), single_sub (y := main_v56) (by decide), single_sub (y := main_v57) (by decide),
    single_sub (y := main_c_9) (by decide), single_sub (y := main_v58) (by decide), single_sub (y := main_v59) (by decide),
    single_sub (y := main_v60) (by decide), single_sub (y := main_v61) (by decide), single_sub (y := main_v62) (by decide),
    single_sub (y := main_cst_10) (by decide), single_sub (y := main_v63) (by decide), single_sub (y := main_v64) (by decide),
    single_sub (y := main_v65) (by decide), single_sub (y := main_cst_11) (by decide), single_sub (y := main_v66) (by decide),
    single_sub (y := main_cst_12) (by decide), single_sub (y := main_v67) (by decide), single_sub (y := main_v68) (by decide),
    single_sub (y := main_v69) (by decide), single_sub (y := main_cst_13) (by decide), single_sub (y := main_v70) (by decide),
    single_sub (y := main_v71) (by decide), single_sub (y := main_v72) (by decide), single_sub (y := main_v73) (by decide),
    single_sub (y := main_v74) (by decide), single_sub (y := main_v75) (by decide), single_sub (y := main_v76) (by decide),
    single_sub (y := main_v77) (by decide), single_sub (y := main_v78) (by decide), single_sub (y := main_v79) (by decide),
    single_sub (y := main_v80) (by decide), single_sub (y := main_v81) (by decide), single_sub (y := main_call2_cst) (by decide),
    single_sub (y := main_call2_v0) (by decide), single_sub (y := main_v82) (by decide)⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub .., binary_bufs_sub ..,
    binary_bufs_sub .., binary_bufs_sub .., nullary_bufs_sub .., unary_bufs_sub .., binary_bufs_sub .., binary_bufs_sub ..,
    unary_bufs_sub .., unary_bufs_sub .., binary_bufs_sub .., reshape_bufs_sub ..⟩

theorem opsD_fresh : ∀ op ∈ (opsD : List (HloOp τ sig (Elt F))), op.fresh = ∅ := by
  intro _ h; (repeat (cases h with | head => rfl | tail _ h => ?_)); exact nomatch h

/-- The buffers the stage writes, in order. -/
abbrev writesD : List (Ref sig .tc) :=
  [main_c_14, main_v83, main_v84, main_c_15, main_v85, main_v86, main_v87, main_v88, main_v89, main_cst_16,
   main_v90, main_v91, main_v92, main_cst_17, main_v93, main_cst_18, main_v94, main_v95, main_v96, main_cst_19,
   main_v97, main_v98, main_v99, main_v100, main_v101, main_v102, main_v103, main_v104, main_v105, main_v106,
   main_v107, main_v108, main_call3_cst, main_call3_v0, main_v109, main_v110, main_v111, main_v112, main_v113, main_v114]

theorem opsD_writes : (opsD : List (HloOp τ sig (Elt F))).Forall fun op =>
    op.writes ⊆ (writesD.map (Proc.devRef (τ := τ) .tc)).toFinset :=
  ⟨single_sub (y := main_c_14) (by decide), single_sub (y := main_v83) (by decide), single_sub (y := main_v84) (by decide),
    single_sub (y := main_c_15) (by decide), single_sub (y := main_v85) (by decide), single_sub (y := main_v86) (by decide),
    single_sub (y := main_v87) (by decide), single_sub (y := main_v88) (by decide), single_sub (y := main_v89) (by decide),
    single_sub (y := main_cst_16) (by decide), single_sub (y := main_v90) (by decide), single_sub (y := main_v91) (by decide),
    single_sub (y := main_v92) (by decide), single_sub (y := main_cst_17) (by decide), single_sub (y := main_v93) (by decide),
    single_sub (y := main_cst_18) (by decide), single_sub (y := main_v94) (by decide), single_sub (y := main_v95) (by decide),
    single_sub (y := main_v96) (by decide), single_sub (y := main_cst_19) (by decide), single_sub (y := main_v97) (by decide),
    single_sub (y := main_v98) (by decide), single_sub (y := main_v99) (by decide), single_sub (y := main_v100) (by decide),
    single_sub (y := main_v101) (by decide), single_sub (y := main_v102) (by decide), single_sub (y := main_v103) (by decide),
    single_sub (y := main_v104) (by decide), single_sub (y := main_v105) (by decide), single_sub (y := main_v106) (by decide),
    single_sub (y := main_v107) (by decide), single_sub (y := main_v108) (by decide), single_sub (y := main_call3_cst) (by decide),
    single_sub (y := main_call3_v0) (by decide), single_sub (y := main_v109) (by decide), single_sub (y := main_v110) (by decide),
    single_sub (y := main_v111) (by decide), single_sub (y := main_v112) (by decide), single_sub (y := main_v113) (by decide),
    single_sub (y := main_v114) (by decide)⟩

theorem ops_sub : (ops : List (HloOp τ sig (Elt F))).Forall fun op => op.bufs ⊆ tcRefs τ sig :=
  forall_app opsA_sub (forall_app opsB_sub (forall_app opsC_sub opsD_sub))

theorem ops_fresh : ∀ op ∈ (ops : List (HloOp τ sig (Elt F))), op.fresh = ∅ := fun op h =>
  (List.mem_append.1 h).elim (opsA_fresh op) fun h => (List.mem_append.1 h).elim (opsB_fresh op) fun h =>
    (List.mem_append.1 h).elim (opsC_fresh op) (opsD_fresh op)

/-- What a buffer holds after the whole line: the four stages' folds composed. -/
theorem after_ops (V : Valuation τ sig (Elt F)) :
    after ops V = after opsD (after opsC (after opsB (after opsA V))) := by
  rw [after_app, after_app, after_app]

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
/-
  The reference's four stages as functions of plain arrays, each the composition of the operations the
  program runs for it, in the program's order and with the program's literals: the two edge rows; the 17-column
  node state (feature blocks sliced, the family block embedded, normalised along its eight coordinates — mean,
  variance through its select, reciprocal square root, affine map — and concatenated back); the normalised source
  and the destination indices; the clamped in-degrees; the neighbour sums; the three graph layers; the read-out.
-/
import proofs.«140343_j90855738180235_2_alg».proof.Proof.Gen.ReferenceIdeal

noncomputable section

namespace Cert.ReferenceIdeal.RefRun

open Cert.ReferenceIdeal Cert.ReferenceIdeal.Gen Idealize.ShloMosaic

variable {F : FTy → Type} [FloatOps F]

/-- The source row of the edge table. -/
def refRow0 (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- The destination row of the edge table. -/
def refRow1 (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- The family embedding: feature columns 6 … 31 times the embedding matrix, plus the bias. -/
def refEmb (x : (⟨S100000x35, .f32⟩ : BufTy).Contents (Elt F)) (We : (⟨S26x8, .f32⟩ : BufTy).Contents (Elt F)) (be : (⟨S8, .f32⟩ : BufTy).Contents (Elt F)) : (⟨S100000x8, .f32⟩ : BufTy).Contents (Elt F) :=
  addf (Host.dotGeneral dot_S100000x26_S26x8_S100000x8_1_0_0_1_n_n none (extractStridedSlice S100000x26 ![0, 6] x slices_S100000x35_S100000x26_0_6) We) (broadcastInDim S100000x8 ![0, 1] bcast_S1x8_S100000x8_0_1 (broadcastInDim S1x8 ![1] bcast_S8_S1x8_1 be))

/-- The mean along the eight coordinates: the row sums from zero, divided by the word of 8.0. -/
def refMean (v : (⟨S100000x8, .f32⟩ : BufTy).Contents (Elt F)) : (⟨S100000x1, .f32⟩ : BufTy).Contents (Elt F) :=
  Host.divf (broadcastInDim S100000x1 ![0] bcast_S100000_S100000x1_0 (Host.reduceAdd v (constant (F := F) S_ .f32 0x00000000#32) reducesTo_S100000x8_S100000_d1 h_S_)) (broadcastInDim S100000x1 ![] bcast_S_S100000x1 (constant (F := F) S_ .f32 0x41000000#32))

/-- The rows centred at their means. -/
def refCentred (v : (⟨S100000x8, .f32⟩ : BufTy).Contents (Elt F)) : (⟨S100000x8, .f32⟩ : BufTy).Contents (Elt F) :=
  subf v (broadcastInDim S100000x8 ![0, 1] bcast_S100000x1_S100000x8_0_1 (refMean v))

/-- The variance along the eight coordinates: the centred squares' row sums divided by 8.0 less the correction 0,
    where that divisor is positive (it is), and the undefined value elsewhere. -/
def refVar (v : (⟨S100000x8, .f32⟩ : BufTy).Contents (Elt F)) : (⟨S100000x1, .f32⟩ : BufTy).Contents (Elt F) :=
  select (broadcastInDim S100000x1 ![] bcast_S_S100000x1 (cmpf .ogt (subf (constant (F := F) S_ .f32 0x41000000#32) (sitofp (F := F) .f32 (constantI S_ 32 0#32))) (constant (F := F) S_ .f32 0x00000000#32))) (Host.divf (broadcastInDim S100000x1 ![0] bcast_S100000_S100000x1_0 (Host.reduceAdd (mulf (refCentred v) (refCentred v)) (constant (F := F) S_ .f32 0x00000000#32) reducesTo_S100000x8_S100000_d1 h_S_)) (broadcastInDim S100000x1 ![] bcast_S_S100000x1 (subf (constant (F := F) S_ .f32 0x41000000#32) (sitofp (F := F) .f32 (constantI S_ 32 0#32))))) (broadcastInDim S100000x1 ![] bcast_S_S100000x1 (id (constant (F := F) S_ .f32 0x7FC00000#32)))

/-- The normalisation: centred, scaled by the reciprocal square root of the variance plus the small constant,
    then the affine map. -/
def refLn (v : (⟨S100000x8, .f32⟩ : BufTy).Contents (Elt F)) (g b : (⟨S8, .f32⟩ : BufTy).Contents (Elt F)) : (⟨S100000x8, .f32⟩ : BufTy).Contents (Elt F) :=
  addf (mulf (mulf (refCentred v) (broadcastInDim S100000x8 ![0, 1] bcast_S100000x1_S100000x8_0_1 (Host.rsqrt (addf (refVar v) (broadcastInDim S100000x1 ![] bcast_S_S100000x1 (constant (F := F) S_ .f32 0x3727C5AC#32)))))) (broadcastInDim S100000x8 ![0, 1] bcast_S1x8_S100000x8_0_1 (broadcastInDim S1x8 ![1] bcast_S8_S1x8_1 g))) (broadcastInDim S100000x8 ![0, 1] bcast_S1x8_S100000x8_0_1 (broadcastInDim S1x8 ![1] bcast_S8_S1x8_1 b))

/-- The node state: columns 0 … 5 of the features, the normalised embedding, columns 32 … 34. -/
def refEmbed (x : (⟨S100000x35, .f32⟩ : BufTy).Contents (Elt F)) (We : (⟨S26x8, .f32⟩ : BufTy).Contents (Elt F)) (be g b : (⟨S8, .f32⟩ : BufTy).Contents (Elt F)) : (⟨S100000x17, .f32⟩ : BufTy).Contents (Elt F) :=
  concatenate S100000x17 1 [⟨S100000x6, (extractStridedSlice S100000x6 ![0, 0] x slices_S100000x35_S100000x6_0_0)⟩, ⟨S100000x8, (refLn (refEmb x We be) g b)⟩, ⟨S100000x3, (extractStridedSlice S100000x3 ![0, 32] x slices_S100000x35_S100000x3_0_32)⟩] concatenates_S100000x6_S100000x8_S100000x3_S100000x17_d1

/-- The source indices, a negative one moved up by the number of nodes, as a column. -/
def refSrc (e : (⟨S2x3200000, .i32⟩ : BufTy).Contents (Elt F)) : (⟨S3200000x1, .i32⟩ : BufTy).Contents (Elt F) :=
  broadcastInDim S3200000x1 ![0] bcast_S3200000_S3200000x1_0 (select (cmpi .slt (refRow0 e) (broadcastInDim S3200000 ![] bcast_S_S3200000 (constantI S_ 32 0#32))) (addi (refRow0 e) (broadcastInDim S3200000 ![] bcast_S_S3200000 (constantI S_ 32 100000#32))) (refRow0 e))

/-- The destination indices as a column. -/
def refDst (e : (⟨S2x3200000, .i32⟩ : BufTy).Contents (Elt F)) : (⟨S3200000x1, .i32⟩ : BufTy).Contents (Elt F) :=
  broadcastInDim S3200000x1 ![0] bcast_S3200000_S3200000x1_0 (refRow1 e)

/-- The in-degrees (ones summed at the destinations from zero), clamped below by one. -/
def refCnt (e : (⟨S2x3200000, .i32⟩ : BufTy).Contents (Elt F)) : (⟨S100000, .f32⟩ : BufTy).Contents (Elt F) :=
  maximumf (Host.scatterAdd scatter_S100000_S3200000x1_S3200000_n_0_0_1 (broadcastInDim S100000 ![] bcast_S_S100000 (constant (F := F) S_ .f32 0x00000000#32)) (refDst e) (broadcastInDim S3200000 ![] bcast_S_S3200000 (constant (F := F) S_ .f32 0x3F800000#32))) (broadcastInDim S100000 ![] bcast_S_S100000 (constant (F := F) S_ .f32 0x3F800000#32))

/-- The neighbour sums at width 17: the rows gathered at the sources, summed at the destinations from zero. -/
def refAgg17 (h : (⟨S100000x17, .f32⟩ : BufTy).Contents (Elt F)) (e : (⟨S2x3200000, .i32⟩ : BufTy).Contents (Elt F)) : (⟨S100000x17, .f32⟩ : BufTy).Contents (Elt F) :=
  Host.scatterAdd scatter_S100000x17_S3200000x1_S3200000x17_1_0_0_1 (broadcastInDim S100000x17 ![] bcast_S_S100000x17 (constant (F := F) S_ .f32 0x00000000#32)) (refDst e) (Host.gather gather_S100000x17_S3200000x1_S3200000x17_1_0_n_n_0_1_117 h (refSrc e))

/-- The neighbour sums at width 64. -/
def refAgg64 (h : (⟨S100000x64, .f32⟩ : BufTy).Contents (Elt F)) (e : (⟨S2x3200000, .i32⟩ : BufTy).Contents (Elt F)) : (⟨S100000x64, .f32⟩ : BufTy).Contents (Elt F) :=
  Host.scatterAdd scatter_S100000x64_S3200000x1_S3200000x64_1_0_0_1 (broadcastInDim S100000x64 ![] bcast_S_S100000x64 (constant (F := F) S_ .f32 0x00000000#32)) (refDst e) (Host.gather gather_S100000x64_S3200000x1_S3200000x64_1_0_n_n_0_1_164 h (refSrc e))

/-- The first graph layer: the neighbour mean times the left matrix, plus the bias, plus the state times the right
    matrix; the positive part. -/
def refSage1 (h : (⟨S100000x17, .f32⟩ : BufTy).Contents (Elt F)) (e : (⟨S2x3200000, .i32⟩ : BufTy).Contents (Elt F)) (Wl : (⟨S17x64, .f32⟩ : BufTy).Contents (Elt F)) (bl : (⟨S64, .f32⟩ : BufTy).Contents (Elt F)) (Wr : (⟨S17x64, .f32⟩ : BufTy).Contents (Elt F)) : (⟨S100000x64, .f32⟩ : BufTy).Contents (Elt F) :=
  maximumf (addf (addf (Host.dotGeneral dot_S100000x17_S17x64_S100000x64_1_0_0_1_n_n none (Host.divf (refAgg17 h e) (broadcastInDim S100000x17 ![0, 1] bcast_S100000x1_S100000x17_0_1 (broadcastInDim S100000x1 ![0] bcast_S100000_S100000x1_0 (refCnt e)))) Wl) (broadcastInDim S100000x64 ![0, 1] bcast_S1x64_S100000x64_0_1 (broadcastInDim S1x64 ![1] bcast_S64_S1x64_1 bl))) (Host.dotGeneral dot_S100000x17_S17x64_S100000x64_1_0_0_1_n_n none h Wr)) (broadcastInDim S100000x64 ![] bcast_S_S100000x64 (constant (F := F) S_ .f32 0x00000000#32))

/-- A later graph layer: the same at width 64, the state added before the positive part. -/
def refSageR (h : (⟨S100000x64, .f32⟩ : BufTy).Contents (Elt F)) (e : (⟨S2x3200000, .i32⟩ : BufTy).Contents (Elt F)) (Wl : (⟨S64x64, .f32⟩ : BufTy).Contents (Elt F)) (bl : (⟨S64, .f32⟩ : BufTy).Contents (Elt F)) (Wr : (⟨S64x64, .f32⟩ : BufTy).Contents (Elt F)) : (⟨S100000x64, .f32⟩ : BufTy).Contents (Elt F) :=
  maximumf (addf (addf (addf (Host.dotGeneral dot_S100000x64_S64x64_S100000x64_1_0_0_1_n_n none (Host.divf (refAgg64 h e) (broadcastInDim S100000x64 ![0, 1] bcast_S100000x1_S100000x64_0_1 (broadcastInDim S100000x1 ![0] bcast_S100000_S100000x1_0 (refCnt e)))) Wl) (broadcastInDim S100000x64 ![0, 1] bcast_S1x64_S100000x64_0_1 (broadcastInDim S1x64 ![1] bcast_S64_S1x64_1 bl))) (Host.dotGeneral dot_S100000x64_S64x64_S100000x64_1_0_0_1_n_n none h Wr)) h) (broadcastInDim S100000x64 ![] bcast_S_S100000x64 (constant (F := F) S_ .f32 0x00000000#32))

/-- The read-out: the state times the 64 → 1 matrix plus the bias, as a vector. -/
def refFc (h : (⟨S100000x64, .f32⟩ : BufTy).Contents (Elt F)) (Wfc : (⟨S64x1, .f32⟩ : BufTy).Contents (Elt F)) (bfc : (⟨S1, .f32⟩ : BufTy).Contents (Elt F)) : (⟨S100000, .f32⟩ : BufTy).Contents (Elt F) :=
  shapeCast S100000 (addf (Host.dotGeneral dot_S100000x64_S64x1_S100000x1_1_0_0_1_n_n none h Wfc) (broadcastInDim S100000x1 ![0, 1] bcast_S1x1_S100000x1_0_1 (broadcastInDim S1x1 ![1] bcast_S1_S1x1_1 bfc))) shapeCasts_S100000x1_S100000

/-- The whole reference. -/
def refOut (x : (⟨S100000x35, .f32⟩ : BufTy).Contents (Elt F)) (e : (⟨S2x3200000, .i32⟩ : BufTy).Contents (Elt F)) (We : (⟨S26x8, .f32⟩ : BufTy).Contents (Elt F)) (be g b : (⟨S8, .f32⟩ : BufTy).Contents (Elt F))
    (Wl1 : (⟨S17x64, .f32⟩ : BufTy).Contents (Elt F)) (bl1 : (⟨S64, .f32⟩ : BufTy).Contents (Elt F)) (Wr1 : (⟨S17x64, .f32⟩ : BufTy).Contents (Elt F))
    (Wl2 : (⟨S64x64, .f32⟩ : BufTy).Contents (Elt F)) (bl2 : (⟨S64, .f32⟩ : BufTy).Contents (Elt F)) (Wr2 : (⟨S64x64, .f32⟩ : BufTy).Contents (Elt F))
    (Wl3 : (⟨S64x64, .f32⟩ : BufTy).Contents (Elt F)) (bl3 : (⟨S64, .f32⟩ : BufTy).Contents (Elt F)) (Wr3 : (⟨S64x64, .f32⟩ : BufTy).Contents (Elt F))
    (Wfc : (⟨S64x1, .f32⟩ : BufTy).Contents (Elt F)) (bfc : (⟨S1, .f32⟩ : BufTy).Contents (Elt F)) : (⟨S100000, .f32⟩ : BufTy).Contents (Elt F) :=
  refFc (refSageR (refSageR (refSage1 (refEmbed x We be g b) e Wl1 bl1 Wr1) e Wl2 bl2 Wr2) e Wl3 bl3 Wr3) Wfc bfc

end Cert.ReferenceIdeal.RefRun

end
-- ==== Proof.RefValue.lean ====
/-
  What the reference's result buffer holds after its run, as the stage functions of the launch contents: the
  fold of each stage's operations read at the stage's result buffer is the stage function of what the stage
  reads, and a buffer a stage does not write is left as it was.
-/
import proofs.«140343_j90855738180235_2_alg».proof.Proof.RefRun
import proofs.«140343_j90855738180235_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The three operands of the concatenation, each at its own position. -/
theorem vec3_0 (a b c : Ref sig .tc) : (![a, b, c] : Fin 3 → Ref sig .tc) 0 = a := rfl
theorem vec3_1 (a b c : Ref sig .tc) : (![a, b, c] : Fin 3 → Ref sig .tc) 1 = b := rfl
theorem vec3_2 (a b c : Ref sig .tc) : (![a, b, c] : Fin 3 → Ref sig .tc) 2 = c := rfl

/-- One pass over a stage's fold: each operation's result at its own buffer is its function's value, at any other
    buffer what was there. -/
macro "stage_results" : tactic =>
  `(tactic| (simp (disch := decide) only [after_cons, after_nil,
      nullary_result', unary_result', binary_result', ternary_result', reshape_result', nary_result',
      nullary_result_ne', unary_result_ne', binary_result_ne', ternary_result_ne', reshape_result_ne', nary_result_ne',
      vec3_0, vec3_1, vec3_2]))

/-- A buffer a stage does not write keeps its contents. -/
theorem frameA {r : Ref sig .tc} (V : Valuation τ sig (Elt F)) (hr : r ∉ writesA) :
    after opsA V (r : DevRef τ sig) = V (r : DevRef τ sig) := after_of_writes_sub opsA V opsA_writes hr
theorem frameB {r : Ref sig .tc} (V : Valuation τ sig (Elt F)) (hr : r ∉ writesB) :
    after opsB V (r : DevRef τ sig) = V (r : DevRef τ sig) := after_of_writes_sub opsB V opsB_writes hr
theorem frameC {r : Ref sig .tc} (V : Valuation τ sig (Elt F)) (hr : r ∉ writesC) :
    after opsC V (r : DevRef τ sig) = V (r : DevRef τ sig) := after_of_writes_sub opsC V opsC_writes hr
theorem frameD {r : Ref sig .tc} (V : Valuation τ sig (Elt F)) (hr : r ∉ writesD) :
    after opsD V (r : DevRef τ sig) = V (r : DevRef τ sig) := after_of_writes_sub opsD V opsD_writes hr

attribute [local irreducible] Host.gather Host.scatterAdd Host.reduceAdd

/-! ### The stages' results -/

set_option maxRecDepth 8192 in
/-- After the embedding stage the source row is the edge table's row 0. -/
theorem afterA_v1 (V : Valuation τ sig (Elt F)) :
    after opsA V (main_v1 : DevRef τ sig) = refRow0 (V (main_arg1 : DevRef τ sig)) := by
  stage_results
  rfl

set_option maxRecDepth 8192 in
/-- After the embedding stage the destination row is the edge table's row 1. -/
theorem afterA_v3 (V : Valuation τ sig (Elt F)) :
    after opsA V (main_v3 : DevRef τ sig) = refRow1 (V (main_arg1 : DevRef τ sig)) := by
  stage_results
  rfl

set_option maxRecDepth 8192 in
set_option maxHeartbeats 1000000 in
/-- After the embedding stage the node-state buffer holds the node state of the features and the embedding's
    parameters. -/
theorem afterA_v29 (V : Valuation τ sig (Elt F)) :
    after opsA V (main_v29 : DevRef τ sig) = refEmbed (V (main_arg0 : DevRef τ sig)) (V (main_arg2 : DevRef τ sig)) (V (main_arg3 : DevRef τ sig)) (V (main_arg4 : DevRef τ sig)) (V (main_arg5 : DevRef τ sig)) := by
  stage_results
  rfl

set_option maxRecDepth 8192 in
set_option maxHeartbeats 1000000 in
/-- The first layer's fold at its result, from contents whose row buffers hold the edge table's rows. -/
theorem afterB_v55 (W : Valuation τ sig (Elt F)) (e : (⟨S2x3200000, .i32⟩ : BufTy).Contents (Elt F))
    (h1 : W (main_v1 : DevRef τ sig) = refRow0 e) (h3 : W (main_v3 : DevRef τ sig) = refRow1 e) :
    after opsB W (main_v55 : DevRef τ sig) = refSage1 (W (main_v29 : DevRef τ sig)) e (W (main_arg6 : DevRef τ sig)) (W (main_arg7 : DevRef τ sig)) (W (main_arg8 : DevRef τ sig)) := by
  stage_results
  rw [h1, h3]
  rfl

set_option maxRecDepth 8192 in
set_option maxHeartbeats 1000000 in
/-- The second layer's fold at its result. -/
theorem afterC_v82 (W : Valuation τ sig (Elt F)) (e : (⟨S2x3200000, .i32⟩ : BufTy).Contents (Elt F))
    (h1 : W (main_v1 : DevRef τ sig) = refRow0 e) (h3 : W (main_v3 : DevRef τ sig) = refRow1 e) :
    after opsC W (main_v82 : DevRef τ sig) = refSageR (W (main_v55 : DevRef τ sig)) e (W (main_arg9 : DevRef τ sig)) (W (main_arg10 : DevRef τ sig)) (W (main_arg11 : DevRef τ sig)) := by
  stage_results
  rw [h1, h3]
  rfl

set_option maxRecDepth 8192 in
set_option maxHeartbeats 1000000 in
/-- The third layer's and the read-out's fold at the result. -/
theorem afterD_v114 (W : Valuation τ sig (Elt F)) (e : (⟨S2x3200000, .i32⟩ : BufTy).Contents (Elt F))
    (h1 : W (main_v1 : DevRef τ sig) = refRow0 e) (h3 : W (main_v3 : DevRef τ sig) = refRow1 e) :
    after opsD W (main_v114 : DevRef τ sig)
      = refFc (refSageR (W (main_v82 : DevRef τ sig)) e (W (main_arg12 : DevRef τ sig)) (W (main_arg13 : DevRef τ sig)) (W (main_arg14 : DevRef τ sig))) (W (main_arg15 : DevRef τ sig)) (W (main_arg16 : DevRef τ sig)) := by
  stage_results
  rw [h1, h3]
  rfl

/-! ### The whole line -/

/-- What the result buffer holds after the whole line: the reference of the seventeen arguments' contents. -/
theorem result_eq (V : Valuation τ sig (Elt F)) :
    after ops V (main_v114 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  have a1 := afterA_v1 V
  have a3 := afterA_v3 V
  have b1 : after opsB (after opsA V) (main_v1 : DevRef τ sig) = refRow0 (V (main_arg1 : DevRef τ sig)) := (frameB _ (by decide)).trans a1
  have b3 : after opsB (after opsA V) (main_v3 : DevRef τ sig) = refRow1 (V (main_arg1 : DevRef τ sig)) := (frameB _ (by decide)).trans a3
  have c1 : after opsC (after opsB (after opsA V)) (main_v1 : DevRef τ sig) = refRow0 (V (main_arg1 : DevRef τ sig)) := (frameC _ (by decide)).trans b1
  have c3 : after opsC (after opsB (after opsA V)) (main_v3 : DevRef τ sig) = refRow1 (V (main_arg1 : DevRef τ sig)) := (frameC _ (by decide)).trans b3
  rw [after_ops, afterD_v114 _ _ c1 c3, afterC_v82 _ _ b1 b3, afterB_v55 _ _ a1 a3, afterA_v29]
  rw [frameC (r := main_arg12) _ (by decide), frameC (r := main_arg13) _ (by decide), frameC (r := main_arg14) _ (by decide), frameC (r := main_arg15) _ (by decide), frameC (r := main_arg16) _ (by decide)]
  rw [frameB (r := main_arg9) _ (by decide), frameB (r := main_arg10) _ (by decide), frameB (r := main_arg11) _ (by decide), frameB (r := main_arg12) _ (by decide), frameB (r := main_arg13) _ (by decide), frameB (r := main_arg14) _ (by decide), frameB (r := main_arg15) _ (by decide), frameB (r := main_arg16) _ (by decide)]
  rw [frameA (r := main_arg6) _ (by decide), frameA (r := main_arg7) _ (by decide), frameA (r := main_arg8) _ (by decide), frameA (r := main_arg9) _ (by decide), frameA (r := main_arg10) _ (by decide), frameA (r := main_arg11) _ (by decide), frameA (r := main_arg12) _ (by decide), frameA (r := main_arg13) _ (by decide), frameA (r := main_arg14) _ (by decide), frameA (r := main_arg15) _ (by decide), frameA (r := main_arg16) _ (by decide)]
  rfl

/-- Argument 0 is left as it was. -/
theorem arg0_eq (V : Valuation τ sig (Elt F)) : after ops V (main_arg0 : DevRef τ sig) = V (main_arg0 : DevRef τ sig) := by
  rw [after_ops]
  exact (frameD _ (by decide)).trans ((frameC _ (by decide)).trans ((frameB _ (by decide)).trans (frameA _ (by decide))))

/-- Argument 1 is left as it was. -/
theorem arg1_eq (V : Valuation τ sig (Elt F)) : after ops V (main_arg1 : DevRef τ sig) = V (main_arg1 : DevRef τ sig) := by
  rw [after_ops]
  exact (frameD _ (by decide)).trans ((frameC _ (by decide)).trans ((frameB _ (by decide)).trans (frameA _ (by decide))))

/-- Argument 2 is left as it was. -/
theorem arg2_eq (V : Valuation τ sig (Elt F)) : after ops V (main_arg2 : DevRef τ sig) = V (main_arg2 : DevRef τ sig) := by
  rw [after_ops]
  exact (frameD _ (by decide)).trans ((frameC _ (by decide)).trans ((frameB _ (by decide)).trans (frameA _ (by decide))))

/-- Argument 3 is left as it was. -/
theorem arg3_eq (V : Valuation τ sig (Elt F)) : after ops V (main_arg3 : DevRef τ sig) = V (main_arg3 : DevRef τ sig) := by
  rw [after_ops]
  exact (frameD _ (by decide)).trans ((frameC _ (by decide)).trans ((frameB _ (by decide)).trans (frameA _ (by decide))))

/-- Argument 4 is left as it was. -/
theorem arg4_eq (V : Valuation τ sig (Elt F)) : after ops V (main_arg4 : DevRef τ sig) = V (main_arg4 : DevRef τ sig) := by
  rw [after_ops]
  exact (frameD _ (by decide)).trans ((frameC _ (by decide)).trans ((frameB _ (by decide)).trans (frameA _ (by decide))))

/-- Argument 5 is left as it was. -/
theorem arg5_eq (V : Valuation τ sig (Elt F)) : after ops V (main_arg5 : DevRef τ sig) = V (main_arg5 : DevRef τ sig) := by
  rw [after_ops]
  exact (frameD _ (by decide)).trans ((frameC _ (by decide)).trans ((frameB _ (by decide)).trans (frameA _ (by decide))))

/-- Argument 6 is left as it was. -/
theorem arg6_eq (V : Valuation τ sig (Elt F)) : after ops V (main_arg6 : DevRef τ sig) = V (main_arg6 : DevRef τ sig) := by
  rw [after_ops]
  exact (frameD _ (by decide)).trans ((frameC _ (by decide)).trans ((frameB _ (by decide)).trans (frameA _ (by decide))))

/-- Argument 7 is left as it was. -/
theorem arg7_eq (V : Valuation τ sig (Elt F)) : after ops V (main_arg7 : DevRef τ sig) = V (main_arg7 : DevRef τ sig) := by
  rw [after_ops]
  exact (frameD _ (by decide)).trans ((frameC _ (by decide)).trans ((frameB _ (by decide)).trans (frameA _ (by decide))))

/-- Argument 8 is left as it was. -/
theorem arg8_eq (V : Valuation τ sig (Elt F)) : after ops V (main_arg8 : DevRef τ sig) = V (main_arg8 : DevRef τ sig) := by
  rw [after_ops]
  exact (frameD _ (by decide)).trans ((frameC _ (by decide)).trans ((frameB _ (by decide)).trans (frameA _ (by decide))))

/-- Argument 9 is left as it was. -/
theorem arg9_eq (V : Valuation τ sig (Elt F)) : after ops V (main_arg9 : DevRef τ sig) = V (main_arg9 : DevRef τ sig) := by
  rw [after_ops]
  exact (frameD _ (by decide)).trans ((frameC _ (by decide)).trans ((frameB _ (by decide)).trans (frameA _ (by decide))))

/-- Argument 10 is left as it was. -/
theorem arg10_eq (V : Valuation τ sig (Elt F)) : after ops V (main_arg10 : DevRef τ sig) = V (main_arg10 : DevRef τ sig) := by
  rw [after_ops]
  exact (frameD _ (by decide)).trans ((frameC _ (by decide)).trans ((frameB _ (by decide)).trans (frameA _ (by decide))))

/-- Argument 11 is left as it was. -/
theorem arg11_eq (V : Valuation τ sig (Elt F)) : after ops V (main_arg11 : DevRef τ sig) = V (main_arg11 : DevRef τ sig) := by
  rw [after_ops]
  exact (frameD _ (by decide)).trans ((frameC _ (by decide)).trans ((frameB _ (by decide)).trans (frameA _ (by decide))))

/-- Argument 12 is left as it was. -/
theorem arg12_eq (V : Valuation τ sig (Elt F)) : after ops V (main_arg12 : DevRef τ sig) = V (main_arg12 : DevRef τ sig) := by
  rw [after_ops]
  exact (frameD _ (by decide)).trans ((frameC _ (by decide)).trans ((frameB _ (by decide)).trans (frameA _ (by decide))))

/-- Argument 13 is left as it was. -/
theorem arg13_eq (V : Valuation τ sig (Elt F)) : after ops V (main_arg13 : DevRef τ sig) = V (main_arg13 : DevRef τ sig) := by
  rw [after_ops]
  exact (frameD _ (by decide)).trans ((frameC _ (by decide)).trans ((frameB _ (by decide)).trans (frameA _ (by decide))))

/-- Argument 14 is left as it was. -/
theorem arg14_eq (V : Valuation τ sig (Elt F)) : after ops V (main_arg14 : DevRef τ sig) = V (main_arg14 : DevRef τ sig) := by
  rw [after_ops]
  exact (frameD _ (by decide)).trans ((frameC _ (by decide)).trans ((frameB _ (by decide)).trans (frameA _ (by decide))))

/-- Argument 15 is left as it was. -/
theorem arg15_eq (V : Valuation τ sig (Elt F)) : after ops V (main_arg15 : DevRef τ sig) = V (main_arg15 : DevRef τ sig) := by
  rw [after_ops]
  exact (frameD _ (by decide)).trans ((frameC _ (by decide)).trans ((frameB _ (by decide)).trans (frameA _ (by decide))))

/-- Argument 16 is left as it was. -/
theorem arg16_eq (V : Valuation τ sig (Elt F)) : after ops V (main_arg16 : DevRef τ sig) = V (main_arg16 : DevRef τ sig) := by
  rw [after_ops]
  exact (frameD _ (by decide)).trans ((frameC _ (by decide)).trans ((frameB _ (by decide)).trans (frameA _ (by decide))))

/-- From any memory with zero counters every weakly fair execution of @main terminates with the result buffer at
    the reference of the arguments' launch contents and the seventeen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v114).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _)⟩)
    (run_main m ρ)

end Cert.ReferenceIdeal.RefRun

end
-- ==== Proof.RefSpecR.lean ====
/- The reference's graph layers and read-out read index by index: each is the specification's function of the
   reference's neighbour sums and clamped in-degrees. -/
import proofs.«140343_j90855738180235_2_alg».proof.Proof.RefStages
import proofs.«140343_j90855738180235_2_alg».proof.Proof.Spec
import proofs.«140343_j90855738180235_2_alg».proof.Proof.LibDotSum
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

namespace Cert.ReferenceIdeal.RefSpec

open Cert.ReferenceIdeal Cert.ReferenceIdeal.Gen Cert.ReferenceIdeal.RefRun
open Idealize.ShloMosaic Idealize.ShloMosaic.ValueIdx
open Cert.Gnn (Arr1 Arr2)

/-! ## Broadcasts and a reshape read at an index -/

section Reads
variable {α : Type}

/-- A column broadcast along `b` columns, read at `(r, t)`, is the column at row `r`. -/
theorem bc_col_apply {a b : Nat} (h : (⟨2, ![a, 1]⟩ : Shape).BroadcastsInDim ⟨2, ![a, b]⟩ ![0, 1])
    (y : (⟨2, ![a, 1]⟩ : Shape).Idx → α) (r : Fin a) (t : Fin b) :
    broadcastInDim ⟨2, ![a, b]⟩ ![0, 1] h y (ix2 r t) = y (ix2 r (0 : Fin 1)) := by
  refine broadcastInDim_apply ![0, 1] h y (ix2 r t) (ix2 r (0 : Fin 1)) ?_
  intro ax
  fin_cases ax
  · show r.val = if a = 1 then 0 else r.val
    split_ifs with ha
    · have := r.isLt; omega
    · rfl
  · show (0 : ℕ) = if (1 : ℕ) = 1 then 0 else _
    simp

/-- A vector as a column, read at `(r, u)`, is the vector at `r`. -/
theorem bc_vec_col_apply {a : Nat} (h : (⟨1, ![a]⟩ : Shape).BroadcastsInDim ⟨2, ![a, 1]⟩ ![0])
    (y : (⟨1, ![a]⟩ : Shape).Idx → α) (r : Fin a) (u : Fin 1) :
    broadcastInDim ⟨2, ![a, 1]⟩ ![0] h y (ix2 r u) = y (ix1 r) := by
  refine broadcastInDim_apply ![0] h y (ix2 r u) (ix1 r) ?_
  intro ax
  fin_cases ax
  show r.val = if a = 1 then 0 else r.val
  split_ifs with ha
  · have := r.isLt; omega
  · rfl

/-- A vector as a row, read at `(u, t)`, is the vector at `t`. -/
theorem bc_vec_row_apply {n : Nat} (h : (⟨1, ![n]⟩ : Shape).BroadcastsInDim ⟨2, ![1, n]⟩ ![1])
    (y : (⟨1, ![n]⟩ : Shape).Idx → α) (u : Fin 1) (t : Fin n) :
    broadcastInDim ⟨2, ![1, n]⟩ ![1] h y (ix2 u t) = y (ix1 t) := by
  refine broadcastInDim_apply ![1] h y (ix2 u t) (ix1 t) ?_
  intro ax
  fin_cases ax
  show t.val = if n = 1 then 0 else t.val
  split_ifs with hn
  · have := t.isLt; omega
  · rfl

/-- A column flattened, read at an index, is the column at that row. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Reads

/-! ## The products, read at an index -/

theorem lhsR_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhsR_1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rhsR_0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rhsR_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl
/-- At contraction position `k` the left operand is read at `(row j, k)`. -/
theorem lhsR (j : S100000x64.Idx) (k : Fin 64) :
    dot_S100000x64_S64x64_S100000x64_1_0_0_1_n_n.lhsIdx j ((contrEquiv1 dot_S100000x64_S64x64_S100000x64_1_0_0_1_n_n 64 rfl rfl).symm k) = ix2 (Cert.Gnn.row j) k := funext fun a => Fin.ext (by
  have hk := contrEquiv1_symm_val dot_S100000x64_S64x64_S100000x64_1_0_0_1_n_n 64 rfl rfl k
  match a with
  | ⟨0, _⟩ => exact lhsR_0 _ _
  | ⟨1, _⟩ => exact (lhsR_1 _ _).trans hk)
/-- At contraction position `k` the right operand is read at `(k, col j)`. -/
theorem rhsR (j : S100000x64.Idx) (k : Fin 64) :
    dot_S100000x64_S64x64_S100000x64_1_0_0_1_n_n.rhsIdx j ((contrEquiv1 dot_S100000x64_S64x64_S100000x64_1_0_0_1_n_n 64 rfl rfl).symm k) = ix2 k (Cert.Gnn.col j) := funext fun a => Fin.ext (by
  have hk := contrEquiv1_symm_val dot_S100000x64_S64x64_S100000x64_1_0_0_1_n_n 64 rfl rfl k
  match a with
  | ⟨0, _⟩ => exact (rhsR_0 _ _).trans hk
  | ⟨1, _⟩ => exact rhsR_1 _ _)
/-- The host's product read at `(r, c)`: the sum over `k` of `lhs (r, k) · rhs (k, c)`. -/
theorem dotR_apply (lhs : FVec Ideal S100000x64 .f32) (rhs : FVec Ideal S64x64 .f32) (r : Fin 100000) (c : Fin 64) :
    Host.dotGeneral dot_S100000x64_S64x64_S100000x64_1_0_0_1_n_n none lhs rhs (ix2 r c) = ∑ k : Fin 64, lhs (ix2 r k) * rhs (ix2 k c) := by
  simp only [Host.dotGeneral]
  rw [Ideal.dotGeneral_apply]
  exact Cert.Gnn.dot_sum dot_S100000x64_S64x64_S100000x64_1_0_0_1_n_n 64 rfl rfl _ _ (ix2 r c) (fun k => ix2 r k) (fun k => ix2 k c)
    (fun k => lhsR (ix2 r c) k) (fun k => rhsR (ix2 r c) k)

theorem lhsF_0 (i : S100000x1.Idx) (q : dot_S100000x64_S64x1_S100000x1_1_0_0_1_n_n.contr.Idx) : (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl
theorem lhsF_1 (i : S100000x1.Idx) (q : dot_S100000x64_S64x1_S100000x1_1_0_0_1_n_n.contr.Idx) : (dot_S100000x64_S64x1_S100000x1_1_0_0_1_n_n.lhsIdx i q 1).val = (q ⟨0, by decide⟩).val :=
  dot_S100000x64_S64x1_S100000x1_1_0_0_1_n_n.lhsIdx_val_of_single rfl i q
theorem rhsF_0 (i : S100000x1.Idx) (q : dot_S100000x64_S64x1_S100000x1_1_0_0_1_n_n.contr.Idx) : (dot_S100000x64_S64x1_S100000x1_1_0_0_1_n_n.rhsIdx i q 0).val = (q ⟨0, by decide⟩).val :=
  dot_S100000x64_S64x1_S100000x1_1_0_0_1_n_n.rhsIdx_val_of_single rfl i q
theorem rhsF_1 (i : S100000x1.Idx) (q : dot_S100000x64_S64x1_S100000x1_1_0_0_1_n_n.contr.Idx) : (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl
/-- At contraction position `k` the left operand is read at `(row j, k)`. -/
theorem lhsF (j : S100000x1.Idx) (k : Fin 64) :
    dot_S100000x64_S64x1_S100000x1_1_0_0_1_n_n.lhsIdx j ((contrEquiv1 dot_S100000x64_S64x1_S100000x1_1_0_0_1_n_n 64 rfl rfl).symm k) = ix2 (Cert.Gnn.row j) k := funext fun a => Fin.ext (by
  have hk := contrEquiv1_symm_val dot_S100000x64_S64x1_S100000x1_1_0_0_1_n_n 64 rfl rfl k
  match a with
  | ⟨0, _⟩ => exact lhsF_0 _ _
  | ⟨1, _⟩ => exact (lhsF_1 _ _).trans hk)
/-- At contraction position `k` the right operand is read at `(k, col j)`. -/
theorem rhsF (j : S100000x1.Idx) (k : Fin 64) :
    dot_S100000x64_S64x1_S100000x1_1_0_0_1_n_n.rhsIdx j ((contrEquiv1 dot_S100000x64_S64x1_S100000x1_1_0_0_1_n_n 64 rfl rfl).symm k) = ix2 k (Cert.Gnn.col j) := funext fun a => Fin.ext (by
  have hk := contrEquiv1_symm_val dot_S100000x64_S64x1_S100000x1_1_0_0_1_n_n 64 rfl rfl k
  match a with
  | ⟨0, _⟩ => exact (rhsF_0 _ _).trans hk
  | ⟨1, _⟩ => exact rhsF_1 _ _)
/-- The host's product read at `(r, c)`: the sum over `k` of `lhs (r, k) · rhs (k, c)`. -/
theorem dotF_apply (lhs : FVec Ideal S100000x64 .f32) (rhs : FVec Ideal S64x1 .f32) (r : Fin 100000) (c : Fin 1) :
    Host.dotGeneral dot_S100000x64_S64x1_S100000x1_1_0_0_1_n_n none lhs rhs (ix2 r c) = ∑ k : Fin 64, lhs (ix2 r k) * rhs (ix2 k c) := by
  simp only [Host.dotGeneral]
  rw [Ideal.dotGeneral_apply]
  exact Cert.Gnn.dot_sum dot_S100000x64_S64x1_S100000x1_1_0_0_1_n_n 64 rfl rfl _ _ (ix2 r c) (fun k => ix2 r k) (fun k => ix2 k c)
    (fun k => lhsF (ix2 r c) k) (fun k => rhsF (ix2 r c) k)

theorem lhsS_0 (i : S100000x64.Idx) (q : dot_S100000x17_S17x64_S100000x64_1_0_0_1_n_n.contr.Idx) : (dot_S100000x17_S17x64_S100000x64_1_0_0_1_n_n.lhsIdx i q 0).val = (i 0).val := by
  unfold DotDims.lhsIdx
  rw [dif_neg (show ¬(0 : Fin S100000x17.rank) ∈ dot_S100000x17_S17x64_S100000x64_1_0_0_1_n_n.lhsBatch by decide),
    dif_pos (show (0 : Fin S100000x17.rank) ∈ dot_S100000x17_S17x64_S100000x64_1_0_0_1_n_n.lhsNonContracting by decide)]
  rfl
theorem lhsS_1 (i : S100000x64.Idx) (q : dot_S100000x17_S17x64_S100000x64_1_0_0_1_n_n.contr.Idx) : (dot_S100000x17_S17x64_S100000x64_1_0_0_1_n_n.lhsIdx i q 1).val = (q ⟨0, by decide⟩).val :=
  dot_S100000x17_S17x64_S100000x64_1_0_0_1_n_n.lhsIdx_val_of_single rfl i q
theorem rhsS_0 (i : S100000x64.Idx) (q : dot_S100000x17_S17x64_S100000x64_1_0_0_1_n_n.contr.Idx) : (dot_S100000x17_S17x64_S100000x64_1_0_0_1_n_n.rhsIdx i q 0).val = (q ⟨0, by decide⟩).val :=
  dot_S100000x17_S17x64_S100000x64_1_0_0_1_n_n.rhsIdx_val_of_single rfl i q
theorem rhsS_1 (i : S100000x64.Idx) (q : dot_S100000x17_S17x64_S100000x64_1_0_0_1_n_n.contr.Idx) : (dot_S100000x17_S17x64_S100000x64_1_0_0_1_n_n.rhsIdx i q 1).val = (i 1).val := by
  unfold DotDims.rhsIdx
  rw [dif_neg (show ¬(1 : Fin S17x64.rank) ∈ dot_S100000x17_S17x64_S100000x64_1_0_0_1_n_n.rhsBatch by decide),
    dif_pos (show (1 : Fin S17x64.rank) ∈ dot_S100000x17_S17x64_S100000x64_1_0_0_1_n_n.rhsNonContracting by decide)]
  rfl
/-- At contraction position `k` the left operand is read at `(row j, k)`. -/
theorem lhsS (j : S100000x64.Idx) (k : Fin 17) :
    dot_S100000x17_S17x64_S100000x64_1_0_0_1_n_n.lhsIdx j ((contrEquiv1 dot_S100000x17_S17x64_S100000x64_1_0_0_1_n_n 17 rfl rfl).symm k) = ix2 (Cert.Gnn.row j) k := funext fun a => Fin.ext (by
  have hk := contrEquiv1_symm_val dot_S100000x17_S17x64_S100000x64_1_0_0_1_n_n 17 rfl rfl k
  match a with
  | ⟨0, _⟩ => exact lhsS_0 _ _
  | ⟨1, _⟩ => exact (lhsS_1 _ _).trans hk)
/-- At contraction position `k` the right operand is read at `(k, col j)`. -/
theorem rhsS (j : S100000x64.Idx) (k : Fin 17) :
    dot_S100000x17_S17x64_S100000x64_1_0_0_1_n_n.rhsIdx j ((contrEquiv1 dot_S100000x17_S17x64_S100000x64_1_0_0_1_n_n 17 rfl rfl).symm k) = ix2 k (Cert.Gnn.col j) := funext fun a => Fin.ext (by
  have hk := contrEquiv1_symm_val dot_S100000x17_S17x64_S100000x64_1_0_0_1_n_n 17 rfl rfl k
  match a with
  | ⟨0, _⟩ => exact (rhsS_0 _ _).trans hk
  | ⟨1, _⟩ => exact rhsS_1 _ _)
/-- The host's product read at `(r, c)`: the sum over `k` of `lhs (r, k) · rhs (k, c)`. -/
theorem dotS_apply (lhs : FVec Ideal S100000x17 .f32) (rhs : FVec Ideal S17x64 .f32) (r : Fin 100000) (c : Fin 64) :
    Host.dotGeneral dot_S100000x17_S17x64_S100000x64_1_0_0_1_n_n none lhs rhs (ix2 r c) = ∑ k : Fin 17, lhs (ix2 r k) * rhs (ix2 k c) := by
  simp only [Host.dotGeneral]
  rw [Ideal.dotGeneral_apply]
  exact Cert.Gnn.dot_sum dot_S100000x17_S17x64_S100000x64_1_0_0_1_n_n 17 rfl rfl _ _ (ix2 r c) (fun k => ix2 r k) (fun k => ix2 k c)
    (fun k => lhsS (ix2 r c) k) (fun k => rhsS (ix2 r c) k)

/-! ## The stages -/

/-- The first graph layer of the reference is the specification's, over the reference's neighbour sums and clamped
    in-degrees. -/
theorem refSage1_eq (h : Arr2 100000 17) (e : Vec Ideal S2x3200000 .i32) (Wl : Arr2 17 64) (bl : Arr1 64) (Wr : Arr2 17 64) :
    refSage1 (F := Ideal) h e Wl bl Wr
      = Cert.Gnn.sage1 (refAgg17 (F := Ideal) h e) h (refCnt (F := Ideal) e) Wl Wr bl := by
  unfold refSage1
  generalize refAgg17 (F := Ideal) h e = M
  generalize refCnt (F := Ideal) e = C
  funext j
  obtain ⟨r, c, rfl⟩ : ∃ (r : Fin 100000) (c : Fin 64), j = ix2 r c := ⟨Cert.Gnn.row j, Cert.Gnn.col j, (Cert.Gnn.ix2_row_col j).symm⟩
  rw [maximumf_apply, addf_apply, addf_apply, dotS_apply, dotS_apply,
    broadcastInDim_oneRow_apply, bc_vec_row_apply, broadcastInDim_scalar_apply, constant_apply]
  have hdiv : ∀ k : Fin 17, Host.divf (F := Ideal) (φ := .f32) M (broadcastInDim S100000x17 ![0, 1] bcast_S100000x1_S100000x17_0_1
      (broadcastInDim S100000x1 ![0] bcast_S100000_S100000x1_0 C)) (ix2 r k) = Ideal.div (M (ix2 r k)) (C (ix1 r)) := fun k => by
    rw [hostDivf_apply, bc_col_apply, bc_vec_col_apply]
  simp only [hdiv]
  rfl

/-- A later graph layer of the reference is the specification's, over the reference's neighbour sums and clamped
    in-degrees. -/
theorem refSageR_eq (h : Arr2 100000 64) (e : Vec Ideal S2x3200000 .i32) (Wl : Arr2 64 64) (bl : Arr1 64) (Wr : Arr2 64 64) :
    refSageR (F := Ideal) h e Wl bl Wr
      = Cert.Gnn.sageR (refAgg64 (F := Ideal) h e) h (refCnt (F := Ideal) e) Wl Wr bl := by
  unfold refSageR
  generalize refAgg64 (F := Ideal) h e = M
  generalize refCnt (F := Ideal) e = C
  funext j
  obtain ⟨r, c, rfl⟩ : ∃ (r : Fin 100000) (c : Fin 64), j = ix2 r c := ⟨Cert.Gnn.row j, Cert.Gnn.col j, (Cert.Gnn.ix2_row_col j).symm⟩
  rw [maximumf_apply, addf_apply, addf_apply, addf_apply, dotR_apply, dotR_apply,
    broadcastInDim_oneRow_apply, bc_vec_row_apply, broadcastInDim_scalar_apply, constant_apply]
  have hdiv : ∀ k : Fin 64, Host.divf (F := Ideal) (φ := .f32) M (broadcastInDim S100000x64 ![0, 1] bcast_S100000x1_S100000x64_0_1
      (broadcastInDim S100000x1 ![0] bcast_S100000_S100000x1_0 C)) (ix2 r k) = Ideal.div (M (ix2 r k)) (C (ix1 r)) := fun k => by
    rw [hostDivf_apply, bc_col_apply, bc_vec_col_apply]
  simp only [hdiv]
  rfl

/-- The reference's read-out is the specification's. -/
theorem refFc_eq (h : Arr2 100000 64) (Wfc : Arr2 64 1) (bfc : Arr1 1) :
    refFc (F := Ideal) h Wfc bfc = Cert.Gnn.fc h Wfc bfc := by
  unfold refFc
  funext j
  obtain ⟨i, rfl⟩ : ∃ i : Fin 100000, j = ix1 i := ⟨Cert.Gnn.pos j, (Cert.Gnn.ix1_pos j).symm⟩
  rw [shapeCast_a1_a_apply, addf_apply, dotF_apply, broadcastInDim_oneRow_apply, bc_vec_row_apply]
  rfl

end Cert.ReferenceIdeal.RefSpec

end
-- ==== Proof.RefSpecV.lean ====
/-
  The embedding's product and the normalisation's statistics, read index by index on the extended reals: a
  broadcast reads the operand at the coordinates it keeps; the 26-wide product at an index is the sum over the
  contracted coordinate; a row sum from the word of zero is the sum of the row's eight entries; the mean divides it
  by the word of 8.0; the variance's divisor 8.0 − 0 is 8.0 and its select's condition holds, so the variance is the
  centred squares' mean; the normalised row is the network's formula.
-/
import proofs.«140343_j90855738180235_2_alg».proof.Proof.RefStages
import proofs.«140343_j90855738180235_2_alg».proof.Proof.Spec
import proofs.«140343_j90855738180235_2_alg».proof.Proof.LibDotSum
import Idealize.ShloMosaic.Lib.Pipeline.Value
import Idealize.ShloMosaic.Lib.ValueLayout
import Idealize.ShloMosaic.PureOps.Ideal.Laws

set_option maxRecDepth 16384

noncomputable section

namespace Cert.ReferenceIdeal.RefSpec

open Cert.ReferenceIdeal Cert.ReferenceIdeal.Gen Cert.ReferenceIdeal.RefRun Idealize.ShloMosaic Idealize.ShloMosaic.ValueIdx Cert.Gnn

/-- The host's division read at an index. -/
theorem hostDivf_apply {s : Shape} {φ : FTy} (a b : FVec Ideal s φ) (i : s.Idx) : Host.divf a b i = Ideal.div (a i) (b i) := rfl

/-! ### Broadcasts read at an index -/

/-- A column `[n, 1]` broadcast along rows reads, at `j`, the column at `j`'s row. -/
theorem bcast_col_apply {α : Type} {n d : Nat} (hn : n ≠ 1) (x : (⟨2, ![n, 1]⟩ : Shape).Idx → α)
    (h : (⟨2, ![n, 1]⟩ : Shape).BroadcastsInDim ⟨2, ![n, d]⟩ ![0, 1]) (j : (⟨2, ![n, d]⟩ : Shape).Idx) :
    broadcastInDim ⟨2, ![n, d]⟩ ![0, 1] h x j = x (ix2 (row j) (0 : Fin 1)) := by
  refine broadcastInDim_apply _ h x j _ fun a => ?_
  match a with
  | ⟨0, _⟩ =>
    show (j 0).val = if n = 1 then 0 else (j 0).val
    rw [if_neg hn]
  | ⟨1, _⟩ => rfl

/-- A vector `[n]` as a column `[n, 1]` reads, at `j`, the vector at `j`'s row. -/
theorem bcast_vec_col_apply {α : Type} {n : Nat} (hn : n ≠ 1) (x : (⟨1, ![n]⟩ : Shape).Idx → α)
    (h : (⟨1, ![n]⟩ : Shape).BroadcastsInDim ⟨2, ![n, 1]⟩ ![0]) (j : (⟨2, ![n, 1]⟩ : Shape).Idx) :
    broadcastInDim ⟨2, ![n, 1]⟩ ![0] h x j = x (ix1 (row j)) := by
  refine broadcastInDim_apply _ h x j _ fun a => ?_
  match a with
  | ⟨0, _⟩ =>
    show (j 0).val = if n = 1 then 0 else (j 0).val
    rw [if_neg hn]

/-- A vector `[d]` as a row `[1, d]` broadcast along columns reads, at `j`, the vector at `j`'s column. -/
theorem bcast_row_apply {α : Type} {n d : Nat} (hd : d ≠ 1) (x : (⟨1, ![d]⟩ : Shape).Idx → α)
    (h' : (⟨1, ![d]⟩ : Shape).BroadcastsInDim ⟨2, ![1, d]⟩ ![1])
    (h : (⟨2, ![1, d]⟩ : Shape).BroadcastsInDim ⟨2, ![n, d]⟩ ![0, 1]) (j : (⟨2, ![n, d]⟩ : Shape).Idx) :
    broadcastInDim ⟨2, ![n, d]⟩ ![0, 1] h (broadcastInDim ⟨2, ![1, d]⟩ ![1] h' x) j = x (ix1 (col j)) := by
  rw [broadcastInDim_apply _ h _ j (ix2 (0 : Fin 1) (col j)) fun a => by
    match a with
    | ⟨0, _⟩ => rfl
    | ⟨1, _⟩ =>
      show (j 1).val = if d = 1 then 0 else (j 1).val
      rw [if_neg hd]]
  refine broadcastInDim_apply _ h' x _ _ fun a => ?_
  match a with
  | ⟨0, _⟩ =>
    show (j 1).val = if d = 1 then 0 else (j 1).val
    rw [if_neg hd]

/-! ### The contraction `S100000x26 · S26x8` -/

theorem lhs26_0 (i : S100000x8.Idx) (q : dot_S100000x26_S26x8_S100000x8_1_0_0_1_n_n.contr.Idx) : (dot_S100000x26_S26x8_S100000x8_1_0_0_1_n_n.lhsIdx i q 0).val = (i 0).val := by
  unfold DotDims.lhsIdx
  rw [dif_neg (show ¬(0 : Fin S100000x26.rank) ∈ dot_S100000x26_S26x8_S100000x8_1_0_0_1_n_n.lhsBatch by decide),
    dif_pos (show (0 : Fin S100000x26.rank) ∈ dot_S100000x26_S26x8_S100000x8_1_0_0_1_n_n.lhsNonContracting by decide)]
  rfl
theorem lhs26_1 (i : S100000x8.Idx) (q : dot_S100000x26_S26x8_S100000x8_1_0_0_1_n_n.contr.Idx) : (dot_S100000x26_S26x8_S100000x8_1_0_0_1_n_n.lhsIdx i q 1).val = (q ⟨0, by decide⟩).val :=
  dot_S100000x26_S26x8_S100000x8_1_0_0_1_n_n.lhsIdx_val_of_single rfl i q
theorem rhs26_0 (i : S100000x8.Idx) (q : dot_S100000x26_S26x8_S100000x8_1_0_0_1_n_n.contr.Idx) : (dot_S100000x26_S26x8_S100000x8_1_0_0_1_n_n.rhsIdx i q 0).val = (q ⟨0, by decide⟩).val :=
  dot_S100000x26_S26x8_S100000x8_1_0_0_1_n_n.rhsIdx_val_of_single rfl i q
theorem rhs26_1 (i : S100000x8.Idx) (q : dot_S100000x26_S26x8_S100000x8_1_0_0_1_n_n.contr.Idx) : (dot_S100000x26_S26x8_S100000x8_1_0_0_1_n_n.rhsIdx i q 1).val = (i 1).val := by
  unfold DotDims.rhsIdx
  rw [dif_neg (show ¬(1 : Fin S26x8.rank) ∈ dot_S100000x26_S26x8_S100000x8_1_0_0_1_n_n.rhsBatch by decide),
    dif_pos (show (1 : Fin S26x8.rank) ∈ dot_S100000x26_S26x8_S100000x8_1_0_0_1_n_n.rhsNonContracting by decide)]
  rfl
/-- At contraction position `k` the left operand is read at `(row j, k)`. -/
theorem lhs26 (j : S100000x8.Idx) (k : Fin 26) :
    dot_S100000x26_S26x8_S100000x8_1_0_0_1_n_n.lhsIdx j ((contrEquiv1 dot_S100000x26_S26x8_S100000x8_1_0_0_1_n_n 26 rfl rfl).symm k) = ix2 (row j) k := funext fun a => Fin.ext (by
  have hk := contrEquiv1_symm_val dot_S100000x26_S26x8_S100000x8_1_0_0_1_n_n 26 rfl rfl k
  match a with
  | ⟨0, _⟩ => exact lhs26_0 _ _
  | ⟨1, _⟩ => exact (lhs26_1 _ _).trans hk)
/-- At contraction position `k` the right operand is read at `(k, col j)`. -/
theorem rhs26 (j : S100000x8.Idx) (k : Fin 26) :
    dot_S100000x26_S26x8_S100000x8_1_0_0_1_n_n.rhsIdx j ((contrEquiv1 dot_S100000x26_S26x8_S100000x8_1_0_0_1_n_n 26 rfl rfl).symm k) = ix2 k (col j) := funext fun a => Fin.ext (by
  have hk := contrEquiv1_symm_val dot_S100000x26_S26x8_S100000x8_1_0_0_1_n_n 26 rfl rfl k
  match a with
  | ⟨0, _⟩ => exact (rhs26_0 _ _).trans hk
  | ⟨1, _⟩ => exact rhs26_1 _ _)
/-- The host product read at `j`: the sum over `k` of `lhs (row j, k) · rhs (k, col j)`. -/
theorem dot26_apply (lhs : FVec Ideal S100000x26 .f32) (rhs : FVec Ideal S26x8 .f32) (j : S100000x8.Idx) :
    Host.dotGeneral dot_S100000x26_S26x8_S100000x8_1_0_0_1_n_n none lhs rhs j = ∑ k : Fin 26, lhs (ix2 (row j) k) * rhs (ix2 k (col j)) := by
  simp only [Host.dotGeneral]
  rw [Ideal.dotGeneral_apply]
  exact dot_sum dot_S100000x26_S26x8_S100000x8_1_0_0_1_n_n 26 rfl rfl _ _ j (fun k => ix2 (row j) k) (fun k => ix2 k (col j))
    (fun k => lhs26 j k) (fun k => rhs26 j k)

/-! ### The embedding and its normalisation -/

/-- The word of 8.0 is the real 8. -/
theorem eight_eq : eight = ((8 : ℝ) : EReal) := by
  simp [eight, Ideal.ofBits, Ideal.ieee, -EReal.coe_mul]; norm_num

/-- The family embedding read at `(r, k)`. -/
theorem refEmb_apply (x : Arr2 100000 35) (We : Arr2 26 8) (be : Arr1 8) (j : (⟨2, ![100000, 8]⟩ : Shape).Idx) :
    refEmb (F := Ideal) x We be j = emb x We be (row j) (col j) := by
  unfold refEmb emb
  rw [addf_apply, dot26_apply, bcast_row_apply (by decide)]
  refine congrArg₂ (· + ·) (Finset.sum_congr rfl fun q _ => congrArg₂ (· * ·) ?_ rfl) rfl
  refine extractStridedSlice_apply _ x _ _ _ fun a => ?_
  match a with
  | ⟨0, _⟩ => exact (Nat.zero_add _).symm
  | ⟨1, _⟩ => rfl

/-- A row sum from the word of zero, read at a row: the sum of the row's eight entries. -/
theorem rowSum_apply (v : Arr2 100000 8) (r : Fin 100000) :
    Host.reduceAdd (F := Ideal) v (constant (F := Ideal) S_ .f32 0x00000000#32) reducesTo_S100000x8_S100000_d1 h_S_ (ix1 r)
      = ∑ k : Fin 8, v (ix2 r k) := by
  unfold Host.reduceAdd
  rw [Ideal.hostReduceAdd_def, Ideal.hostReduceAdd_single reducesTo_S100000x8_S100000_d1 (by decide)]
  show Ideal.ofBits .f32 0x00000000#32 + _ = _
  rw [Ideal.ofBits_zero_f32, zero_add]
  refine Finset.sum_congr rfl fun k _ => congrArg v (funext fun a => Fin.ext ?_)
  match a with
  | ⟨0, _⟩ => rfl
  | ⟨1, _⟩ => rfl

/-- The word of 8.0 is positive. -/
theorem eight_pos : (0 : EReal) < eight := by
  rw [eight_eq]; exact_mod_cast (by norm_num : (0 : ℝ) < 8)

/-- A scalar broadcast reads the scalar. -/
theorem bcast_scalar_apply {α : Type} {t : Shape} (x : S_.Idx → α) (h : S_.BroadcastsInDim t ![]) (j : t.Idx) :
    broadcastInDim t ![] h x j = x ix0 :=
  broadcastInDim_apply _ h x j _ fun a => a.elim0

/-- The host's reciprocal square root read at an index. -/
theorem hostRsqrt_apply {s : Shape} {φ : FTy} (a : FVec Ideal s φ) (i : s.Idx) : Host.rsqrt a i = Ideal.rsqrt (a i) := rfl

/-- The mean column read at a row: the row's mean. -/
theorem refMean_apply (v : Arr2 100000 8) (j : (⟨2, ![100000, 1]⟩ : Shape).Idx) :
    refMean (F := Ideal) v j = mean8 (fun k => v (ix2 (row j) k)) := by
  unfold refMean mean8
  rw [hostDivf_apply, bcast_vec_col_apply (by decide), rowSum_apply, bcast_scalar_apply, constant_apply]

/-- The centred rows read at an index. -/
theorem refCentred_apply (v : Arr2 100000 8) (j : (⟨2, ![100000, 8]⟩ : Shape).Idx) :
    refCentred (F := Ideal) v j = v j - mean8 (fun k => v (ix2 (row j) k)) := by
  unfold refCentred
  rw [subf_apply, bcast_col_apply (by decide), refMean_apply, row_ix2]

/-- The variance's divisor: 8.0 less the correction 0 is 8.0. -/
theorem varDivisor_eq : FloatOps.subf (F := Ideal) eight (FloatOps.sitofp (F := Ideal) .f32 (0#32 : BitVec 32)) = eight := by
  show eight - (((0#32 : BitVec 32).toInt : ℝ) : EReal) = eight
  simp

/-- The variance's select condition: the divisor is above zero. -/
theorem varCond_eq : FloatOps.cmpf (F := Ideal) .ogt eight (Ideal.ofBits .f32 0x00000000#32) = 1#1 := by
  show BitVec.ofBool (decide (Ideal.ofBits .f32 0x00000000#32 < eight)) = 1#1
  rw [Ideal.ofBits_zero_f32, decide_eq_true eight_pos]
  rfl

/-- The variance column read at a row: the mean of the row's centred squares. -/
theorem refVar_apply (v : Arr2 100000 8) (j : (⟨2, ![100000, 1]⟩ : Shape).Idx) :
    refVar (F := Ideal) v j
      = mean8 (fun k => (v (ix2 (row j) k) - mean8 (fun k' => v (ix2 (row j) k')))
          * (v (ix2 (row j) k) - mean8 (fun k' => v (ix2 (row j) k')))) := by
  unfold refVar
  rw [select_apply, bcast_scalar_apply, cmpf_apply, subf_apply, sitofp_apply, constant_apply, constant_apply]
  show Scalar.select (FloatOps.cmpf (F := Ideal) .ogt (FloatOps.subf (F := Ideal) eight (FloatOps.sitofp (F := Ideal) .f32 (0#32 : BitVec 32))) (Ideal.ofBits .f32 0x00000000#32)) _ _ = _
  rw [varDivisor_eq, varCond_eq, select_one, hostDivf_apply, bcast_vec_col_apply (by decide), rowSum_apply, bcast_scalar_apply,
    subf_apply, sitofp_apply, constant_apply]
  show Ideal.div _ (FloatOps.subf (F := Ideal) eight (FloatOps.sitofp (F := Ideal) .f32 (0#32 : BitVec 32))) = _
  rw [varDivisor_eq]
  unfold mean8
  refine congrArg (fun s => Ideal.div s eight) (Finset.sum_congr rfl fun k _ => ?_)
  rw [mulf_apply, refCentred_apply, row_ix2]
  rfl

/-- The normalised embedding read at an index: the network's formula on the row. -/
theorem refLn_apply (v : Arr2 100000 8) (g b : Arr1 8) (j : (⟨2, ![100000, 8]⟩ : Shape).Idx) :
    refLn (F := Ideal) v g b j = lnorm (fun k => v (ix2 (row j) k)) g b (col j) := by
  have hj : v j = v (ix2 (row j) (col j)) := congrArg v (ix2_row_col j).symm
  unfold refLn lnorm
  rw [addf_apply, mulf_apply, mulf_apply, bcast_row_apply (by decide), bcast_row_apply (by decide), bcast_col_apply (by decide),
    hostRsqrt_apply, addf_apply, bcast_scalar_apply, constant_apply, refCentred_apply, refVar_apply, row_ix2, hj]

end Cert.ReferenceIdeal.RefSpec

end
-- ==== Proof.RefSpecE.lean ====
import proofs.«140343_j90855738180235_2_alg».proof.Proof.RefStages
import proofs.«140343_j90855738180235_2_alg».proof.Proof.Spec
import proofs.«140343_j90855738180235_2_alg».proof.Proof.LibDotSum
import proofs.«140343_j90855738180235_2_alg».proof.Proof.RefSpecV
import Idealize.ShloMosaic.Lib.Pipeline.Value
import Idealize.ShloMosaic.PureOps.Ideal.Laws

/-! The reference's node state against the network's: the three column ranges of the concatenation — the first six
feature columns, the normalised family embedding, the last three feature columns — each read at an index. -/

noncomputable section

namespace Cert.ReferenceIdeal.RefSpec

open Cert.ReferenceIdeal Cert.ReferenceIdeal.Gen Cert.ReferenceIdeal.RefRun Idealize.ShloMosaic Idealize.ShloMosaic.ValueIdx Cert.Gnn

/-- The first six columns: the slice at offset 0 reads the array at the same row and column. -/
theorem slice6_apply {α : Type} (x : S100000x35.Idx → α) (h : S100000x35.Slices ![0, 0] S100000x6) (r : Fin 100000) (q : Fin 6) :
    extractStridedSlice S100000x6 ![0, 0] x h (ix2 r q) = x (ix2 r ⟨q.val, by omega⟩) := by
  refine extractStridedSlice_apply _ x _ (ix2 r q) (ix2 r ⟨q.val, by omega⟩) fun a => ?_
  match a with
  | ⟨0, _⟩ => show r.val = 0 + r.val; omega
  | ⟨1, _⟩ => show q.val = 0 + q.val; omega

/-- The last three columns: the slice at column offset 32 reads the array at column `32 + q`. -/
theorem slice3_apply {α : Type} (x : S100000x35.Idx → α) (h : S100000x35.Slices ![0, 32] S100000x3) (r : Fin 100000) (q : Fin 3) :
    extractStridedSlice S100000x3 ![0, 32] x h (ix2 r q) = x (ix2 r ⟨32 + q.val, by omega⟩) := by
  refine extractStridedSlice_apply _ x _ (ix2 r q) (ix2 r ⟨32 + q.val, by omega⟩) fun a => ?_
  match a with
  | ⟨0, _⟩ => show r.val = 0 + r.val; omega
  | ⟨1, _⟩ => rfl

/-- The reference's node state is the network's, index by index: a column below 6 is the feature's, a column from 6 to
    13 the normalised embedding's coordinate `column - 6`, a column from 14 the feature's column `column + 18`. -/
theorem refEmbed_eq (x : (⟨S100000x35, .f32⟩ : BufTy).Contents (Elt Ideal)) (We : (⟨S26x8, .f32⟩ : BufTy).Contents (Elt Ideal))
    (be g b : (⟨S8, .f32⟩ : BufTy).Contents (Elt Ideal)) :
    refEmbed x We be g b = h0 x We be g b := by
  funext j
  have hc : (col j).val = (j 1).val := rfl
  have hcl : (col j).val < 17 := (col j).isLt
  unfold refEmbed h0
  by_cases h : (col j).val < 6
  · rw [dif_pos h]
    refine (concatenate_apply_piece (1 : Fin S100000x17.rank) [⟨S100000x6, _⟩, ⟨S100000x8, _⟩, ⟨S100000x3, _⟩]
      concatenates_S100000x6_S100000x8_S100000x3_S100000x17_d1 j
      0 (by simp) S100000x6 _ rfl rfl 0 rfl (ix2 (row j) (⟨(col j).val, h⟩ : Fin 6)) ?_ ?_).trans ?_
    · intro b hb
      match b with
      | ⟨0, _⟩ => rfl
      | ⟨1, _⟩ => exact absurd rfl hb
    · show 0 + (j 1).val = (j 1).val; omega
    · exact slice6_apply x _ (row j) ⟨(col j).val, h⟩
  · rw [dif_neg h]
    by_cases h' : (col j).val < 14
    · rw [dif_pos h']
      refine (concatenate_apply_piece (1 : Fin S100000x17.rank) [⟨S100000x6, _⟩, ⟨S100000x8, _⟩, ⟨S100000x3, _⟩]
        concatenates_S100000x6_S100000x8_S100000x3_S100000x17_d1 j
        1 (by simp) S100000x8 _ rfl rfl 6 rfl (ix2 (row j) (⟨(col j).val - 6, by omega⟩ : Fin 8)) ?_ ?_).trans ?_
      · intro b hb
        match b with
        | ⟨0, _⟩ => rfl
        | ⟨1, _⟩ => exact absurd rfl hb
      · show 6 + ((j 1).val - 6) = (j 1).val; omega
      · refine (refLn_apply (refEmb x We be) g b (ix2 (row j) (⟨(col j).val - 6, by omega⟩ : Fin 8))).trans ?_
        exact congrArg (fun e => lnorm e g b (⟨(col j).val - 6, by omega⟩ : Fin 8))
          (funext fun k => refEmb_apply x We be (ix2 (row j) k))
    · rw [dif_neg h']
      refine (concatenate_apply_piece (1 : Fin S100000x17.rank) [⟨S100000x6, _⟩, ⟨S100000x8, _⟩, ⟨S100000x3, _⟩]
        concatenates_S100000x6_S100000x8_S100000x3_S100000x17_d1 j
        2 (by simp) S100000x3 _ rfl rfl 14 rfl (ix2 (row j) (⟨(col j).val - 14, by omega⟩ : Fin 3)) ?_ ?_).trans ?_
      · intro b hb
        match b with
        | ⟨0, _⟩ => rfl
        | ⟨1, _⟩ => exact absurd rfl hb
      · show 14 + ((j 1).val - 14) = (j 1).val; omega
      · refine (slice3_apply x _ (row j) ⟨(col j).val - 14, by omega⟩).trans (congrArg x ?_)
        exact congrArg (ix2 (row j)) (Fin.ext (by show 32 + ((col j).val - 14) = (col j).val + 18; omega))

end Cert.ReferenceIdeal.RefSpec

end
-- ==== Proof.RefSpec.lean ====
/- The whole reference is the network of the specification over the reference's own neighbour sums and clamped
   in-degrees: its stages composed. -/
import proofs.«140343_j90855738180235_2_alg».proof.Proof.RefSpecR
import proofs.«140343_j90855738180235_2_alg».proof.Proof.RefSpecE

set_option maxRecDepth 16384

noncomputable section

namespace Cert.ReferenceIdeal.RefSpec

open Cert.ReferenceIdeal Cert.ReferenceIdeal.Gen Cert.ReferenceIdeal.RefRun
open Idealize.ShloMosaic Idealize.ShloMosaic.ValueIdx
open Cert.Gnn (Arr1 Arr2)

/-- The reference's result is the network over the reference's aggregations and clamped in-degrees. -/
theorem refOut_eq (x : Arr2 100000 35) (e : Vec Ideal S2x3200000 .i32) (We : Arr2 26 8) (be g b : Arr1 8)
    (Wl1 : Arr2 17 64) (bl1 : Arr1 64) (Wr1 : Arr2 17 64)
    (Wl2 : Arr2 64 64) (bl2 : Arr1 64) (Wr2 : Arr2 64 64)
    (Wl3 : Arr2 64 64) (bl3 : Arr1 64) (Wr3 : Arr2 64 64)
    (Wfc : Arr2 64 1) (bfc : Arr1 1) :
    refOut (F := Ideal) x e We be g b Wl1 bl1 Wr1 Wl2 bl2 Wr2 Wl3 bl3 Wr3 Wfc bfc
      = Cert.Gnn.out (fun h => refAgg17 (F := Ideal) h e) (fun h => refAgg64 (F := Ideal) h e) (refCnt (F := Ideal) e)
          x We be g b Wl1 bl1 Wr1 Wl2 bl2 Wr2 Wl3 bl3 Wr3 Wfc bfc := by
  unfold refOut
  rw [refEmbed_eq, refSage1_eq, refSageR_eq, refSageR_eq, refFc_eq]
  rfl

end Cert.ReferenceIdeal.RefSpec

end
-- ==== Proof.Bridge.lean ====
/-
  The two programs share their edge arithmetic: the neighbour sums (rows gathered at the normalised source
  indices, summed at the destination indices from zero) and the clamped in-degrees are the same host
  operations in both, the kernel program's on a copy of the node states in a narrower float format — the
  same numbers on the extended reals.  So the aggregations and the counts of one program are the other's.
-/
import proofs.«140343_j90855738180235_2_alg».proof.Proof.KerOut
import proofs.«140343_j90855738180235_2_alg».proof.Proof.RefStages
import proofs.«140343_j90855738180235_2_alg».proof.Proof.Spec

set_option maxRecDepth 16384

noncomputable section

namespace Cert.Bridge

open Idealize.ShloMosaic Idealize.ShloMosaic.ValueIdx
open Cert.Gnn (Arr1 Arr2)

attribute [local irreducible] Host.gather Host.scatterAdd in
/-- The neighbour sums at width 17 are one function of the node states and the edge table. -/
theorem agg17_eq (h : Arr2 100000 17) (e : (⟨2, ![2, 3200000]⟩ : Shape).Idx → BitVec 32) :
    Cert.ReferenceIdeal.RefRun.refAgg17 (F := Ideal) h e
      = Cert.KernelIdeal.Reads.agg17 (F := Ideal) h (Cert.KernelIdeal.Reads.srcRow (F := Ideal) e) (Cert.KernelIdeal.Reads.dstRow (F := Ideal) e) := rfl

attribute [local irreducible] Host.gather Host.scatterAdd in
/-- The neighbour sums at width 64 are one function of the node states and the edge table. -/
theorem agg64_eq (h : Arr2 100000 64) (e : (⟨2, ![2, 3200000]⟩ : Shape).Idx → BitVec 32) :
    Cert.ReferenceIdeal.RefRun.refAgg64 (F := Ideal) h e
      = Cert.KernelIdeal.Reads.agg64 (F := Ideal) h (Cert.KernelIdeal.Reads.srcRow (F := Ideal) e) (Cert.KernelIdeal.Reads.dstRow (F := Ideal) e) := rfl

attribute [local irreducible] Host.gather Host.scatterAdd in
/-- The clamped in-degrees are one function of the edge table. -/
theorem cnt_eq (e : (⟨2, ![2, 3200000]⟩ : Shape).Idx → BitVec 32) :
    Cert.ReferenceIdeal.RefRun.refCnt (F := Ideal) e = Cert.KernelIdeal.Out.kcnt (Cert.KernelIdeal.Reads.dstRow (F := Ideal) e) := rfl

/-- So the network over the reference's edge arithmetic is the network over the kernel program's. -/
theorem out_eq (e : (⟨2, ![2, 3200000]⟩ : Shape).Idx → BitVec 32)
    (x : Arr2 100000 35) (We : Arr2 26 8) (be g b : Arr1 8)
    (Wl1 : Arr2 17 64) (bl1 : Arr1 64) (Wr1 : Arr2 17 64) (Wl2 : Arr2 64 64) (bl2 : Arr1 64) (Wr2 : Arr2 64 64)
    (Wl3 : Arr2 64 64) (bl3 : Arr1 64) (Wr3 : Arr2 64 64) (Wfc : Arr2 64 1) (bfc : Arr1 1) :
    Cert.Gnn.out (fun h => Cert.ReferenceIdeal.RefRun.refAgg17 (F := Ideal) h e) (fun h => Cert.ReferenceIdeal.RefRun.refAgg64 (F := Ideal) h e)
        (Cert.ReferenceIdeal.RefRun.refCnt (F := Ideal) e) x We be g b Wl1 bl1 Wr1 Wl2 bl2 Wr2 Wl3 bl3 Wr3 Wfc bfc
      = Cert.Gnn.out (fun h => Cert.KernelIdeal.Reads.agg17 (F := Ideal) h (Cert.KernelIdeal.Reads.srcRow (F := Ideal) e) (Cert.KernelIdeal.Reads.dstRow (F := Ideal) e))
          (fun h => Cert.KernelIdeal.Reads.agg64 (F := Ideal) h (Cert.KernelIdeal.Reads.srcRow (F := Ideal) e) (Cert.KernelIdeal.Reads.dstRow (F := Ideal) e))
          (Cert.KernelIdeal.Out.kcnt (Cert.KernelIdeal.Reads.dstRow (F := Ideal) e)) x We be g b Wl1 bl1 Wr1 Wl2 bl2 Wr2 Wl3 bl3 Wr3 Wfc bfc := by
  rw [show (fun h => Cert.ReferenceIdeal.RefRun.refAgg17 (F := Ideal) h e)
        = (fun h => Cert.KernelIdeal.Reads.agg17 (F := Ideal) h (Cert.KernelIdeal.Reads.srcRow (F := Ideal) e) (Cert.KernelIdeal.Reads.dstRow (F := Ideal) e))
        from funext fun h => agg17_eq h e,
    show (fun h => Cert.ReferenceIdeal.RefRun.refAgg64 (F := Ideal) h e)
        = (fun h => Cert.KernelIdeal.Reads.agg64 (F := Ideal) h (Cert.KernelIdeal.Reads.srcRow (F := Ideal) e) (Cert.KernelIdeal.Reads.dstRow (F := Ideal) e))
        from funext fun h => agg64_eq h e,
    cnt_eq e]

end Cert.Bridge

end
-- ==== Proof.lean ====
/-
  A three-layer mean-aggregating graph network over 100000 nodes and 3.2 million edges, computed two ways.

  The kernel program runs four kernels over blocks of 4000 nodes — the family embedding with its layer
  normalisation, two graph layers, the third graph layer fused with the read-out — and leaves the edge arithmetic
  (neighbour sums by gather and scatter-add, in-degrees) to host operations between them; it multiplies neighbour
  sums by reciprocal in-degrees computed once, feeds the matrix products and the gathers from copies in a narrower
  float format, and tiles every node array.  The reference is the same network as whole-array host operations,
  dividing neighbour sums by the in-degrees.

  On the extended reals a change of float format is the identity, a matrix product is its sum of products
  whatever the tiling, and multiplying by `1 / c` is dividing by `c` off `c = 0` — the in-degrees are clamped below
  by one.  Each program's result is therefore the one network of Proof/Spec.lean over its own edge arithmetic
  (Proof/KerOut.lean, Proof/RefSpec.lean), and the two programs' edge arithmetic is the same host operations
  (Proof/Bridge.lean).  The frames of the two kernel programs are the generated ones; the reference's frame is its
  run (Proof/RefValue.lean) with the result dropped; the idealization rewrote nothing.
-/
import proofs.«140343_j90855738180235_2_alg».proof.Defs
import proofs.«140343_j90855738180235_2_alg».proof.Proof.Gen.Kernel
import proofs.«140343_j90855738180235_2_alg».proof.Proof.Gen.Kernel.Skeleton
import proofs.«140343_j90855738180235_2_alg».proof.Proof.Gen.Kernel.Launch
import proofs.«140343_j90855738180235_2_alg».proof.Proof.Gen.Kernel.Points
import proofs.«140343_j90855738180235_2_alg».proof.Proof.Gen.Kernel.Frame
import proofs.«140343_j90855738180235_2_alg».proof.Proof.Gen.KernelIdeal
import proofs.«140343_j90855738180235_2_alg».proof.Proof.Gen.KernelIdeal.Skeleton
import proofs.«140343_j90855738180235_2_alg».proof.Proof.Gen.KernelIdeal.Launch
import proofs.«140343_j90855738180235_2_alg».proof.Proof.Gen.KernelIdeal.Points
import proofs.«140343_j90855738180235_2_alg».proof.Proof.Gen.KernelIdeal.Frame
import proofs.«140343_j90855738180235_2_alg».proof.Proof.Gen.ReferenceIdeal
import proofs.«140343_j90855738180235_2_alg».proof.Proof.Gen.Pre_finite_inputs
import proofs.«140343_j90855738180235_2_alg».proof.Proof.KerRun
import proofs.«140343_j90855738180235_2_alg».proof.Proof.KerOut
import proofs.«140343_j90855738180235_2_alg».proof.Proof.RefValue
import proofs.«140343_j90855738180235_2_alg».proof.Proof.RefSpec
import proofs.«140343_j90855738180235_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the network's value of those arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Out.ker_out m ρ c), (h c).2⟩) (Cert.KernelIdeal.Run.run_result (F := Ideal) m ρ), ?_⟩
  refine (θ_run Cert.ReferenceIdeal.defs _ _).mono (fun r h c => ⟨(h c).1.trans ?_, (h c).2⟩)
    (Cert.ReferenceIdeal.RefRun.run (F := Ideal) m' ρ')
  obtain ⟨a0, a1, a2, a3, a4, a5, a6, a7, a8, a9, a10, a11, a12, a13, a14, a15, a16⟩ := hagree c
  rw [a0, a1, a2, a3, a4, a5, a6, a7, a8, a9, a10, a11, a12, a13, a14, a15, a16, Cert.ReferenceIdeal.RefSpec.refOut_eq]
  exact Cert.Bridge.out_eq _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
